-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x20000 : Shape := ⟨2, ![2048, 20000]⟩
abbrev S20000x4000 : Shape := ⟨2, ![20000, 4000]⟩
abbrev S4000x500 : Shape := ⟨2, ![4000, 500]⟩
abbrev S4000 : Shape := ⟨1, ![4000]⟩
abbrev S500 : Shape := ⟨1, ![500]⟩
abbrev S_ : Shape := ⟨0, ![]⟩

class Facts : Prop where
  bcast_S_S2048x20000 : S_.BroadcastsInDim S2048x20000 (![] : Fin 0 → Fin S2048x20000.rank)
  reducesTo_S2048x20000_S_d0_1 : S2048x20000.ReducesTo [0, 1] S_
  h_S_ : 0 < S_.numel
  bcast_S_S20000x4000 : S_.BroadcastsInDim S20000x4000 (![] : Fin 0 → Fin S20000x4000.rank)
  reducesTo_S20000x4000_S_d0_1 : S20000x4000.ReducesTo [0, 1] S_
  bcast_S_S4000x500 : S_.BroadcastsInDim S4000x500 (![] : Fin 0 → Fin S4000x500.rank)
  reducesTo_S4000x500_S_d0_1 : S4000x500.ReducesTo [0, 1] S_
  bcast_S_S4000 : S_.BroadcastsInDim S4000 (![] : Fin 0 → Fin S4000.rank)
  reducesTo_S4000_S_d0 : S4000.ReducesTo [0] S_
  bcast_S_S500 : S_.BroadcastsInDim S500 (![] : Fin 0 → Fin S500.rank)
  reducesTo_S500_S_d0 : S500.ReducesTo [0] S_

variable [Facts]

def fn_part4 {F : FTy → Type} [FloatOps F] (main_arg14 : FVec F S500 .f32) (main_v63 : IVec S_ 1) (main_v67 : IVec S_ 1) : IVec S_ 1 :=
  let main_v68 : IVec S_ 1 := andi main_v63 main_v67
  let main_v69 : FVec F S500 .f32 := Host.absf main_arg14
  let main_cst_26 : FVec F S_ .f32 := constant S_ .f32 0x7F800000#32
  let main_v70 : FVec F S500 .f32 := broadcastInDim S500 ![] bcast_S_S500 main_cst_26
  let main_v71 : IVec S500 1 := cmpf .olt main_v69 main_v70
  let main_c_27 : IVec S_ 1 := constantI S_ 1 1#1
  let main_v72 : IVec S_ 1 := (fun x v => Host.reduce IntOp.andi x v reducesTo_S500_S_d0 h_S_) main_v71 main_c_27
  let main_v73 : IVec S_ 1 := andi main_v68 main_v72
  main_v73

def fn_part3 {F : FTy → Type} [FloatOps F] (main_arg11 : FVec F S500 .f32) (main_arg12 : FVec F S500 .f32) (main_arg13 : FVec F S500 .f32) (main_arg14 : FVec F S500 .f32) (main_v48 : IVec S_ 1) (main_v49 : FVec F S4000 .f32) (main_v50 : FVec F S4000 .f32) : IVec S_ 1 :=
  let main_v51 : IVec S4000 1 := cmpf .olt main_v49 main_v50
  let main_c_19 : IVec S_ 1 := constantI S_ 1 1#1
  let main_v52 : IVec S_ 1 := (fun x v => Host.reduce IntOp.andi x v reducesTo_S4000_S_d0 h_S_) main_v51 main_c_19
  let main_v53 : IVec S_ 1 := andi main_v48 main_v52
  let main_v54 : FVec F S500 .f32 := Host.absf main_arg11
  let main_cst_20 : FVec F S_ .f32 := constant S_ .f32 0x7F800000#32
  let main_v55 : FVec F S500 .f32 := broadcastInDim S500 ![] bcast_S_S500 main_cst_20
  let main_v56 : IVec S500 1 := cmpf .olt main_v54 main_v55
  let main_c_21 : IVec S_ 1 := constantI S_ 1 1#1
  let main_v57 : IVec S_ 1 := (fun x v => Host.reduce IntOp.andi x v reducesTo_S500_S_d0 h_S_) main_v56 main_c_21
  let main_v58 : IVec S_ 1 := andi main_v53 main_v57
  let main_v59 : FVec F S500 .f32 := Host.absf main_arg12
  let main_cst_22 : FVec F S_ .f32 := constant S_ .f32 0x7F800000#32
  let main_v60 : FVec F S500 .f32 := broadcastInDim S500 ![] bcast_S_S500 main_cst_22
  let main_v61 : IVec S500 1 := cmpf .olt main_v59 main_v60
  let main_c_23 : IVec S_ 1 := constantI S_ 1 1#1
  let main_v62 : IVec S_ 1 := (fun x v => Host.reduce IntOp.andi x v reducesTo_S500_S_d0 h_S_) main_v61 main_c_23
  let main_v63 : IVec S_ 1 := andi main_v58 main_v62
  let main_v64 : FVec F S500 .f32 := Host.absf main_arg13
  let main_cst_24 : FVec F S_ .f32 := constant S_ .f32 0x7F800000#32
  let main_v65 : FVec F S500 .f32 := broadcastInDim S500 ![] bcast_S_S500 main_cst_24
  let main_v66 : IVec S500 1 := cmpf .olt main_v64 main_v65
  let main_c_25 : IVec S_ 1 := constantI S_ 1 1#1
  let main_v67 : IVec S_ 1 := (fun x v => Host.reduce IntOp.andi x v reducesTo_S500_S_d0 h_S_) main_v66 main_c_25
  fn_part4 (F := F) main_arg14 main_v63 main_v67

def fn_part2 {F : FTy → Type} [FloatOps F] (main_arg7 : FVec F S4000 .f32) (main_arg8 : FVec F S4000 .f32) (main_arg9 : FVec F S4000 .f32) (main_arg10 : FVec F S4000 .f32) (main_arg11 : FVec F S500 .f32) (main_arg12 : FVec F S500 .f32) (main_arg13 : FVec F S500 .f32) (main_arg14 : FVec F S500 .f32) (main_v33 : IVec S_ 1) : IVec S_ 1 :=
  let main_v34 : FVec F S4000 .f32 := Host.absf main_arg7
  let main_cst_12 : FVec F S_ .f32 := constant S_ .f32 0x7F800000#32
  let main_v35 : FVec F S4000 .f32 := broadcastInDim S4000 ![] bcast_S_S4000 main_cst_12
  let main_v36 : IVec S4000 1 := cmpf .olt main_v34 main_v35
  let main_c_13 : IVec S_ 1 := constantI S_ 1 1#1
  let main_v37 : IVec S_ 1 := (fun x v => Host.reduce IntOp.andi x v reducesTo_S4000_S_d0 h_S_) main_v36 main_c_13
  let main_v38 : IVec S_ 1 := andi main_v33 main_v37
  let main_v39 : FVec F S4000 .f32 := Host.absf main_arg8
  let main_cst_14 : FVec F S_ .f32 := constant S_ .f32 0x7F800000#32
  let main_v40 : FVec F S4000 .f32 := broadcastInDim S4000 ![] bcast_S_S4000 main_cst_14
  let main_v41 : IVec S4000 1 := cmpf .olt main_v39 main_v40
  let main_c_15 : IVec S_ 1 := constantI S_ 1 1#1
  let main_v42 : IVec S_ 1 := (fun x v => Host.reduce IntOp.andi x v reducesTo_S4000_S_d0 h_S_) main_v41 main_c_15
  let main_v43 : IVec S_ 1 := andi main_v38 main_v42
  let main_v44 : FVec F S4000 .f32 := Host.absf main_arg9
  let main_cst_16 : FVec F S_ .f32 := constant S_ .f32 0x7F800000#32
  let main_v45 : FVec F S4000 .f32 := broadcastInDim S4000 ![] bcast_S_S4000 main_cst_16
  let main_v46 : IVec S4000 1 := cmpf .olt main_v44 main_v45
  let main_c_17 : IVec S_ 1 := constantI S_ 1 1#1
  let main_v47 : IVec S_ 1 := (fun x v => Host.reduce IntOp.andi x v reducesTo_S4000_S_d0 h_S_) main_v46 main_c_17
  let main_v48 : IVec S_ 1 := andi main_v43 main_v47
  let main_v49 : FVec F S4000 .f32 := Host.absf main_arg10
  let main_cst_18 : FVec F S_ .f32 := constant S_ .f32 0x7F800000#32
  let main_v50 : FVec F S4000 .f32 := broadcastInDim S4000 ![] bcast_S_S4000 main_cst_18
  fn_part3 (F := F) main_arg11 main_arg12 main_arg13 main_arg14 main_v48 main_v49 main_v50

def fn_part1 {F : FTy → Type} [FloatOps F] (main_arg4 : FVec F S4000 .f32) (main_arg5 : FVec F S4000x500 .f32) (main_arg6 : FVec F S500 .f32) (main_arg7 : FVec F S4000 .f32) (main_arg8 : FVec F S4000 .f32) (main_arg9 : FVec F S4000 .f32) (main_arg10 : FVec F S4000 .f32) (main_arg11 : FVec F S500 .f32) (main_arg12 : FVec F S500 .f32) (main_arg13 : FVec F S500 .f32) (main_arg14 : FVec F S500 .f32) (main_v13 : IVec S_ 1) (main_v16 : IVec S20000x4000 1) : IVec S_ 1 :=
  let main_c_5 : IVec S_ 1 := constantI S_ 1 1#1
  let main_v17 : IVec S_ 1 := (fun x v => Host.reduce IntOp.andi x v reducesTo_S20000x4000_S_d0_1 h_S_) main_v16 main_c_5
  let main_v18 : IVec S_ 1 := andi main_v13 main_v17
  let main_v19 : FVec F S4000 .f32 := Host.absf main_arg4
  let main_cst_6 : FVec F S_ .f32 := constant S_ .f32 0x7F800000#32
  let main_v20 : FVec F S4000 .f32 := broadcastInDim S4000 ![] bcast_S_S4000 main_cst_6
  let main_v21 : IVec S4000 1 := cmpf .olt main_v19 main_v20
  let main_c_7 : IVec S_ 1 := constantI S_ 1 1#1
  let main_v22 : IVec S_ 1 := (fun x v => Host.reduce IntOp.andi x v reducesTo_S4000_S_d0 h_S_) main_v21 main_c_7
  let main_v23 : IVec S_ 1 := andi main_v18 main_v22
  let main_v24 : FVec F S4000x500 .f32 := Host.absf main_arg5
  let main_cst_8 : FVec F S_ .f32 := constant S_ .f32 0x7F800000#32
  let main_v25 : FVec F S4000x500 .f32 := broadcastInDim S4000x500 ![] bcast_S_S4000x500 main_cst_8
  let main_v26 : IVec S4000x500 1 := cmpf .olt main_v24 main_v25
  let main_c_9 : IVec S_ 1 := constantI S_ 1 1#1
  let main_v27 : IVec S_ 1 := (fun x v => Host.reduce IntOp.andi x v reducesTo_S4000x500_S_d0_1 h_S_) main_v26 main_c_9
  let main_v28 : IVec S_ 1 := andi main_v23 main_v27
  let main_v29 : FVec F S500 .f32 := Host.absf main_arg6
  let main_cst_10 : FVec F S_ .f32 := constant S_ .f32 0x7F800000#32
  let main_v30 : FVec F S500 .f32 := broadcastInDim S500 ![] bcast_S_S500 main_cst_10
  let main_v31 : IVec S500 1 := cmpf .olt main_v29 main_v30
  let main_c_11 : IVec S_ 1 := constantI S_ 1 1#1
  let main_v32 : IVec S_ 1 := (fun x v => Host.reduce IntOp.andi x v reducesTo_S500_S_d0 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S2048x20000 .f32) (main_arg1 : FVec F S20000x4000 .f32) (main_arg2 : FVec F S4000x500 .f32) (main_arg3 : FVec F S20000x4000 .f32) (main_arg4 : FVec F S4000 .f32) (main_arg5 : FVec F S4000x500 .f32) (main_arg6 : FVec F S500 .f32) (main_arg7 : FVec F S4000 .f32) (main_arg8 : FVec F S4000 .f32) (main_arg9 : FVec F S4000 .f32) (main_arg10 : FVec F S4000 .f32) (main_arg11 : FVec F S500 .f32) (main_arg12 : FVec F S500 .f32) (main_arg13 : FVec F S500 .f32) (main_arg14 : FVec F S500 .f32) : IVec S_ 1 :=
  let main_v0 : FVec F S2048x20000 .f32 := Host.absf main_arg0
  let main_cst : FVec F S_ .f32 := constant S_ .f32 0x7F800000#32
  let main_v1 : FVec F S2048x20000 .f32 := broadcastInDim S2048x20000 ![] bcast_S_S2048x20000 main_cst
  let main_v2 : IVec S2048x20000 1 := cmpf .olt main_v0 main_v1
  let main_c : IVec S_ 1 := constantI S_ 1 1#1
  let main_v3 : IVec S_ 1 := (fun x v => Host.reduce IntOp.andi x v reducesTo_S2048x20000_S_d0_1 h_S_) main_v2 main_c
  let main_v4 : FVec F S20000x4000 .f32 := Host.absf main_arg1
  let main_cst_0 : FVec F S_ .f32 := constant S_ .f32 0x7F800000#32
  let main_v5 : FVec F S20000x4000 .f32 := broadcastInDim S20000x4000 ![] bcast_S_S20000x4000 main_cst_0
  let main_v6 : IVec S20000x4000 1 := cmpf .olt main_v4 main_v5
  let main_c_1 : IVec S_ 1 := constantI S_ 1 1#1
  let main_v7 : IVec S_ 1 := (fun x v => Host.reduce IntOp.andi x v reducesTo_S20000x4000_S_d0_1 h_S_) main_v6 main_c_1
  let main_v8 : IVec S_ 1 := andi main_v3 main_v7
  let main_v9 : FVec F S4000x500 .f32 := Host.absf main_arg2
  let main_cst_2 : FVec F S_ .f32 := constant S_ .f32 0x7F800000#32
  let main_v10 : FVec F S4000x500 .f32 := broadcastInDim S4000x500 ![] bcast_S_S4000x500 main_cst_2
  let main_v11 : IVec S4000x500 1 := cmpf .olt main_v9 main_v10
  let main_c_3 : IVec S_ 1 := constantI S_ 1 1#1
  let main_v12 : IVec S_ 1 := (fun x v => Host.reduce IntOp.andi x v reducesTo_S4000x500_S_d0_1 h_S_) main_v11 main_c_3
  let main_v13 : IVec S_ 1 := andi main_v8 main_v12
  let main_v14 : FVec F S20000x4000 .f32 := Host.absf main_arg3
  let main_cst_4 : FVec F S_ .f32 := constant S_ .f32 0x7F800000#32
  let main_v15 : FVec F S20000x4000 .f32 := broadcastInDim S20000x4000 ![] bcast_S_S20000x4000 main_cst_4
  let main_v16 : IVec S20000x4000 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S2048x20000 : Shape := ⟨2, ![2048, 20000]⟩
abbrev S20000x4000 : Shape := ⟨2, ![20000, 4000]⟩
abbrev S4000x500 : Shape := ⟨2, ![4000, 500]⟩
abbrev S4000 : Shape := ⟨1, ![4000]⟩
abbrev S500 : Shape := ⟨1, ![500]⟩
abbrev S_ : Shape := ⟨0, ![]⟩
abbrev S20480x4000 : Shape := ⟨2, ![20480, 4000]⟩
abbrev S2048x20480 : Shape := ⟨2, ![2048, 20480]⟩
abbrev S1x4000 : Shape := ⟨2, ![1, 4000]⟩
abbrev S2048x4000 : Shape := ⟨2, ![2048, 4000]⟩
abbrev S1024x1280 : Shape := ⟨2, ![1024, 1280]⟩
abbrev S1280x2048 : Shape := ⟨2, ![1280, 2048]⟩
abbrev S1x2048 : Shape := ⟨2, ![1, 2048]⟩
abbrev S1024x2048 : Shape := ⟨2, ![1024, 2048]⟩
abbrev S4000x512 : Shape := ⟨2, ![4000, 512]⟩
abbrev S512 : Shape := ⟨1, ![512]⟩
abbrev S1x512 : Shape := ⟨2, ![1, 512]⟩
abbrev S2048x512 : Shape := ⟨2, ![2048, 512]⟩
abbrev S1024x4000 : Shape := ⟨2, ![1024, 4000]⟩
abbrev S1024x512 : Shape := ⟨2, ![1024, 512]⟩
abbrev S2048x500 : Shape := ⟨2, ![2048, 500]⟩

abbrev nBuf : Space → Nat
  | .hbm => 61
  | .vmem => 21
  | .smem => 0
  | _ => 0

abbrev bufTy : (tb : Table) → Fin (tcTables nBuf tb) → BufTy
  | .hbm, ⟨0, _⟩ => ⟨S2048x20000, .f32⟩
  | .hbm, ⟨1, _⟩ => ⟨S20000x4000, .f32⟩
  | .hbm, ⟨2, _⟩ => ⟨S4000x500, .f32⟩
  | .hbm, ⟨3, _⟩ => ⟨S20000x4000, .f32⟩
  | .hbm, ⟨4, _⟩ => ⟨S4000, .f32⟩
  | .hbm, ⟨5, _⟩ => ⟨S4000x500, .f32⟩
  | .hbm, ⟨6, _⟩ => ⟨S500, .f32⟩
  | .hbm, ⟨7, _⟩ => ⟨S4000, .f32⟩
  | .hbm, ⟨8, _⟩ => ⟨S4000, .f32⟩
  | .hbm, ⟨9, _⟩ => ⟨S4000, .f32⟩
  | .hbm, ⟨10, _⟩ => ⟨S4000, .f32⟩
  | .hbm, ⟨11, _⟩ => ⟨S500, .f32⟩
  | .hbm, ⟨12, _⟩ => ⟨S500, .f32⟩
  | .hbm, ⟨13, _⟩ => ⟨S500, .f32⟩
  | .hbm, ⟨14, _⟩ => ⟨S500, .f32⟩
  | .hbm, ⟨15, _⟩ => ⟨S20000x4000, .f32⟩
  | .hbm, ⟨16, _⟩ => ⟨S20000x4000, .bf16⟩
  | .hbm, ⟨17, _⟩ => ⟨S_, .i32⟩
  | .hbm, ⟨18, _⟩ => ⟨S_, .bf16⟩
  | .hbm, ⟨19, _⟩ => ⟨S20480x4000, .bf16⟩
  | .hbm, ⟨20, _⟩ => ⟨S2048x20000, .bf16⟩
  | .hbm, ⟨21, _⟩ => ⟨S_, .i32⟩
  | .hbm, ⟨22, _⟩ => ⟨S_, .bf16⟩
  | .hbm, ⟨23, _⟩ => ⟨S2048x20480, .bf16⟩
  | .hbm, ⟨24, _⟩ => ⟨S_, .f32⟩
  | .hbm, ⟨25, _⟩ => ⟨S4000, .f32⟩
  | .hbm, ⟨26, _⟩ => ⟨S4000, .f32⟩
  | .hbm, ⟨27, _⟩ => ⟨S4000, .f32⟩
  | .hbm, ⟨28, _⟩ => ⟨S4000, .f32⟩
  | .hbm, ⟨29, _⟩ => ⟨S4000, .f32⟩
  | .hbm, ⟨30, _⟩ => ⟨S4000, .f32⟩
  | .hbm, ⟨31, _⟩ => ⟨S1x4000, .f32⟩
  | .hbm, ⟨32, _⟩ => ⟨S1x4000, .f32⟩
  | .hbm, ⟨33, _⟩ => ⟨S1x4000, .f32⟩
  | .hbm, ⟨34, _⟩ => ⟨S2048x4000, .bf16⟩
  | .hbm, ⟨35, _⟩ => ⟨S4000x500, .f32⟩
  | .hbm, ⟨36, _⟩ => ⟨S4000x500, .bf16⟩
  | .hbm, ⟨37, _⟩ => ⟨S_, .i32⟩
  | .hbm, ⟨38, _⟩ => ⟨S_, .bf16⟩
  | .hbm, ⟨39, _⟩ => ⟨S4000x512, .bf16⟩
  | .hbm, ⟨40, _⟩ => ⟨S_, .f32⟩
  | .hbm, ⟨41, _⟩ => ⟨S500, .f32⟩
  | .hbm, ⟨42, _⟩ => ⟨S500, .f32⟩
  | .hbm, ⟨43, _⟩ => ⟨S500, .f32⟩
  | .hbm, ⟨44, _⟩ => ⟨S500, .f32⟩
  | .hbm, ⟨45, _⟩ => ⟨S500, .f32⟩
  | .hbm, ⟨46, _⟩ => ⟨S500, .f32⟩
  | .hbm, ⟨47, _⟩ => ⟨S_, .i32⟩
  | .hbm, ⟨48, _⟩ => ⟨S_, .f32⟩
  | .hbm, ⟨49, _⟩ => ⟨S512, .f32⟩
  | .hbm, ⟨50, _⟩ => ⟨S_, .i32⟩
  | .hbm, ⟨51, _⟩ => ⟨S_, .f32⟩
  | .hbm, ⟨52, _⟩ => ⟨S512, .f32⟩
  | .hbm, ⟨53, _⟩ => ⟨S_, .i32⟩
  | .hbm, ⟨54, _⟩ => ⟨S_, .f32⟩
  | .hbm, ⟨55, _⟩ => ⟨S512, .f32⟩
  | .hbm, ⟨56, _⟩ => ⟨S1x512, .f32⟩
  | .hbm, ⟨57, _⟩ => ⟨S1x512, .f32⟩
  | .hbm, ⟨58, _⟩ => ⟨S1x512, .f32⟩
  | .hbm, ⟨59, _⟩ => ⟨S2048x512, .f32⟩
  | .hbm, ⟨60, _⟩ => ⟨S2048x500, .f32⟩
  | .local _ .vmem, ⟨0, _⟩ => ⟨S1024x1280, .bf16⟩
  | .local _ .vmem, ⟨1, _⟩ => ⟨S1024x1280, .bf16⟩
  | .local _ .vmem, ⟨2, _⟩ => ⟨S1280x2048, .bf16⟩
  | .local _ .vmem, ⟨3, _⟩ => ⟨S1280x2048, .bf16⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S1x2048, .f32⟩
  | .local _ .vmem, ⟨9, _⟩ => ⟨S1x2048, .f32⟩
  | .local _ .vmem, ⟨10, _⟩ => ⟨S1024x2048, .bf16⟩
  | .local _ .vmem, ⟨11, _⟩ => ⟨S1024x2048, .bf16⟩
  | .local _ .vmem, ⟨12, _⟩ => ⟨S1024x2048, .f32⟩
  | .local _ .vmem, ⟨13, _⟩ => ⟨S1024x4000, .bf16⟩
  | .local _ .vmem, ⟨14, _⟩ => ⟨S1024x4000, .bf16⟩
  | .local _ .vmem, ⟨15, _⟩ => ⟨S4000x512, .bf16⟩
  | .local _ .vmem, ⟨16, _⟩ => ⟨S1x512, .f32⟩
  | .local _ .vmem, ⟨17, _⟩ => ⟨S1x512, .f32⟩
  | .local _ .vmem, ⟨18, _⟩ => ⟨S1x512, .f32⟩
  | .local _ .vmem, ⟨19, _⟩ => ⟨S1024x512, .f32⟩
  | .local _ .vmem, ⟨20, _⟩ => ⟨S1024x512, .f32⟩
  | _, _ => ⟨S2048x20000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_c : Ref sig .tc := ⟨.hbm, 17, rfl⟩
abbrev main_call0_v0 : Ref sig .tc := ⟨.hbm, 18, rfl⟩
abbrev main_v2 : Ref sig .tc := ⟨.hbm, 19, rfl⟩
abbrev main_v3 : Ref sig .tc := ⟨.hbm, 20, rfl⟩
abbrev main_c_0 : Ref sig .tc := ⟨.hbm, 21, rfl⟩
abbrev main_call1_v0 : Ref sig .tc := ⟨.hbm, 22, rfl⟩
abbrev main_v4 : Ref sig .tc := ⟨.hbm, 23, rfl⟩
abbrev main_cst : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_c_1 : Ref sig .tc := ⟨.hbm, 37, rfl⟩
abbrev main_call2_v0 : Ref sig .tc := ⟨.hbm, 38, rfl⟩
abbrev main_v17 : Ref sig .tc := ⟨.hbm, 39, rfl⟩
abbrev main_cst_2 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_c_3 : Ref sig .tc := ⟨.hbm, 47, rfl⟩
abbrev main_call3_v0 : Ref sig .tc := ⟨.hbm, 48, rfl⟩
abbrev main_v24 : Ref sig .tc := ⟨.hbm, 49, rfl⟩
abbrev main_c_4 : Ref sig .tc := ⟨.hbm, 50, rfl⟩
abbrev main_call4_v0 : Ref sig .tc := ⟨.hbm, 51, rfl⟩
abbrev main_v25 : Ref sig .tc := ⟨.hbm, 52, rfl⟩
abbrev main_c_5 : Ref sig .tc := ⟨.hbm, 53, rfl⟩
abbrev main_call5_v0 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg5_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨3, ![2, 2, 16], ![false, false, false]⟩

def k0_cond2 (i : grid0.Coords) : BitVec 1 :=
  let arg2 : BitVec 32 := BitVec.ofNat 32 (i 2).val
  let c15_i32 : BitVec 32 := 15#32
  let v13 : BitVec 1 := Scalar.cmpi .eq arg2 c15_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1280x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1024x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x4000 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4000x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1024x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bitsLt_bf16_f32 : FTy.bits .bf16 < FTy.bits .f32
  pads_S20000x4000_S20480x4000_04800_000 : S20000x4000.Pads (![0, 0] : Fin 2 → Nat) ![480, 0] ![0, 0] S20480x4000
  h_S_ : 0 < S_.numel
  pads_S2048x20000_S2048x20480_000_04800 : S2048x20000.Pads (![0, 0] : Fin 2 → Nat) ![0, 480] ![0, 0] S2048x20480
  bcast_S_S4000 : S_.BroadcastsInDim S4000 (![] : Fin 0 → Fin S4000.rank)
  shapeCasts_S4000_S1x4000 : S4000.ShapeCasts S1x4000
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x1280_S1024x1280_0_0 : ∀ a, (![0, 0] : Fin 2 → Nat) a + S1024x1280.size a ≤ S1024x1280.size a
  h_S1024x1280 : 0 < S1024x1280.numel
  shapeCasts_S1024x1280_S1024x1280 : S1024x1280.ShapeCasts S1024x1280
  inb_S1280x2048_S1280x2048_0_0 : ∀ a, (![0, 0] : Fin 2 → Nat) a + S1280x2048.size a ≤ S1280x2048.size a
  h_S1280x2048 : 0 < S1280x2048.numel
  shapeCasts_S1280x2048_S1280x2048 : S1280x2048.ShapeCasts S1280x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  packedbf16_S1024x2048_S1024x2048_0_0 : (Rect.unit (s := S1024x2048) ![0, 0] S1024x2048.size inb_S1024x2048_S1024x2048_0_0).PackedRows (EltTy.packing .bf16)
  pads_S4000x500_S4000x512_000_0120 : S4000x500.Pads (![0, 0] : Fin 2 → Nat) ![0, 12] ![0, 0] S4000x512
  bcast_S_S500 : S_.BroadcastsInDim S500 (![] : Fin 0 → Fin S500.rank)
  pads_S500_S512_0120 : S500.Pads (![0] : Fin 1 → Nat) ![12] ![0] S512
  shapeCasts_S512_S1x512 : S512.ShapeCasts S1x512
  inb_S1024x4000_S1024x4000_0_0 : ∀ a, (![0, 0] : Fin 2 → Nat) a + S1024x4000.size a ≤ S1024x4000.size a
  h_S1024x4000 : 0 < S1024x4000.numel
  shapeCasts_S1024x4000_S1024x4000 : S1024x4000.ShapeCasts S1024x4000
  inb_S4000x512_S4000x512_0_0 : ∀ a, (![0, 0] : Fin 2 → Nat) a + S4000x512.size a ≤ S4000x512.size a
  h_S4000x512 : 0 < S4000x512.numel
  shapeCasts_S4000x512_S4000x512 : S4000x512.ShapeCasts S4000x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  slices_S2048x512_S2048x500_0_0 : S2048x512.Slices ![0, 0] S2048x500
  dot_S1024x1280_S1280x2048_S1024x2048_1_0_0_1_n_n_wf : DotDims.WF S1024x1280 S1280x2048 S1024x2048 [1] [0] [0] [1] [] []
  dot_S1024x4000_S4000x512_S1024x512_1_0_0_1_n_n_wf : DotDims.WF S1024x4000 S4000x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1280.size a ≤ S2048x20480.size a
  hwx0_0 : ∀ i : grid0.Coords, EltTy.bits .bf16 = 32 ∨ (Rect.block (s := S2048x20480) S1024x1280.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S1280x2048.size a < S20480x4000.size a
  hwx0_1 : ∀ i : grid0.Coords, EltTy.bits .bf16 = 32 ∨ (Rect.unit (s := S20480x4000) (fun a => cc0_transform_1 i a * S1280x2048.size a) (fun a => (Pipeline.Clip.of (cc0_transform_1 i a) (S1280x2048.size a) (S20480x4000.size a)).extent (S1280x2048.size a)) fun a => Pipeline.Clip.inb (Pipeline.Clip.ok_of (hstart0_1 i a))).WholeWords (EltTy.packing .bf16)
  hwxs0_1 : ∀ i : grid0.Coords, EltTy.bits .bf16 = 32 ∨ (Rect.unit (s := S1280x2048) (fun _ => 0) (fun a => (Pipeline.Clip.of (cc0_transform_1 i a) (S1280x2048.size a) (S20480x4000.size a)).extent (S1280x2048.size a)) fun a => (Nat.zero_add _).trans_le (Pipeline.Clip.extent_le (Pipeline.Clip.ok_of (hstart0_1 i a)))).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S1x2048.size a < S1x4000.size a
  hwx0_2 : ∀ i : grid0.Coords, EltTy.bits .f32 = 32 ∨ (Rect.unit (s := S1x4000) (fun a => cc0_transform_2 i a * S1x2048.size a) (fun a => (Pipeline.Clip.of (cc0_transform_2 i a) (S1x2048.size a) (S1x4000.size a)).extent (S1x2048.size a)) fun a => Pipeline.Clip.inb (Pipeline.Clip.ok_of (hstart0_2 i a))).WholeWords (EltTy.packing .f32)
  hwxs0_2 : ∀ i : grid0.Coords, EltTy.bits .f32 = 32 ∨ (Rect.unit (s := S1x2048) (fun _ => 0) (fun a => (Pipeline.Clip.of (cc0_transform_2 i a) (S1x2048.size a) (S1x4000.size a)).extent (S1x2048.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S1x2048.size a < S1x4000.size a
  hwx0_3 : ∀ i : grid0.Coords, EltTy.bits .f32 = 32 ∨ (Rect.unit (s := S1x4000) (fun a => cc0_transform_3 i a * S1x2048.size a) (fun a => (Pipeline.Clip.of (cc0_transform_3 i a) (S1x2048.size a) (S1x4000.size a)).extent (S1x2048.size a)) fun a => Pipeline.Clip.inb (Pipeline.Clip.ok_of (hstart0_3 i a))).WholeWords (EltTy.packing .f32)
  hwxs0_3 : ∀ i : grid0.Coords, EltTy.bits .f32 = 32 ∨ (Rect.unit (s := S1x2048) (fun _ => 0) (fun a => (Pipeline.Clip.of (cc0_transform_3 i a) (S1x2048.size a) (S1x4000.size a)).extent (S1x2048.size a)) fun a => (Nat.zero_add _).trans_le (Pipeline.Clip.extent_le (Pipeline.Clip.ok_of (hstart0_3 i a)))).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S1x2048.size a < S1x4000.size a
  hwx0_4 : ∀ i : grid0.Coords, EltTy.bits .f32 = 32 ∨ (Rect.unit (s := S1x4000) (fun a => cc0_transform_4 i a * S1x2048.size a) (fun a => (Pipeline.Clip.of (cc0_transform_4 i a) (S1x2048.size a) (S1x4000.size a)).extent (S1x2048.size a)) fun a => Pipeline.Clip.inb (Pipeline.Clip.ok_of (hstart0_4 i a))).WholeWords (EltTy.packing .f32)
  hwxs0_4 : ∀ i : grid0.Coords, EltTy.bits .f32 = 32 ∨ (Rect.unit (s := S1x2048) (fun _ => 0) (fun a => (Pipeline.Clip.of (cc0_transform_4 i a) (S1x2048.size a) (S1x4000.size a)).extent (S1x2048.size a)) fun a => (Nat.zero_add _).trans_le (Pipeline.Clip.extent_le (Pipeline.Clip.ok_of (hstart0_4 i a)))).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hstart0_5 : ∀ (i : grid0.Coords) a, cc0_transform_5 i a * S1024x2048.size a < S2048x4000.size a
  hwx0_5 : ∀ i : grid0.Coords, EltTy.bits .bf16 = 32 ∨ (Rect.unit (s := S2048x4000) (fun a => cc0_transform_5 i a * S1024x2048.size a) (fun a => (Pipeline.Clip.of (cc0_transform_5 i a) (S1024x2048.size a) (S2048x4000.size a)).extent (S1024x2048.size a)) fun a => Pipeline.Clip.inb (Pipeline.Clip.ok_of (hstart0_5 i a))).WholeWords (EltTy.packing .bf16)
  hwxs0_5 : ∀ i : grid0.Coords, EltTy.bits .bf16 = 32 ∨ (Rect.unit (s := S1024x2048) (fun _ => 0) (fun a => (Pipeline.Clip.of (cc0_transform_5 i a) (S1024x2048.size a) (S2048x4000.size a)).extent (S1024x2048.size a)) fun a => (Nat.zero_add _).trans_le (Pipeline.Clip.extent_le (Pipeline.Clip.ok_of (hstart0_5 i a)))).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x4000.size a ≤ S2048x4000.size a
  hwx1_0 : ∀ i : grid1.Coords, EltTy.bits .bf16 = 32 ∨ (Rect.block (s := S2048x4000) S1024x4000.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4000x512.size a ≤ S4000x512.size a
  hwx1_1 : ∀ i : grid1.Coords, EltTy.bits .bf16 = 32 ∨ (Rect.block (s := S4000x512) S4000x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .f32 = 32 ∨ (Rect.block (s := S1x512) S1x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x512.size a
  hwx1_4 : ∀ i : grid1.Coords, EltTy.bits .f32 = 32 ∨ (Rect.block (s := S1x512) S1x512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x512.size a ≤ S2048x512.size a
  hwx1_5 : ∀ i : grid1.Coords, EltTy.bits .f32 = 32 ∨ (Rect.block (s := S2048x512) S1024x512.size (cc1_transform_5 i) (hinb1_5 i)).WholeWords (EltTy.packing .f32)

variable [Facts₀]

def dot_S1024x1280_S1280x2048_S1024x2048_1_0_0_1_n_n : DotDims S1024x1280 S1280x2048 S1024x2048 where
  lhsContracting := [1]
  rhsContracting := [0]
  lhsNonContracting := [0]
  rhsNonContracting := [1]
  lhsBatch := []
  rhsBatch := []
  wf := dot_S1024x1280_S1280x2048_S1024x2048_1_0_0_1_n_n_wf
def dot_S1024x4000_S4000x512_S1024x512_1_0_0_1_n_n : DotDims S1024x4000 S4000x512 S1024x512 where
  lhsContracting := [1]
  rhsContracting := [0]
  lhsNonContracting := [0]
  rhsNonContracting := [1]
  lhsBatch := []
  rhsBatch := []
  wf := dot_S1024x4000_S4000x512_S1024x512_1_0_0_1_n_n_wf

abbrev win0_0 : Pipeline.Window sig grid0 :=
  Pipeline.Window.ofSpec (Memref.whole main_v4) S1024x1280.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpecClip (Memref.whole main_v2) S1280x2048.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v13) S1x2048.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v11) S1x2048.size cc0_transform_3 reads0_3 false false 2 stage0_3 sem0_3
    hrank0 hreads0_3 hstart0_3 nbuf0_3 (Memref.isWhole_whole _) hwx0_3 hwxs0_3 hstage0_3

abbrev win0_4 : Pipeline.Window sig grid0 :=
  Pipeline.Window.ofSpecClip (Memref.whole main_v12) S1x2048.size cc0_transform_4 reads0_4 false false 2 stage0_4 sem0_4
    hrank0 hreads0_4 hstart0_4 nbuf0_4 (Memref.isWhole_whole _) hwx0_4 hwxs0_4 hstage0_4

abbrev win0_5 : Pipeline.Window sig grid0 :=
  Pipeline.Window.ofSpecClip (Memref.whole main_v14) S1024x2048.size cc0_transform_5 reads0_5 true false 2 stage0_5 sem0_5
    hrank0 hreads0_5 hstart0_5 nbuf0_5 (Memref.isWhole_whole _) hwx0_5 hwxs0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

abbrev win1_0 : Pipeline.Window sig grid1 :=
  Pipeline.Window.ofSpec (Memref.whole main_v14) S1024x4000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S4000x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v29) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S1x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v30) S1024x512.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S2048x20000 : Shape := ⟨2, ![2048, 20000]⟩
abbrev S20000x4000 : Shape := ⟨2, ![20000, 4000]⟩
abbrev S4000x500 : Shape := ⟨2, ![4000, 500]⟩
abbrev S4000 : Shape := ⟨1, ![4000]⟩
abbrev S500 : Shape := ⟨1, ![500]⟩
abbrev S2048x4000 : Shape := ⟨2, ![2048, 4000]⟩
abbrev S1x4000 : Shape := ⟨2, ![1, 4000]⟩
abbrev S_ : Shape := ⟨0, ![]⟩
abbrev S2048x500 : Shape := ⟨2, ![2048, 500]⟩
abbrev S1x500 : Shape := ⟨2, ![1, 500]⟩

abbrev nBuf : Space → Nat
  | .hbm => 55
  | .vmem => 0
  | .smem => 0
  | _ => 0

abbrev bufTy : (tb : Table) → Fin (tcTables nBuf tb) → BufTy
  | .hbm, ⟨0, _⟩ => ⟨S2048x20000, .f32⟩
  | .hbm, ⟨1, _⟩ => ⟨S20000x4000, .f32⟩
  | .hbm, ⟨2, _⟩ => ⟨S4000x500, .f32⟩
  | .hbm, ⟨3, _⟩ => ⟨S20000x4000, .f32⟩
  | .hbm, ⟨4, _⟩ => ⟨S4000, .f32⟩
  | .hbm, ⟨5, _⟩ => ⟨S4000x500, .f32⟩
  | .hbm, ⟨6, _⟩ => ⟨S500, .f32⟩
  | .hbm, ⟨7, _⟩ => ⟨S4000, .f32⟩
  | .hbm, ⟨8, _⟩ => ⟨S4000, .f32⟩
  | .hbm, ⟨9, _⟩ => ⟨S4000, .f32⟩
  | .hbm, ⟨10, _⟩ => ⟨S4000, .f32⟩
  | .hbm, ⟨11, _⟩ => ⟨S500, .f32⟩
  | .hbm, ⟨12, _⟩ => ⟨S500, .f32⟩
  | .hbm, ⟨13, _⟩ => ⟨S500, .f32⟩
  | .hbm, ⟨14, _⟩ => ⟨S500, .f32⟩
  | .hbm, ⟨15, _⟩ => ⟨S20000x4000, .f32⟩
  | .hbm, ⟨16, _⟩ => ⟨S2048x4000, .f32⟩
  | .hbm, ⟨17, _⟩ => ⟨S1x4000, .f32⟩
  | .hbm, ⟨18, _⟩ => ⟨S2048x4000, .f32⟩
  | .hbm, ⟨19, _⟩ => ⟨S2048x4000, .f32⟩
  | .hbm, ⟨20, _⟩ => ⟨S_, .f32⟩
  | .hbm, ⟨21, _⟩ => ⟨S2048x4000, .f32⟩
  | .hbm, ⟨22, _⟩ => ⟨S2048x4000, .f32⟩
  | .hbm, ⟨23, _⟩ => ⟨S_, .f32⟩
  | .hbm, ⟨24, _⟩ => ⟨S4000, .f32⟩
  | .hbm, ⟨25, _⟩ => ⟨S4000, .f32⟩
  | .hbm, ⟨26, _⟩ => ⟨S4000, .f32⟩
  | .hbm, ⟨27, _⟩ => ⟨S4000, .f32⟩
  | .hbm, ⟨28, _⟩ => ⟨S1x4000, .f32⟩
  | .hbm, ⟨29, _⟩ => ⟨S2048x4000, .f32⟩
  | .hbm, ⟨30, _⟩ => ⟨S2048x4000, .f32⟩
  | .hbm, ⟨31, _⟩ => ⟨S4000, .f32⟩
  | .hbm, ⟨32, _⟩ => ⟨S4000, .f32⟩
  | .hbm, ⟨33, _⟩ => ⟨S1x4000, .f32⟩
  | .hbm, ⟨34, _⟩ => ⟨S2048x4000, .f32⟩
  | .hbm, ⟨35, _⟩ => ⟨S2048x4000, .f32⟩
  | .hbm, ⟨36, _⟩ => ⟨S4000x500, .f32⟩
  | .hbm, ⟨37, _⟩ => ⟨S2048x500, .f32⟩
  | .hbm, ⟨38, _⟩ => ⟨S1x500, .f32⟩
  | .hbm, ⟨39, _⟩ => ⟨S2048x500, .f32⟩
  | .hbm, ⟨40, _⟩ => ⟨S2048x500, .f32⟩
  | .hbm, ⟨41, _⟩ => ⟨S_, .f32⟩
  | .hbm, ⟨42, _⟩ => ⟨S500, .f32⟩
  | .hbm, ⟨43, _⟩ => ⟨S500, .f32⟩
  | .hbm, ⟨44, _⟩ => ⟨S500, .f32⟩
  | .hbm, ⟨45, _⟩ => ⟨S500, .f32⟩
  | .hbm, ⟨46, _⟩ => ⟨S1x500, .f32⟩
  | .hbm, ⟨47, _⟩ => ⟨S2048x500, .f32⟩
  | .hbm, ⟨48, _⟩ => ⟨S2048x500, .f32⟩
  | .hbm, ⟨49, _⟩ => ⟨S500, .f32⟩
  | .hbm, ⟨50, _⟩ => ⟨S500, .f32⟩
  | .hbm, ⟨51, _⟩ => ⟨S1x500, .f32⟩
  | .hbm, ⟨52, _⟩ => ⟨S2048x500, .f32⟩
  | .hbm, ⟨53, _⟩ => ⟨S2048x500, .f32⟩
  | .hbm, ⟨54, _⟩ => ⟨S2048x500, .f32⟩
  | _, _ => ⟨S2048x20000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_call0_cst : Ref sig .tc := ⟨.hbm, 20, rfl⟩
abbrev main_call0_v0 : Ref sig .tc := ⟨.hbm, 21, rfl⟩
abbrev main_v5 : Ref sig .tc := ⟨.hbm, 22, rfl⟩
abbrev main_cst : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_0 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩

abbrev nD : Nat := 1
abbrev τ : Topo := Topo.v7x

variable {F : FTy → Type} [FloatOps F]

class Facts₀ : Prop where
  bcast_S4000_S1x4000_1 : S4000.BroadcastsInDim S1x4000 (![1] : Fin 1 → Fin S1x4000.rank)
  bcast_S1x4000_S2048x4000_0_1 : S1x4000.BroadcastsInDim S2048x4000 (![0, 1] : Fin 2 → Fin S2048x4000.rank)
  bcast_S_S2048x4000 : S_.BroadcastsInDim S2048x4000 (![] : Fin 0 → Fin S2048x4000.rank)
  bcast_S_S4000 : S_.BroadcastsInDim S4000 (![] : Fin 0 → Fin S4000.rank)
  bcast_S500_S1x500_1 : S500.BroadcastsInDim S1x500 (![1] : Fin 1 → Fin S1x500.rank)
  bcast_S1x500_S2048x500_0_1 : S1x500.BroadcastsInDim S2048x500 (![0, 1] : Fin 2 → Fin S2048x500.rank)
  bcast_S_S500 : S_.BroadcastsInDim S500 (![] : Fin 0 → Fin S500.rank)
  dot_S2048x20000_S20000x4000_S2048x4000_1_0_0_1_n_n_wf : DotDims.WF S2048x20000 S20000x4000 S2048x4000 [1] [0] [0] [1] [] []
  dot_S2048x4000_S4000x500_S2048x500_1_0_0_1_n_n_wf : DotDims.WF S2048x4000 S4000x500 S2048x500 [1] [0] [0] [1] [] []

variable [Facts₀]

def dot_S2048x20000_S20000x4000_S2048x4000_1_0_0_1_n_n : DotDims S2048x20000 S20000x4000 S2048x4000 where
  lhsContracting := [1]
  rhsContracting := [0]
  lhsNonContracting := [0]
  rhsNonContracting := [1]
  lhsBatch := []
  rhsBatch := []
  wf := dot_S2048x20000_S20000x4000_S2048x4000_1_0_0_1_n_n_wf
def dot_S2048x4000_S4000x500_S2048x500_1_0_0_1_n_n : DotDims S2048x4000 S4000x500 S2048x500 where
  lhsContracting := [1]
  rhsContracting := [0]
  lhsNonContracting := [0]
  rhsNonContracting := [1]
  lhsBatch := []
  rhsBatch := []
  wf := dot_S2048x4000_S4000x500_S2048x500_1_0_0_1_n_n_wf

class Facts : Prop extends Facts₀ where

variable [Facts]
-- ==== Proof.Spec.lean ====
/-
  The specification. A two-layer masked perceptron with evaluation-mode batch normalisation, read
  index by index over the extended reals:

    hidden[r, g] = max (∑ c, x[r, c] · (W1[c, g] · mask1[c, g]) + b1[g]) 0 · inv1[g] + shift1[g]
    out[r, p]    = tanh ((∑ g, hidden[r, g] · (W2[g, p] · mask2[g, p]) + b2[p]) · inv2[p] + shift2[p])

  where, for each layer, inv[j] = gamma[j] · rsqrt (var[j] + eps) and shift[j] = beta[j] − mean[j] · inv[j],
  with eps the extended real that the binary32 word 0x3A83126F denotes (the binary32 number nearest to 1e-3).
-/
import Idealize.ShloMosaic.PureOps.Ideal
import Idealize.ShloMosaic.Lib.ValueIdx

noncomputable section

namespace Cert.Spec

open Idealize.ShloMosaic Idealize.ShloMosaic.ValueIdx
open scoped BigOperators

/-! ## Shapes -/

/-- The input batch: 2048 rows of 20000 features. -/
abbrev Sx : Shape := ⟨2, ![2048, 20000]⟩
/-- The first layer's weights and mask. -/
abbrev Sw1 : Shape := ⟨2, ![20000, 4000]⟩
/-- The second layer's weights and mask. -/
abbrev Sw2 : Shape := ⟨2, ![4000, 500]⟩
/-- A per-column vector of the first layer. -/
abbrev Sv1 : Shape := ⟨1, ![4000]⟩
/-- A per-column vector of the second layer. -/
abbrev Sv2 : Shape := ⟨1, ![500]⟩
/-- The hidden activations. -/
abbrev Sh : Shape := ⟨2, ![2048, 4000]⟩
/-- The result. -/
abbrev So : Shape := ⟨2, ![2048, 500]⟩

/-! ## Batch normalisation with moving statistics -/

/-- The variance offset: the extended real the binary32 word 0x3A83126F denotes (the binary32 number nearest to 1e-3). -/
def eps : EReal := Ideal.ofBits .f32 0x3A83126F#32

/-- The scale of a normalised column: gamma · rsqrt (var + eps). -/
def inv {S : Shape} (gamma var : S.Idx → EReal) (j : S.Idx) : EReal :=
  gamma j * Ideal.rsqrt (var j + eps)

/-- The offset of a normalised column: beta − mean · inv. -/
def shift {S : Shape} (gamma beta mean var : S.Idx → EReal) (j : S.Idx) : EReal :=
  beta j - mean j * inv gamma var j

theorem inv_apply {S : Shape} (gamma var : S.Idx → EReal) (j : S.Idx) :
    inv gamma var j = gamma j * Ideal.rsqrt (var j + Ideal.ofBits .f32 0x3A83126F#32) := rfl

theorem shift_apply {S : Shape} (gamma beta mean var : S.Idx → EReal) (j : S.Idx) :
    shift gamma beta mean var j = beta j - mean j * inv gamma var j := rfl

/-! ## The first layer -/

/-- The hidden activation of row `r`, column `g`: masked dense layer, rectifier, normalisation. -/
def hiddenAt (x : Sx.Idx → EReal) (mask1 W1 : Sw1.Idx → EReal) (b1 gamma1 beta1 mean1 var1 : Sv1.Idx → EReal)
    (r : Fin 2048) (g : Fin 4000) : EReal :=
  max ((∑ c : Fin 20000, x (ix2 r c) * (W1 (ix2 c g) * mask1 (ix2 c g))) + b1 (ix1 g)) 0
      * inv gamma1 var1 (ix1 g) + shift gamma1 beta1 mean1 var1 (ix1 g)

/-- The hidden activations as an array. -/
def hidden (x : Sx.Idx → EReal) (mask1 W1 : Sw1.Idx → EReal) (b1 gamma1 beta1 mean1 var1 : Sv1.Idx → EReal) :
    Sh.Idx → EReal :=
  fun i => hiddenAt x mask1 W1 b1 gamma1 beta1 mean1 var1 (i 0) (i 1)

theorem hidden_apply (x : Sx.Idx → EReal) (mask1 W1 : Sw1.Idx → EReal) (b1 gamma1 beta1 mean1 var1 : Sv1.Idx → EReal)
    (r : Fin 2048) (g : Fin 4000) :
    hidden x mask1 W1 b1 gamma1 beta1 mean1 var1 (ix2 r g)
      = max ((∑ c : Fin 20000, x (ix2 r c) * (W1 (ix2 c g) * mask1 (ix2 c g))) + b1 (ix1 g)) 0
          * inv gamma1 var1 (ix1 g) + shift gamma1 beta1 mean1 var1 (ix1 g) := rfl

/-! ## The second layer -/

/-- The result at row `r`, column `p`: masked dense layer over the hidden activations, normalisation, tanh. -/
def outAt (x : Sx.Idx → EReal) (mask1 : Sw1.Idx → EReal) (mask2 : Sw2.Idx → EReal) (W1 : Sw1.Idx → EReal)
    (b1 : Sv1.Idx → EReal) (W2 : Sw2.Idx → EReal) (b2 : Sv2.Idx → EReal)
    (gamma1 beta1 mean1 var1 : Sv1.Idx → EReal) (gamma2 beta2 mean2 var2 : Sv2.Idx → EReal)
    (r : Fin 2048) (p : Fin 500) : EReal :=
  Ideal.tanh (((∑ g : Fin 4000, hidden x mask1 W1 b1 gamma1 beta1 mean1 var1 (ix2 r g) * (W2 (ix2 g p) * mask2 (ix2 g p)))
      + b2 (ix1 p)) * inv gamma2 var2 (ix1 p) + shift gamma2 beta2 mean2 var2 (ix1 p))

/-- The result as an array, of the fifteen arguments in the program's order. -/
def out (x : Sx.Idx → EReal) (mask1 : Sw1.Idx → EReal) (mask2 : Sw2.Idx → EReal) (W1 : Sw1.Idx → EReal)
    (b1 : Sv1.Idx → EReal) (W2 : Sw2.Idx → EReal) (b2 : Sv2.Idx → EReal)
    (gamma1 beta1 mean1 var1 : Sv1.Idx → EReal) (gamma2 beta2 mean2 var2 : Sv2.Idx → EReal) :
    So.Idx → EReal :=
  fun i => outAt x mask1 mask2 W1 b1 W2 b2 gamma1 beta1 mean1 var1 gamma2 beta2 mean2 var2 (i 0) (i 1)

theorem out_apply (x : Sx.Idx → EReal) (mask1 : Sw1.Idx → EReal) (mask2 : Sw2.Idx → EReal) (W1 : Sw1.Idx → EReal)
    (b1 : Sv1.Idx → EReal) (W2 : Sw2.Idx → EReal) (b2 : Sv2.Idx → EReal)
    (gamma1 beta1 mean1 var1 : Sv1.Idx → EReal) (gamma2 beta2 mean2 var2 : Sv2.Idx → EReal)
    (r : Fin 2048) (p : Fin 500) :
    out x mask1 mask2 W1 b1 W2 b2 gamma1 beta1 mean1 var1 gamma2 beta2 mean2 var2 (ix2 r p)
      = Ideal.tanh (((∑ g : Fin 4000,
            hidden x mask1 W1 b1 gamma1 beta1 mean1 var1 (ix2 r g) * (W2 (ix2 g p) * mask2 (ix2 g p)))
          + b2 (ix1 p)) * inv gamma2 var2 (ix1 p) + shift gamma2 beta2 mean2 var2 (ix1 p)) := rfl

end Cert.Spec

end
-- ==== Proof.RefValue.lean ====
/-
  The reference's result at the ideal instance, read index by index: it is the specification
  (a two-layer masked perceptron with evaluation-mode batch normalisation) of the fifteen arguments.

  Both layers are read the same way. A broadcast of a per-column vector reads that vector at the
  column; the splat of a scalar constant reads the constant; a contraction over one axis is the sum
  over that axis of the products. The first layer's array is identified with the specification's
  hidden activations as a whole array, so that the second layer's sum is stated over them.
-/
import proofs.«171824_j50646254354906_2_alg».proof.Proof.Gen.ReferenceIdeal.Read
import proofs.«171824_j50646254354906_2_alg».proof.Proof.Spec

noncomputable section

namespace Cert.ReferenceIdeal.RefValue

open Cert.ReferenceIdeal Cert.ReferenceIdeal.Gen Cert.ReferenceIdeal.Read
open Idealize.ShloMosaic Idealize.ShloMosaic.ValueIdx
open scoped BigOperators

/-! ## The composed index functions are coordinates -/

/-- The first contraction's left index at output (r, g), contraction coordinate k, is (r, k). -/
theorem lidx1 (r : Fin 2048) (g : Fin 4000) (k : Fin 20000) : lidx_main_v1 (ix2 r g) k = ix2 r k :=
  funext fun a => Fin.ext (by match a with | ⟨0, _⟩ => rfl | ⟨1, _⟩ => rfl)
/-- Its right index is (k, g). -/
theorem ridx1 (r : Fin 2048) (g : Fin 4000) (k : Fin 20000) : ridx_main_v1 (ix2 r g) k = ix2 k g :=
  funext fun a => Fin.ext (by match a with | ⟨0, _⟩ => rfl | ⟨1, _⟩ => rfl)
/-- The bias of the first layer, broadcast along the rows, is read at the column. -/
theorem bidx1 (r : Fin 2048) (g : Fin 4000) : idx_main_v2 (idx_main_v3 (ix2 r g)) = ix1 g :=
  funext fun a => Fin.ext (by match a with | ⟨0, _⟩ => rfl)
/-- So is the first layer's scale … -/
theorem sidx1 (r : Fin 2048) (g : Fin 4000) : idx_main_v10 (idx_main_v11 (ix2 r g)) = ix1 g :=
  funext fun a => Fin.ext (by match a with | ⟨0, _⟩ => rfl)
/-- … and its offset. -/
theorem oidx1 (r : Fin 2048) (g : Fin 4000) : idx_main_v15 (idx_main_v16 (ix2 r g)) = ix1 g :=
  funext fun a => Fin.ext (by match a with | ⟨0, _⟩ => rfl)

/-- The second contraction's left index at output (r, p), contraction coordinate k, is (r, k). -/
theorem lidx2 (r : Fin 2048) (p : Fin 500) (k : Fin 4000) : lidx_main_v19 (ix2 r p) k = ix2 r k :=
  funext fun a => Fin.ext (by match a with | ⟨0, _⟩ => rfl | ⟨1, _⟩ => rfl)
/-- Its right index is (k, p). -/
theorem ridx2 (r : Fin 2048) (p : Fin 500) (k : Fin 4000) : ridx_main_v19 (ix2 r p) k = ix2 k p :=
  funext fun a => Fin.ext (by match a with | ⟨0, _⟩ => rfl | ⟨1, _⟩ => rfl)
/-- The bias of the second layer, broadcast along the rows, is read at the column. -/
theorem bidx2 (r : Fin 2048) (p : Fin 500) : idx_main_v20 (idx_main_v21 (ix2 r p)) = ix1 p :=
  funext fun a => Fin.ext (by match a with | ⟨0, _⟩ => rfl)
/-- So is the second layer's scale … -/
theorem sidx2 (r : Fin 2048) (p : Fin 500) : idx_main_v27 (idx_main_v28 (ix2 r p)) = ix1 p :=
  funext fun a => Fin.ext (by match a with | ⟨0, _⟩ => rfl)
/-- … and its offset. -/
theorem oidx2 (r : Fin 2048) (p : Fin 500) : idx_main_v32 (idx_main_v33 (ix2 r p)) = ix1 p :=
  funext fun a => Fin.ext (by match a with | ⟨0, _⟩ => rfl)

/-! ## The first layer -/

/-- The first layer's array (masked product, bias, rectifier, normalisation) is the specification's
    hidden activations. -/
theorem hidden_eq (x0 : (⟨S2048x20000, .f32⟩ : BufTy).Contents (Elt Ideal)) (x1 x3 : (⟨S20000x4000, .f32⟩ : BufTy).Contents (Elt Ideal))
    (x4 x7 x8 x9 x10 : (⟨S4000, .f32⟩ : BufTy).Contents (Elt Ideal)) :
    val_main_v17 (F := Ideal) x0 x1 x3 x4 x7 x8 x9 x10 = Cert.Spec.hidden x0 x1 x3 x4 x7 x8 x9 x10 := by
  funext i
  obtain ⟨r, g, rfl⟩ : ∃ (r : Fin 2048) (g : Fin 4000), i = ix2 r g := ⟨i 0, i 1, eq_ix2 i⟩
  rw [Cert.Spec.hidden_apply]
  simp only [val_main_v17_apply, val_main_v12_apply, val_main_v5_apply, val_main_v4_apply, val_main_v1_apply,
    val_main_v0_apply, val_main_v3_apply, val_main_v2_apply, val_main_call0_v0_apply, val_main_call0_cst_apply,
    val_main_v11_apply, val_main_v10_apply, val_main_v9_apply, val_main_v8_apply, val_main_v7_apply,
    val_main_v6_apply, val_main_cst_apply, val_main_v16_apply, val_main_v15_apply, val_main_v14_apply,
    val_main_v13_apply, lidx1, ridx1, bidx1, sidx1, oidx1,
    Ideal.addf_def, Ideal.mulf_def, Ideal.subf_def, Ideal.maximumf_def, Ideal.hostUnary_rsqrt_def,
    Ideal.ofBits_def, Ideal.ofBits_zero_f32, Cert.Spec.inv, Cert.Spec.shift, Cert.Spec.eps]

/-! ## The second layer -/

/-- The reference's result array is the specification's. -/
theorem val_eq (x0 : (⟨S2048x20000, .f32⟩ : BufTy).Contents (Elt Ideal)) (x1 : (⟨S20000x4000, .f32⟩ : BufTy).Contents (Elt Ideal)) (x2 : (⟨S4000x500, .f32⟩ : BufTy).Contents (Elt Ideal)) (x3 : (⟨S20000x4000, .f32⟩ : BufTy).Contents (Elt Ideal)) (x4 : (⟨S4000, .f32⟩ : BufTy).Contents (Elt Ideal)) (x5 : (⟨S4000x500, .f32⟩ : BufTy).Contents (Elt Ideal)) (x6 : (⟨S500, .f32⟩ : BufTy).Contents (Elt Ideal)) (x7 x8 x9 x10 : (⟨S4000, .f32⟩ : BufTy).Contents (Elt Ideal)) (x11 x12 x13 x14 : (⟨S500, .f32⟩ : BufTy).Contents (Elt Ideal)) :
    val_main_v35 (F := Ideal) x0 x1 x2 x3 x4 x5 x6 x7 x8 x9 x10 x11 x12 x13 x14
      = Cert.Spec.out x0 x1 x2 x3 x4 x5 x6 x7 x8 x9 x10 x11 x12 x13 x14 := by
  funext i
  obtain ⟨r, p, rfl⟩ : ∃ (r : Fin 2048) (p : Fin 500), i = ix2 r p := ⟨i 0, i 1, eq_ix2 i⟩
  rw [Cert.Spec.out_apply]
  simp only [val_main_v35_apply, val_main_v34_apply, val_main_v29_apply, val_main_v22_apply, val_main_v19_apply,
    val_main_v18_apply, val_main_v21_apply, val_main_v20_apply, val_main_v28_apply, val_main_v27_apply,
    val_main_v26_apply, val_main_v25_apply, val_main_v24_apply, val_main_v23_apply, val_main_cst_0_apply,
    val_main_v33_apply, val_main_v32_apply, val_main_v31_apply, val_main_v30_apply,
    lidx2, ridx2, bidx2, sidx2, oidx2, hidden_eq,
    Ideal.addf_def, Ideal.mulf_def, Ideal.subf_def, Ideal.hostUnary_rsqrt_def, Ideal.hostUnary_tanh_def,
    Ideal.ofBits_def, Cert.Spec.inv, Cert.Spec.shift, Cert.Spec.eps]

/-- The term the reference's run states for its result, of the fifteen argument arrays, is the specification. -/
theorem result_eq (x0 : FVec Ideal S2048x20000 .f32) (x1 : FVec Ideal S20000x4000 .f32) (x2 : FVec Ideal S4000x500 .f32) (x3 : FVec Ideal S20000x4000 .f32) (x4 : FVec Ideal S4000 .f32) (x5 : FVec Ideal S4000x500 .f32) (x6 : FVec Ideal S500 .f32) (x7 x8 x9 x10 : FVec Ideal S4000 .f32) (x11 x12 x13 x14 : FVec Ideal S500 .f32) :
    Host.tanh (F := Ideal) (addf (mulf (addf (Host.dotGeneral dot_S2048x4000_S4000x500_S2048x500_1_0_0_1_n_n none (addf (mulf (maximumf (addf (Host.dotGeneral dot_S2048x20000_S20000x4000_S2048x4000_1_0_0_1_n_n none (x0) (mulf (x3) (x1))) (broadcastInDim S2048x4000 ![0, 1] bcast_S1x4000_S2048x4000_0_1 (broadcastInDim S1x4000 ![1] bcast_S4000_S1x4000_1 (x4)))) (broadcastInDim S2048x4000 ![] bcast_S_S2048x4000 (constant S_ .f32 0x00000000#32))) (broadcastInDim S2048x4000 ![0, 1] bcast_S1x4000_S2048x4000_0_1 (broadcastInDim S1x4000 ![1] bcast_S4000_S1x4000_1 (mulf (x7) (Host.rsqrt (addf (x10) (broadcastInDim S4000 ![] bcast_S_S4000 (constant S_ .f32 0x3A83126F#32)))))))) (broadcastInDim S2048x4000 ![0, 1] bcast_S1x4000_S2048x4000_0_1 (broadcastInDim S1x4000 ![1] bcast_S4000_S1x4000_1 (subf (x8) (mulf (x9) (mulf (x7) (Host.rsqrt (addf (x10) (broadcastInDim S4000 ![] bcast_S_S4000 (constant S_ .f32 0x3A83126F#32)))))))))) (mulf (x5) (x2))) (broadcastInDim S2048x500 ![0, 1] bcast_S1x500_S2048x500_0_1 (broadcastInDim S1x500 ![1] bcast_S500_S1x500_1 (x6)))) (broadcastInDim S2048x500 ![0, 1] bcast_S1x500_S2048x500_0_1 (broadcastInDim S1x500 ![1] bcast_S500_S1x500_1 (mulf (x11) (Host.rsqrt (addf (x14) (broadcastInDim S500 ![] bcast_S_S500 (constant S_ .f32 0x3A83126F#32)))))))) (broadcastInDim S2048x500 ![0, 1] bcast_S1x500_S2048x500_0_1 (broadcastInDim S1x500 ![1] bcast_S500_S1x500_1 (subf (x12) (mulf (x13) (mulf (x11) (Host.rsqrt (addf (x14) (broadcastInDim S500 ![] bcast_S_S500 (constant S_ .f32 0x3A83126F#32))))))))))
      = Cert.Spec.out x0 x1 x2 x3 x4 x5 x6 x7 x8 x9 x10 x11 x12 x13 x14 :=
  (val_main_v35_eq (F := Ideal) x0 x1 x2 x3 x4 x5 x6 x7 x8 x9 x10 x11 x12 x13 x14).trans
    (val_eq x0 x1 x2 x3 x4 x5 x6 x7 x8 x9 x10 x11 x12 x13 x14)

end Cert.ReferenceIdeal.RefValue

end
-- ==== Proof.IdealBody0.lean ====
/-
  The first layer's kernel body as triples, one per control case of its two conditionals (the
  first reduction step resets the accumulator; the last one also writes the output block), at any
  float instance: what each case leaves in the accumulator scratch and in the output's staging
  buffer, as the pieces its stores write.
-/
import proofs.«171824_j50646254354906_2_alg».proof.Proof.Gen.KernelIdeal.Launch
import proofs.«171824_j50646254354906_2_alg».proof.Proof.Gen.KernelIdeal.Skeleton
import proofs.«171824_j50646254354906_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

variable {U : Type} [URA U]

local notation "𝕄" => MT nD τ sig Unit (Elt F) ℕ U ℕ

/-- The first conditional's condition (the reduction coordinate is 0), from the grid coordinates. -/
abbrev condFirst (i : grid0.Coords) : Prop :=
  (Scalar.cmpi .ne (Scalar.extui (Scalar.cmpi .eq (BitVec.ofNat 32 (i 2).val) 0#32)) 0#32) = 1#1
/-- The second conditional's condition (the reduction coordinate is the last, 15). -/
abbrev condLast (i : grid0.Coords) : Prop := k0_cond2 i = 1#1

set_option maxHeartbeats 4000000 in
/-- A middle reduction step: the accumulator is read, added to, stored back; the output's buffer untouched. -/
noncomputable def runMid (c : Dev nD) (i : grid0.Coords) (arg3 : Memref sig .tc .vmem S1024x1280 .bf16) (harg3 : arg3.IsWhole)
    (arg4 : Memref sig .tc .vmem S1280x2048 .bf16) (harg4 : arg4.IsWhole)
    (arg5 : Memref sig .tc .vmem S1x2048 .f32) (harg5 : arg5.IsWhole)
    (arg6 : Memref sig .tc .vmem S1x2048 .f32) (harg6 : arg6.IsWhole)
    (arg7 : Memref sig .tc .vmem S1x2048 .f32) (harg7 : arg7.IsWhole)
    (arg8 : Memref sig .tc .vmem S1024x2048 .bf16) (harg8 : arg8.IsWhole)
    (arg9 : Memref sig .tc .vmem S1024x2048 .f32) (harg9 : arg9.IsWhole)
    (hc0 : ¬condFirst i) (hc1 : ¬condLast i) (x0 : Vec F S1024x1280 .bf16) (x1 : Vec F S1280x2048 .bf16) (x2 x3 x4 : Vec F S1x2048 .f32) (xs : Vec F S1024x2048 .f32) :
    { LS : List (View.Piece (Elt F) S1024x2048 .f32) //
      ∀ (E : Set ℕ) (K : PUnit → sProp 𝕄),
        iprop(owns (c : Thread nD τ) arg3 fullShare x0 ∗ owns (c : Thread nD τ) arg4 fullShare x1
            ∗ owns (c : Thread nD τ) arg5 fullShare x2 ∗ owns (c : Thread nD τ) arg6 fullShare x3 ∗ owns (c : Thread nD τ) arg7 fullShare x4
            ∗ (∃ d, owns (c : Thread nD τ) arg8 fullShare d) ∗ owns (c : Thread nD τ) arg9 fullShare xs
            ∗ (iprop(owns (c : Thread nD τ) arg3 fullShare x0 ∗ owns (c : Thread nD τ) arg4 fullShare x1
            ∗ owns (c : Thread nD τ) arg5 fullShare x2 ∗ owns (c : Thread nD τ) arg6 fullShare x3 ∗ owns (c : Thread nD τ) arg7 fullShare x4
                ∗ (∃ d, owns (c : Thread nD τ) arg8 fullShare d)
                ∗ (∃ f, arg9.view.loc (c : Thread nD τ) ↦[arg9.view.set]{fullShare} arg9.view.writes (Elt F) f LS)) -∗ K ⟨⟩))
          ⊢ wp frame (wpE (defs₀ (F := F)) Variants.none c none) E (cc0__layer1_kernel i arg3 harg3 arg4 harg4 arg5 harg5 arg6 harg6 arg7 harg7 arg8 harg8 arg9 harg9) K } := by
  refine ⟨?_, fun E K => ?run⟩
  case run =>
    simp only [cc0__layer1_kernel_eq_skeleton]; unfold cc0__layer1_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, %hf5, H5⟩, ⟨%fs, %hfs, HS⟩, Hk⟩
    obtain rfl := harg3.eq_unread hf0; obtain rfl := harg4.eq_unread hf1
    obtain rfl := harg5.eq_unread hf2; obtain rfl := harg6.eq_unread hf3; obtain rfl := harg7.eq_unread hf4
    obtain rfl := harg9.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists d5; iexists f5; isplitr; · ipureintro; exact hf5
      iexact H5
    iexists _; iexact HS

set_option maxHeartbeats 4000000 in
/-- The first reduction step: the accumulator, whatever it held, is reset, read, added to and stored back. -/
noncomputable def runFirst (c : Dev nD) (i : grid0.Coords) (arg3 : Memref sig .tc .vmem S1024x1280 .bf16) (harg3 : arg3.IsWhole)
    (arg4 : Memref sig .tc .vmem S1280x2048 .bf16) (harg4 : arg4.IsWhole)
    (arg5 : Memref sig .tc .vmem S1x2048 .f32) (harg5 : arg5.IsWhole)
    (arg6 : Memref sig .tc .vmem S1x2048 .f32) (harg6 : arg6.IsWhole)
    (arg7 : Memref sig .tc .vmem S1x2048 .f32) (harg7 : arg7.IsWhole)
    (arg8 : Memref sig .tc .vmem S1024x2048 .bf16) (harg8 : arg8.IsWhole)
    (arg9 : Memref sig .tc .vmem S1024x2048 .f32) (harg9 : arg9.IsWhole)
    (hc0 : condFirst i) (hc1 : ¬condLast i) (x0 : Vec F S1024x1280 .bf16) (x1 : Vec F S1280x2048 .bf16) (x2 x3 x4 : Vec F S1x2048 .f32) :
    { LS : List (View.Piece (Elt F) S1024x2048 .f32) //
      ∀ (E : Set ℕ) (K : PUnit → sProp 𝕄),
        iprop(owns (c : Thread nD τ) arg3 fullShare x0 ∗ owns (c : Thread nD τ) arg4 fullShare x1
            ∗ owns (c : Thread nD τ) arg5 fullShare x2 ∗ owns (c : Thread nD τ) arg6 fullShare x3 ∗ owns (c : Thread nD τ) arg7 fullShare x4
            ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1
            ∗ owns (c : Thread nD τ) arg5 fullShare x2 ∗ owns (c : Thread nD τ) arg6 fullShare x3 ∗ owns (c : Thread nD τ) arg7 fullShare x4
                ∗ (∃ d, owns (c : Thread nD τ) arg8 fullShare d)
                ∗ (∃ f, arg9.view.loc (c : Thread nD τ) ↦[arg9.view.set]{fullShare} arg9.view.writes (Elt F) f LS)) -∗ K ⟨⟩))
          ⊢ wp frame (wpE (defs₀ (F := F)) Variants.none c none) E (cc0__layer1_kernel i arg3 harg3 arg4 harg4 arg5 harg5 arg6 harg6 arg7 harg7 arg8 harg8 arg9 harg9) K } := by
  refine ⟨?_, fun E K => ?run⟩
  case run =>
    simp only [cc0__layer1_kernel_eq_skeleton]; unfold cc0__layer1_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, %hf5, H5⟩, ⟨%ds, %fs, -, HS⟩, Hk⟩
    obtain rfl := harg3.eq_unread hf0; obtain rfl := harg4.eq_unread hf1
    obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists d5; iexists f5; isplitr; · ipureintro; exact hf5
      iexact H5
    iexists _; iexact HS

set_option maxHeartbeats 4000000 in
/-- The last reduction step: the accumulator is added to and stored back, then read again with the three
    row vectors and the output block is stored whole. -/
noncomputable def runLast (c : Dev nD) (i : grid0.Coords) (arg3 : Memref sig .tc .vmem S1024x1280 .bf16) (harg3 : arg3.IsWhole)
    (arg4 : Memref sig .tc .vmem S1280x2048 .bf16) (harg4 : arg4.IsWhole)
    (arg5 : Memref sig .tc .vmem S1x2048 .f32) (harg5 : arg5.IsWhole)
    (arg6 : Memref sig .tc .vmem S1x2048 .f32) (harg6 : arg6.IsWhole)
    (arg7 : Memref sig .tc .vmem S1x2048 .f32) (harg7 : arg7.IsWhole)
    (arg8 : Memref sig .tc .vmem S1024x2048 .bf16) (harg8 : arg8.IsWhole)
    (arg9 : Memref sig .tc .vmem S1024x2048 .f32) (harg9 : arg9.IsWhole)
    (hc0 : ¬condFirst i) (hc1 : condLast i) (x0 : Vec F S1024x1280 .bf16) (x1 : Vec F S1280x2048 .bf16) (x2 x3 x4 : Vec F S1x2048 .f32) (xs : Vec F S1024x2048 .f32) :
    Σ' (LO : List (View.Piece (Elt F) S1024x2048 .bf16)), { LS : List (View.Piece (Elt F) S1024x2048 .f32) //
      ∀ (E : Set ℕ) (K : PUnit → sProp 𝕄),
        iprop(owns (c : Thread nD τ) arg3 fullShare x0 ∗ owns (c : Thread nD τ) arg4 fullShare x1
            ∗ owns (c : Thread nD τ) arg5 fullShare x2 ∗ owns (c : Thread nD τ) arg6 fullShare x3 ∗ owns (c : Thread nD τ) arg7 fullShare x4
            ∗ (∃ d, owns (c : Thread nD τ) arg8 fullShare d) ∗ owns (c : Thread nD τ) arg9 fullShare xs
            ∗ (iprop(owns (c : Thread nD τ) arg3 fullShare x0 ∗ owns (c : Thread nD τ) arg4 fullShare x1
            ∗ owns (c : Thread nD τ) arg5 fullShare x2 ∗ owns (c : Thread nD τ) arg6 fullShare x3 ∗ owns (c : Thread nD τ) arg7 fullShare x4
                ∗ (∃ f, arg8.view.loc (c : Thread nD τ) ↦[arg8.view.set]{fullShare} arg8.view.writes (Elt F) f LO)
                ∗ (∃ f, arg9.view.loc (c : Thread nD τ) ↦[arg9.view.set]{fullShare} arg9.view.writes (Elt F) f LS)) -∗ K ⟨⟩))
          ⊢ wp frame (wpE (defs₀ (F := F)) Variants.none c none) E (cc0__layer1_kernel i arg3 harg3 arg4 harg4 arg5 harg5 arg6 harg6 arg7 harg7 arg8 harg8 arg9 harg9) K } := by
  refine ⟨?_, ?_, fun E K => ?run⟩
  case run =>
    simp only [cc0__layer1_kernel_eq_skeleton]; unfold cc0__layer1_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg3.eq_unread hf0; obtain rfl := harg4.eq_unread hf1
    obtain rfl := harg5.eq_unread hf2; obtain rfl := harg6.eq_unread hf3; obtain rfl := harg7.eq_unread hf4
    obtain rfl := harg9.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; iexact H5
    iexists _; iexact HS

end Cert.KernelIdeal.Hand

end
-- ==== Proof.IdealPieces0.lean ====
/-
  What each control case of the first layer's body leaves, read back as values: the accumulator after a
  step is the accumulate payload of what it held before (the zero payload at the first step) and of the
  two operand blocks; the output's buffer after the last step is the epilogue payload of that accumulator
  and the three row vectors.
-/
import proofs.«171824_j50646254354906_2_alg».proof.Proof.Gen.KernelIdeal.Launch
import proofs.«171824_j50646254354906_2_alg».proof.Proof.Gen.KernelIdeal.Skeleton
import proofs.«171824_j50646254354906_2_alg».proof.Proof.Gen.KernelIdeal.Points
import proofs.«171824_j50646254354906_2_alg».proof.Proof.IdealBody0
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

variable {U : Type} [URA U]

local notation "𝕄" => MT nD τ sig Unit (Elt F) ℕ U ℕ

theorem zero2 : (![0, 0] : Fin 2 → Nat) = fun _ => 0 := funext fun a => by fin_cases a <;> rfl

theorem readMid (c : Dev nD) (i : grid0.Coords) (arg3 : Memref sig .tc .vmem S1024x1280 .bf16) (harg3 : arg3.IsWhole)
    (arg4 : Memref sig .tc .vmem S1280x2048 .bf16) (harg4 : arg4.IsWhole)
    (arg5 : Memref sig .tc .vmem S1x2048 .f32) (harg5 : arg5.IsWhole)
    (arg6 : Memref sig .tc .vmem S1x2048 .f32) (harg6 : arg6.IsWhole)
    (arg7 : Memref sig .tc .vmem S1x2048 .f32) (harg7 : arg7.IsWhole)
    (arg8 : Memref sig .tc .vmem S1024x2048 .bf16) (harg8 : arg8.IsWhole)
    (arg9 : Memref sig .tc .vmem S1024x2048 .f32) (harg9 : arg9.IsWhole)
    (hc0 : ¬condFirst i) (hc1 : ¬condLast i) (x0 : Vec F S1024x1280 .bf16) (x1 : Vec F S1280x2048 .bf16) (x2 x3 x4 : Vec F S1x2048 .f32) (xs : Vec F S1024x2048 .f32)
    (f : arg9.view.ty.Contents (Elt F)) :
    arg9.view.read (Elt F) (arg9.view.writes (Elt F) f (runMid (U := U) c i arg3 harg3 arg4 harg4 arg5 harg5 arg6 harg6 arg7 harg7 arg8 harg8 arg9 harg9 hc0 hc1 x0 x1 x2 x3 x4 xs).1)
      = k0_pay2 xs x0 x1 := by
  rw [View.read_writes_eq_canon _ _ _ (fun y => View.cover_of_tiledL _ S1024x2048.size (by sl_kernel_rfl) y)]
  unfold runMid; dsimp only; sl_unfold_words
  rw [View.canon_unit_zero zero2]
  simp only [View.readAt_eq_ld, harg9.read_unread, harg3.read_unread, harg4.read_unread,
    View.ld_unit_zero (S := S1024x2048) zero2, View.ld_unit_zero (S := S1024x1280) zero2, View.ld_unit_zero (S := S1280x2048) zero2]

theorem readFirst (c : Dev nD) (i : grid0.Coords) (arg3 : Memref sig .tc .vmem S1024x1280 .bf16) (harg3 : arg3.IsWhole)
    (arg4 : Memref sig .tc .vmem S1280x2048 .bf16) (harg4 : arg4.IsWhole)
    (arg5 : Memref sig .tc .vmem S1x2048 .f32) (harg5 : arg5.IsWhole)
    (arg6 : Memref sig .tc .vmem S1x2048 .f32) (harg6 : arg6.IsWhole)
    (arg7 : Memref sig .tc .vmem S1x2048 .f32) (harg7 : arg7.IsWhole)
    (arg8 : Memref sig .tc .vmem S1024x2048 .bf16) (harg8 : arg8.IsWhole)
    (arg9 : Memref sig .tc .vmem S1024x2048 .f32) (harg9 : arg9.IsWhole)
    (hc0 : condFirst i) (hc1 : ¬condLast i) (x0 : Vec F S1024x1280 .bf16) (x1 : Vec F S1280x2048 .bf16) (x2 x3 x4 : Vec F S1x2048 .f32)
    (f : arg9.view.ty.Contents (Elt F)) :
    arg9.view.read (Elt F) (arg9.view.writes (Elt F) f (runFirst (U := U) c i arg3 harg3 arg4 harg4 arg5 harg5 arg6 harg6 arg7 harg7 arg8 harg8 arg9 harg9 hc0 hc1 x0 x1 x2 x3 x4).1)
      = k0_pay2 (k0_pay1 (F := F)) x0 x1 := by
  rw [View.read_writes_eq_canon _ _ _ (fun y => View.cover_of_tiledL _ S1024x2048.size (by sl_kernel_rfl) y)]
  unfold runFirst; dsimp only; sl_unfold_words
  rw [View.canon_cons_unit_zero zero2]
  simp only [View.readAt_eq_ld, harg3.read_unread, harg4.read_unread, View.readCov_unit_zero (S := S1024x2048) arg9.view zero2,
    View.ld_unit_zero (S := S1024x2048) zero2, View.ld_unit_zero (S := S1024x1280) zero2, View.ld_unit_zero (S := S1280x2048) zero2]

theorem readLastAcc (c : Dev nD) (i : grid0.Coords) (arg3 : Memref sig .tc .vmem S1024x1280 .bf16) (harg3 : arg3.IsWhole)
    (arg4 : Memref sig .tc .vmem S1280x2048 .bf16) (harg4 : arg4.IsWhole)
    (arg5 : Memref sig .tc .vmem S1x2048 .f32) (harg5 : arg5.IsWhole)
    (arg6 : Memref sig .tc .vmem S1x2048 .f32) (harg6 : arg6.IsWhole)
    (arg7 : Memref sig .tc .vmem S1x2048 .f32) (harg7 : arg7.IsWhole)
    (arg8 : Memref sig .tc .vmem S1024x2048 .bf16) (harg8 : arg8.IsWhole)
    (arg9 : Memref sig .tc .vmem S1024x2048 .f32) (harg9 : arg9.IsWhole)
    (hc0 : ¬condFirst i) (hc1 : condLast i) (x0 : Vec F S1024x1280 .bf16) (x1 : Vec F S1280x2048 .bf16) (x2 x3 x4 : Vec F S1x2048 .f32) (xs : Vec F S1024x2048 .f32)
    (f : arg9.view.ty.Contents (Elt F)) :
    arg9.view.read (Elt F) (arg9.view.writes (Elt F) f (runLast (U := U) c i arg3 harg3 arg4 harg4 arg5 harg5 arg6 harg6 arg7 harg7 arg8 harg8 arg9 harg9 hc0 hc1 x0 x1 x2 x3 x4 xs).2.1)
      = k0_pay2 xs x0 x1 := by
  rw [View.read_writes_eq_canon _ _ _ (fun y => View.cover_of_tiledL _ S1024x2048.size (by sl_kernel_rfl) y)]
  unfold runLast; dsimp only; sl_unfold_words
  rw [View.canon_unit_zero zero2]
  simp only [View.readAt_eq_ld, harg9.read_unread, harg3.read_unread, harg4.read_unread,
    View.ld_unit_zero (S := S1024x2048) zero2, View.ld_unit_zero (S := S1024x1280) zero2, View.ld_unit_zero (S := S1280x2048) zero2]

theorem readLastOut (c : Dev nD) (i : grid0.Coords) (arg3 : Memref sig .tc .vmem S1024x1280 .bf16) (harg3 : arg3.IsWhole)
    (arg4 : Memref sig .tc .vmem S1280x2048 .bf16) (harg4 : arg4.IsWhole)
    (arg5 : Memref sig .tc .vmem S1x2048 .f32) (harg5 : arg5.IsWhole)
    (arg6 : Memref sig .tc .vmem S1x2048 .f32) (harg6 : arg6.IsWhole)
    (arg7 : Memref sig .tc .vmem S1x2048 .f32) (harg7 : arg7.IsWhole)
    (arg8 : Memref sig .tc .vmem S1024x2048 .bf16) (harg8 : arg8.IsWhole)
    (arg9 : Memref sig .tc .vmem S1024x2048 .f32) (harg9 : arg9.IsWhole)
    (hc0 : ¬condFirst i) (hc1 : condLast i) (x0 : Vec F S1024x1280 .bf16) (x1 : Vec F S1280x2048 .bf16) (x2 x3 x4 : Vec F S1x2048 .f32) (xs : Vec F S1024x2048 .f32)
    (f : arg8.view.ty.Contents (Elt F)) :
    arg8.view.read (Elt F) (arg8.view.writes (Elt F) f (runLast (U := U) c i arg3 harg3 arg4 harg4 arg5 harg5 arg6 harg6 arg7 harg7 arg8 harg8 arg9 harg9 hc0 hc1 x0 x1 x2 x3 x4 xs).1)
      = k0_pay3 (k0_pay2 xs x0 x1) x2 x3 x4 := by
  rw [View.read_writes_eq_canon _ _ _ (fun y => View.cover_of_tiledL _ S1024x2048.size (by sl_kernel_rfl) y)]
  unfold runLast; dsimp only; sl_unfold_words
  rw [View.canon_unit_zero zero2]
  simp only [View.readAt_eq_ld, harg9.read_unread, harg3.read_unread, harg4.read_unread, harg5.read_unread, harg6.read_unread, harg7.read_unread,
    View.readCov_unit_zero (S := S1024x2048) arg9.view zero2,
    View.ld_unit_zero (S := S1024x2048) zero2, View.ld_unit_zero (S := S1024x1280) zero2, View.ld_unit_zero (S := S1280x2048) zero2,
    View.ld_unit_zero (S := S1x2048) zero2]

end Cert.KernelIdeal.Hand

end
-- ==== Proof.IdealBody1.lean ====
/-
  The second layer's kernel body as a triple, at any float instance: from its five input staging
  buffers at known contents and its output buffer at any contents, the body runs to the inputs
  unchanged and the output buffer holding the one stored value, the payload of the five loads.
-/
import proofs.«171824_j50646254354906_2_alg».proof.Proof.Gen.KernelIdeal.Launch
import proofs.«171824_j50646254354906_2_alg».proof.Proof.Gen.KernelIdeal.Skeleton
import proofs.«171824_j50646254354906_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

variable {U : Type} [URA U]

local notation "𝕄" => MT nD τ sig Unit (Elt F) ℕ U ℕ

/-- The whole-buffer rectangle of the output block. -/
abbrev rOut1 : Rect S1024x512 := Rect.unit (s := S1024x512) ![0, 0] S1024x512.size inb_S1024x512_S1024x512_0_0

/-- What the body leaves in the output's staging buffer: its one store, over the five loads. -/
def out1 (x0 : Vec F S1024x4000 .bf16) (x1 : Vec F S4000x512 .bf16) (x2 x3 x4 : Vec F S1x512 .f32) : Vec F S1024x512 .f32 :=
  View.canon [⟨rOut1, k1_pay1
    (View.ld x0 (Rect.unit (s := S1024x4000) ![0, 0] S1024x4000.size inb_S1024x4000_S1024x4000_0_0))
    (View.ld x1 (Rect.unit (s := S4000x512) ![0, 0] S4000x512.size inb_S4000x512_S4000x512_0_0))
    (View.ld x2 (Rect.unit (s := S1x512) ![0, 0] S1x512.size inb_S1x512_S1x512_0_0))
    (View.ld x3 (Rect.unit (s := S1x512) ![0, 0] S1x512.size inb_S1x512_S1x512_0_0))
    (View.ld x4 (Rect.unit (s := S1x512) ![0, 0] S1x512.size inb_S1x512_S1x512_0_0))⟩]

/-- The one store covers the output buffer. -/
theorem cover1 (p0 : Vec F S1024x512 .f32) (y : S1024x512.Idx) :
    ∃ pc ∈ ([⟨rOut1, p0⟩] : List (View.Piece (Elt F) S1024x512 .f32)), y ∈ pc.1.set :=
  View.cover_of_tiled [⟨rOut1, p0⟩] S1024x512.size (by rfl) y

set_option maxHeartbeats 4000000 in
theorem sound_kernel1 (c : Dev nD) (E : Set ℕ) (i : grid1.Coords)
    (arg1 : Memref sig .tc .vmem S1024x4000 .bf16) (harg1 : arg1.IsWhole)
    (arg2 : Memref sig .tc .vmem S4000x512 .bf16) (harg2 : arg2.IsWhole)
    (arg3 : Memref sig .tc .vmem S1x512 .f32) (harg3 : arg3.IsWhole)
    (arg4 : Memref sig .tc .vmem S1x512 .f32) (harg4 : arg4.IsWhole)
    (arg5 : Memref sig .tc .vmem S1x512 .f32) (harg5 : arg5.IsWhole)
    (arg6 : Memref sig .tc .vmem S1024x512 .f32) (harg6 : arg6.IsWhole)
    (x0 : Vec F S1024x4000 .bf16) (x1 : Vec F S4000x512 .bf16) (x2 x3 x4 : Vec F S1x512 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out1 x0 x1 x2 x3 x4)) -∗ K ⟨⟩))
      ⊢ wp frame (wpE (defs₀ (F := F)) Variants.none c none) E
          (cc1__layer2_kernel i arg1 harg1 arg2 harg2 arg3 harg3 arg4 harg4 arg5 harg5 arg6 harg6) K := by
  simp only [cc1__layer2_kernel_eq_skeleton]; unfold cc1__layer2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1 _)

end Cert.KernelIdeal.Hand

end
-- ==== Proof.IdealData.lean ====
/-
  The relational proof data of the two kernel regions, at any float instance, over the contents `V` the
  region is entered with. An input window's buffer is left as the body found it. Region 0 keeps its
  accumulator in the invariant under a predicate that records it as the exact fold of the accumulate
  payload over the operand blocks the body found at the reduction steps so far; its output buffer, at
  the last reduction step, holds the epilogue payload of such an accumulator and of the three row
  vectors found there. Region 1's output buffer holds its one payload of the five buffers found.
-/
import proofs.«171824_j50646254354906_2_alg».proof.Proof.Gen.KernelIdeal.Launch
import proofs.«171824_j50646254354906_2_alg».proof.Proof.Gen.KernelIdeal.Skeleton
import proofs.«171824_j50646254354906_2_alg».proof.Proof.Gen.KernelIdeal.Points
import proofs.«171824_j50646254354906_2_alg».proof.Proof.IdealPieces0
import proofs.«171824_j50646254354906_2_alg».proof.Proof.IdealBody1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

/-- The user algebra: two copies of the rounds algebra, one per kernel region's staging cells. -/
abbrev UU : Type := UR sig nD τ × UR sig nD τ

local notation "𝕄" => MT nD τ sig Unit (Elt F) ℕ UU ℕ

variable (V : (c : Dev nD) → (b : Ref sig .tc) → Buf (Elt F) ((c : Thread nD τ).loc b))

/-! ## Region 1 -/

/-- Region 1 with every window left as found: what its buffers may hold at a point (`Finds`) is read off this. -/
def rdIn1 (c : Dev nD) : RDat τ (Elt F) Unit ℕ UU ℕ cfg1 c where
  A w := V c (Pipeline.arrRef spec1 w)
  after _ _ Y X := X = Y
  Φ _ := iprop(emp)
  q _ := fullShare
  owed _ := 0

/-- What the body leaves in region 1's output buffer at point `t`: its payload of five buffers' contents the
    body may have found there. -/
def OutRel1 (c : Dev nD) (t : Fin cfg1.N) (X : Vec F S1024x512 .f32) : Prop :=
  ∃ (Y0 : Vec F S1024x4000 .bf16) (Y1 : Vec F S4000x512 .bf16) (Y2 Y3 Y4 : Vec F S1x512 .f32),
    (rdIn1 V c).Finds 0 t Y0 ∧ (rdIn1 V c).Finds 1 t Y1 ∧ (rdIn1 V c).Finds 2 t Y2 ∧ (rdIn1 V c).Finds 3 t Y3
      ∧ (rdIn1 V c).Finds 4 t Y4 ∧ X = out1 Y0 Y1 Y2 Y3 Y4

/-- Region 1's proof data. -/
def rd1 (c : Dev nD) : RDat τ (Elt F) Unit ℕ UU ℕ cfg1 c where
  A w := V c (Pipeline.arrRef spec1 w)
  after w t Y X := match w with
    | ⟨5, _⟩ => OutRel1 V c t X
    | _ => X = Y
  Φ _ := Pipeline.ΦA spec1 c
  q _ := fullShare
  owed _ := 0

theorem finds1 (c : Dev nD) (w : Fin cfg1.W) (hw : w.val < 5) (t : Fin cfg1.N) (X) :
    (rd1 V c).Finds w t X ↔ (rdIn1 V c).Finds w t X := by
  refine RDat.finds_congr (rd := rdIn1 V c) (rd' := rd1 V c) rfl ?_ t X
  match w, hw with
  | ⟨0, _⟩, _ => rfl
  | ⟨1, _⟩, _ => rfl
  | ⟨2, _⟩, _ => rfl
  | ⟨3, _⟩, _ => rfl
  | ⟨4, _⟩, _ => rfl

set_option maxHeartbeats 2000000 in
theorem body_obligation1 (c : Dev nD) : (rd1 V c).BodyObligation (defs₀ (F := F)) Variants.none () Set.univ := fun t Y hY => by
  rw [bigSep_W1, bigSep_W1]
  show _ ⊢ wp frame (wpE (defs₀ (F := F)) Variants.none c none) Set.univ (bodyAt1 t) _
  rw [show (rd1 V c).Φ t.succ = (rd1 V c).Φ t.castSucc from rfl,
    show (rd1 V c).owesAt () t.succ = (rd1 V c).owesAt () t.castSucc from rfl]
  iintro ⟨HΦ, Ho, H0, H1, H2, H3, H4, H5⟩
  iapply (sound_kernel1 (U := UU) c Set.univ (grid1.coords t) _ _ _ _ _ _ _ _ _ _ _ _ (Y 0) (Y 1) (Y 2) (Y 3) (Y 4) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexists (Y 0); isplitr; · ipureintro; exact rfl
                  iexact H0
  isplitl [H1]; · iexists (Y 1); isplitr; · ipureintro; exact rfl
                  iexact H1
  isplitl [H2]; · iexists (Y 2); isplitr; · ipureintro; exact rfl
                  iexact H2
  isplitl [H3]; · iexists (Y 3); isplitr; · ipureintro; exact rfl
                  iexact H3
  isplitl [H4]; · iexists (Y 4); isplitr; · ipureintro; exact rfl
                  iexact H4
  iexists _; isplitr
  swap; · iexact H5
  ipureintro
  exact ⟨Y 0, Y 1, Y 2, Y 3, Y 4, (finds1 V c 0 (by decide) t _).mp (hY 0), (finds1 V c 1 (by decide) t _).mp (hY 1),
    (finds1 V c 2 (by decide) t _).mp (hY 2), (finds1 V c 3 (by decide) t _).mp (hY 3), (finds1 V c 4 (by decide) t _).mp (hY 4), rfl⟩

/-! ## Region 0 -/

/-- Region 0 with every window left as found. -/
def rdIn0 (c : Dev nD) : RDat τ (Elt F) Unit ℕ UU ℕ cfg0 c where
  A w := V c (Pipeline.arrRef spec0 w)
  after _ _ Y X := X = Y
  Φ _ := iprop(emp)
  q _ := fullShare
  owed _ := 0

/-- The accumulator after the body at position `n`: at a first reduction step (`n` a multiple of 16) the
    accumulate payload of the zero payload and the two operand blocks found there; at a later one, of the
    accumulator after the position before and the blocks found there. -/
def AccAt (c : Dev nD) : (n : ℕ) → n < cfg0.N → Vec F S1024x2048 .f32 → Prop
  | 0, h, acc => ∃ (Y0 : Vec F S1024x1280 .bf16) (Y1 : Vec F S1280x2048 .bf16),
      (rdIn0 V c).Finds 0 ⟨0, h⟩ Y0 ∧ (rdIn0 V c).Finds 1 ⟨0, h⟩ Y1 ∧ acc = k0_pay2 (k0_pay1 (F := F)) Y0 Y1
  | n + 1, h, acc =>
    if (n + 1) % 16 = 0 then
      ∃ (Y0 : Vec F S1024x1280 .bf16) (Y1 : Vec F S1280x2048 .bf16),
        (rdIn0 V c).Finds 0 ⟨n + 1, h⟩ Y0 ∧ (rdIn0 V c).Finds 1 ⟨n + 1, h⟩ Y1 ∧ acc = k0_pay2 (k0_pay1 (F := F)) Y0 Y1
    else
      ∃ (acc' : Vec F S1024x2048 .f32) (Y0 : Vec F S1024x1280 .bf16) (Y1 : Vec F S1280x2048 .bf16),
        AccAt c n (Nat.lt_of_succ_lt h) acc' ∧ (rdIn0 V c).Finds 0 ⟨n + 1, h⟩ Y0 ∧ (rdIn0 V c).Finds 1 ⟨n + 1, h⟩ Y1
          ∧ acc = k0_pay2 acc' Y0 Y1

theorem accAt_first (c : Dev nD) (t : Fin cfg0.N) (h0 : t.val % 16 = 0) (Y0 : Vec F S1024x1280 .bf16) (Y1 : Vec F S1280x2048 .bf16)
    (h0f : (rdIn0 V c).Finds 0 t Y0) (h1f : (rdIn0 V c).Finds 1 t Y1) :
    AccAt V c t.val t.isLt (k0_pay2 (k0_pay1 (F := F)) Y0 Y1) := by
  obtain ⟨n, hn⟩ := t
  cases n with
  | zero => exact ⟨Y0, Y1, h0f, h1f, rfl⟩
  | succ n => unfold AccAt; rw [if_pos h0]; exact ⟨Y0, Y1, h0f, h1f, rfl⟩

theorem accAt_next (c : Dev nD) (t : Fin cfg0.N) (h0 : t.val % 16 ≠ 0) (acc' : Vec F S1024x2048 .f32)
    (hacc : AccAt V c (t.val - 1) (Nat.lt_of_le_of_lt (Nat.sub_le _ _) t.isLt) acc')
    (Y0 : Vec F S1024x1280 .bf16) (Y1 : Vec F S1280x2048 .bf16)
    (h0f : (rdIn0 V c).Finds 0 t Y0) (h1f : (rdIn0 V c).Finds 1 t Y1) :
    AccAt V c t.val t.isLt (k0_pay2 acc' Y0 Y1) := by
  obtain ⟨n, hn⟩ := t
  cases n with
  | zero => exact absurd (Nat.zero_mod _) h0
  | succ n => unfold AccAt; rw [if_neg h0]; exact ⟨acc', Y0, Y1, hacc, h0f, h1f, rfl⟩

/-- What the body leaves in region 0's output buffer at a last reduction step: the epilogue payload of the
    accumulator after that step and of the three row vectors found there. -/
def OutRel0 (c : Dev nD) (t : Fin cfg0.N) (X : Vec F S1024x2048 .bf16) : Prop :=
  ∃ (acc : Vec F S1024x2048 .f32) (Y2 Y3 Y4 : Vec F S1x2048 .f32),
    AccAt V c t.val t.isLt acc ∧ (rdIn0 V c).Finds 2 t Y2 ∧ (rdIn0 V c).Finds 3 t Y3 ∧ (rdIn0 V c).Finds 4 t Y4
      ∧ X = k0_pay3 acc Y2 Y3 Y4

/-- The accumulator scratch, as the whole memref the body is passed. -/
abbrev scM : Memref sig .tc .vmem S1024x2048 .f32 := Memref.whole cc0_scratch0

/-- The core's scoped buffers that region 0 neither stages nor uses: region 1's staging buffers, at anything. -/
def Others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f))

theorem PhiA0_eq (c : Dev nD) :
    (Pipeline.ΦA spec0 c : sProp 𝕄) = iprop(((∃ d, owns (c : Thread nD τ) scM fullShare d) ∗ Others0 c) ∗ (∃ r, prngReg c r)) := by
  unfold Pipeline.ΦA Others0; rw [scopedRest0_eq]; simp only [scM, owns_whole]; rfl

/-- The region invariant before position `n`: before the first point the scoped rest at anything; afterwards the
    accumulator at contents satisfying `AccAt` of the position before. -/
def PhiS (c : Dev nD) : (n : ℕ) → n ≤ cfg0.N → sProp 𝕄
  | 0, _ => Pipeline.ΦA spec0 c
  | n + 1, hn => iprop(((∃ acc, ⌜AccAt V c n hn acc⌝ ∗ owns (c : Thread nD τ) scM fullShare acc) ∗ Others0 c) ∗ (∃ r, prngReg c r))

theorem PhiS_succ (c : Dev nD) (n : ℕ) (hn : n < cfg0.N) :
    PhiS V c (n + 1) hn = iprop(((∃ acc, ⌜AccAt V c n hn acc⌝ ∗ owns (c : Thread nD τ) scM fullShare acc) ∗ Others0 c) ∗ (∃ r, prngReg c r)) := rfl

theorem PhiS_pos (c : Dev nD) (n : ℕ) (h : n ≤ cfg0.N) (hz : n ≠ 0) :
    PhiS V c n h = iprop(((∃ acc, ⌜AccAt V c (n - 1) (by omega) acc⌝ ∗ owns (c : Thread nD τ) scM fullShare acc) ∗ Others0 c) ∗ (∃ r, prngReg c r)) := by
  cases n with
  | zero => exact absurd rfl hz
  | succ n => rfl

/-- At any position the invariant yields the accumulator at some contents. -/
theorem PhiS_any (c : Dev nD) (n : ℕ) (h : n ≤ cfg0.N) :
    PhiS V c n h ⊢ iprop(((∃ d, owns (c : Thread nD τ) scM fullShare d) ∗ Others0 c) ∗ (∃ r, prngReg c r)) := by
  cases n with
  | zero => rw [show PhiS V c 0 h = Pipeline.ΦA spec0 c from rfl, PhiA0_eq]
  | succ n =>
    rw [PhiS_succ]
    iintro ⟨⟨⟨%acc, -, HS⟩, HO⟩, Hg⟩
    isplitr [Hg]
    · isplitl [HS]; · iexists acc; iexact HS
      iexact HO
    iexact Hg

/-- Region 0's proof data. -/
def rd0 (c : Dev nD) : RDat τ (Elt F) Unit ℕ UU ℕ cfg0 c where
  A w := V c (Pipeline.arrRef spec0 w)
  after w t Y X := match w with
    | ⟨5, _⟩ => if t.val % 16 = 15 then OutRel0 V c t X else True
    | _ => X = Y
  Φ t := PhiS V c t.val (Nat.le_of_lt_succ t.isLt)
  q _ := fullShare
  owed _ := 0

theorem finds0 (c : Dev nD) (w : Fin cfg0.W) (hw : w.val < 5) (t : Fin cfg0.N) (X) :
    (rd0 V c).Finds w t X ↔ (rdIn0 V c).Finds w t X := by
  refine RDat.finds_congr (rd := rdIn0 V c) (rd' := rd0 V c) rfl ?_ t X
  match w, hw with
  | ⟨0, _⟩, _ => rfl
  | ⟨1, _⟩, _ => rfl
  | ⟨2, _⟩, _ => rfl
  | ⟨3, _⟩, _ => rfl
  | ⟨4, _⟩, _ => rfl

/-- The first conditional is taken at the first reduction steps, the second at the last ones: decided over the grid. -/
theorem hcFirst : ∀ t : Fin cfg0.N, condFirst (grid0.coords t) ↔ t.val % 16 = 0 :=
  (by decide +kernel : ∀ t : Fin grid0.N, condFirst (grid0.coords t) ↔ t.val % 16 = 0)
theorem hcLast : ∀ t : Fin cfg0.N, condLast (grid0.coords t) ↔ t.val % 16 = 15 :=
  (by decide +kernel : ∀ t : Fin grid0.N, condLast (grid0.coords t) ↔ t.val % 16 = 15)

end Cert.KernelIdeal.Hand

end
-- ==== Proof.IdealOblig0.lean ====
/-
  Region 0's body obligation: at each grid point the body, handed buffers it may find there and the
  invariant before the point, runs to the invariant after it and to buffers in the stated relations —
  by the control case of the point (first, middle or last reduction step).
-/
import proofs.«171824_j50646254354906_2_alg».proof.Proof.Gen.KernelIdeal.Launch
import proofs.«171824_j50646254354906_2_alg».proof.Proof.Gen.KernelIdeal.Skeleton
import proofs.«171824_j50646254354906_2_alg».proof.Proof.Gen.KernelIdeal.Points
import proofs.«171824_j50646254354906_2_alg».proof.Proof.IdealData
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ UU ℕ

variable (V : (c : Dev nD) → (b : Ref sig .tc) → Buf (Elt F) ((c : Thread nD τ).loc b))

set_option maxHeartbeats 4000000 in
theorem body_obligation0 (c : Dev nD) : (rd0 V c).BodyObligation (defs₀ (F := F)) Variants.none () Set.univ := fun t Y hY => by
  rw [bigSep_W0, bigSep_W0]
  show _ ⊢ wp frame (wpE (defs₀ (F := F)) Variants.none c none) Set.univ (bodyAt0 t) _
  rw [show (rd0 V c).owesAt () t.succ = (rd0 V c).owesAt () t.castSucc from rfl,
    show (rd0 V c).Φ t.succ = PhiS V c (t.val + 1) t.isLt from rfl,
    show (rd0 V c).Φ t.castSucc = PhiS V c t.val (Nat.le_of_lt t.isLt) from rfl, PhiS_succ]
  have f0 := (finds0 V c 0 (by decide) t _).mp (hY 0)
  have f1 := (finds0 V c 1 (by decide) t _).mp (hY 1)
  have f2 := (finds0 V c 2 (by decide) t _).mp (hY 2)
  have f3 := (finds0 V c 3 (by decide) t _).mp (hY 3)
  have f4 := (finds0 V c 4 (by decide) t _).mp (hY 4)
  by_cases h0 : t.val % 16 = 0
  · -- a first reduction step
    have hcf : condFirst (grid0.coords t) := (hcFirst t).mpr h0
    have hcl : ¬condLast (grid0.coords t) := fun h => by have := (hcLast t).mp h; omega
    iintro ⟨HΦ, Ho, H0, H1, H2, H3, H4, H5⟩
    ihave HΦ' := (PhiS_any V c t.val (Nat.le_of_lt t.isLt)) $$ HΦ
    icases HΦ' with ⟨⟨HS, HO⟩, Hg⟩
    iapply ((runFirst (U := UU) c (grid0.coords t) _ _ _ _ _ _ _ _ _ _ _ _ _ _ hcf hcl (Y 0) (Y 1) (Y 2) (Y 3) (Y 4)).2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, ⟨%d5, H5⟩, ⟨%f, HS⟩⟩
    isplitl [HS HO Hg]
    · isplitr [Hg]
      · isplitl [HS]
        · iexists (k0_pay2 (k0_pay1 (F := F)) (Y 0) (Y 1)); isplitr
          · ipureintro; exact accAt_first V c t h0 (Y 0) (Y 1) f0 f1
          unfold owns; iexists _; isplitr
          swap; · iexact HS
          ipureintro; exact readFirst c _ _ _ _ _ _ _ _ _ _ _ _ _ _ _ hcf hcl _ _ _ _ _ f
        iexact HO
      iexact Hg
    isplitl [Ho]; · iexact Ho
    isplitl [H0]; · iexists (Y 0); isplitr; · ipureintro; exact rfl
                    iexact H0
    isplitl [H1]; · iexists (Y 1); isplitr; · ipureintro; exact rfl
                    iexact H1
    isplitl [H2]; · iexists (Y 2); isplitr; · ipureintro; exact rfl
                    iexact H2
    isplitl [H3]; · iexists (Y 3); isplitr; · ipureintro; exact rfl
                    iexact H3
    isplitl [H4]; · iexists (Y 4); isplitr; · ipureintro; exact rfl
                    iexact H4
    iexists d5; isplitr
    · ipureintro; show (if t.val % 16 = 15 then _ else True); rw [if_neg (by omega)]; trivial
    iexact H5
  · have hcf : ¬condFirst (grid0.coords t) := fun h => h0 ((hcFirst t).mp h)
    have hz : t.val ≠ 0 := fun h => h0 (by rw [h])
    rw [PhiS_pos V c t.val _ hz]
    by_cases h15 : t.val % 16 = 15
    · -- a last reduction step
      have hcl : condLast (grid0.coords t) := (hcLast t).mpr h15
      iintro ⟨⟨⟨⟨%acc, %hacc, HS⟩, HO⟩, Hg⟩, Ho, H0, H1, H2, H3, H4, H5⟩
      iapply ((runLast (U := UU) c (grid0.coords t) _ _ _ _ _ _ _ _ _ _ _ _ _ _ hcf hcl (Y 0) (Y 1) (Y 2) (Y 3) (Y 4) acc).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, ⟨%f5, H5⟩, ⟨%f, HS⟩⟩
      isplitl [HS HO Hg]
      · isplitr [Hg]
        · isplitl [HS]
          · iexists (k0_pay2 acc (Y 0) (Y 1)); isplitr
            · ipureintro; exact accAt_next V c t h0 acc hacc (Y 0) (Y 1) f0 f1
            unfold owns; iexists _; isplitr
            swap; · iexact HS
            ipureintro; exact readLastAcc c _ _ _ _ _ _ _ _ _ _ _ _ _ _ _ hcf hcl _ _ _ _ _ _ f
          iexact HO
        iexact Hg
      isplitl [Ho]; · iexact Ho
      isplitl [H0]; · iexists (Y 0); isplitr; · ipureintro; exact rfl
                      iexact H0
      isplitl [H1]; · iexists (Y 1); isplitr; · ipureintro; exact rfl
                      iexact H1
      isplitl [H2]; · iexists (Y 2); isplitr; · ipureintro; exact rfl
                      iexact H2
      isplitl [H3]; · iexists (Y 3); isplitr; · ipureintro; exact rfl
                      iexact H3
      isplitl [H4]; · iexists (Y 4); isplitr; · ipureintro; exact rfl
                      iexact H4
      iexists (k0_pay3 (k0_pay2 acc (Y 0) (Y 1)) (Y 2) (Y 3) (Y 4)); isplitr
      · ipureintro; show (if t.val % 16 = 15 then _ else True); rw [if_pos h15]
        exact ⟨k0_pay2 acc (Y 0) (Y 1), Y 2, Y 3, Y 4, accAt_next V c t h0 acc hacc (Y 0) (Y 1) f0 f1, f2, f3, f4, rfl⟩
      unfold owns; iexists _; isplitr
      swap; · iexact H5
      ipureintro; exact readLastOut c _ _ _ _ _ _ _ _ _ _ _ _ _ _ _ hcf hcl _ _ _ _ _ _ f5
    · -- a middle reduction step
      have hcl : ¬condLast (grid0.coords t) := fun h => h15 ((hcLast t).mp h)
      iintro ⟨⟨⟨⟨%acc, %hacc, HS⟩, HO⟩, Hg⟩, Ho, H0, H1, H2, H3, H4, H5⟩
      iapply ((runMid (U := UU) c (grid0.coords t) _ _ _ _ _ _ _ _ _ _ _ _ _ _ hcf hcl (Y 0) (Y 1) (Y 2) (Y 3) (Y 4) acc).2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, ⟨%d5, H5⟩, ⟨%f, HS⟩⟩
      isplitl [HS HO Hg]
      · isplitr [Hg]
        · isplitl [HS]
          · iexists (k0_pay2 acc (Y 0) (Y 1)); isplitr
            · ipureintro; exact accAt_next V c t h0 acc hacc (Y 0) (Y 1) f0 f1
            unfold owns; iexists _; isplitr
            swap; · iexact HS
            ipureintro; exact readMid c _ _ _ _ _ _ _ _ _ _ _ _ _ _ _ hcf hcl _ _ _ _ _ _ f
          iexact HO
        iexact Hg
      isplitl [Ho]; · iexact Ho
      isplitl [H0]; · iexists (Y 0); isplitr; · ipureintro; exact rfl
                      iexact H0
      isplitl [H1]; · iexists (Y 1); isplitr; · ipureintro; exact rfl
                      iexact H1
      isplitl [H2]; · iexists (Y 2); isplitr; · ipureintro; exact rfl
                      iexact H2
      isplitl [H3]; · iexists (Y 3); isplitr; · ipureintro; exact rfl
                      iexact H3
      isplitl [H4]; · iexists (Y 4); isplitr; · ipureintro; exact rfl
                      iexact H4
      iexists d5; isplitr
      · ipureintro; show (if t.val % 16 = 15 then _ else True); rw [if_neg h15]; trivial
      iexact H5

end Cert.KernelIdeal.Hand

end
-- ==== Proof.IdealRegion0.lean ====
/-
  The first kernel region as a segment of the program's run, at any float instance. Between two items of the
  program a core holds every unscoped buffer whole at a valuation, its generator register at some state, and
  owes nothing. The region is entered with the buffers as the host stretches before it left them; its six
  windowed arrays are split out of them, the rest bypasses the region; at its end the five input arrays are as at
  entry, and the hidden activations' array holds SOME contents the write-backs may have left there — the thread
  state after the region is existential in those contents, recorded with what the relational data says of them.
-/
import proofs.«171824_j50646254354906_2_alg».proof.Proof.IdealData
import proofs.«171824_j50646254354906_2_alg».proof.Proof.IdealOblig0
import proofs.«171824_j50646254354906_2_alg».proof.Proof.Gen.KernelIdeal.Regions
import Idealize.ShloMosaic.Lib.Pipeline.Regions
import Idealize.ShloMosaic.Lib.Pipeline.RegionsLoop
import Idealize.ShloMosaic.Lib.Pipeline.Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf HostSeg)

variable {F : FTy → Type} [FloatOps F]

local notation "𝕄" => MT nD τ sig Unit (Elt F) ℕ UU ℕ

/-- No core owes another anything: no level is assigned. -/
abbrev L₀ : GSem nD τ sig → Finset Unit := fun _ => ∅
abbrev lv₀ : GSem nD τ sig → Unit → ℕ := fun _ _ => 0

/-- A valuation of a core's unscoped buffers, read at the TensorCore's references. -/
abbrev Val0 (F : FTy → Type) [FloatOps F] : Type := (c : Dev nD) → (b : Ref sig .tc) → Buf (Elt F) ((c : Thread nD τ).loc b)

/-- The proof data of both regions, over the valuations each is entered with. -/
def rdats (Va Vb : Val0 F) : (p : Fin 2) → (c : Dev nD) → RDat τ (Elt F) Unit ℕ UU ℕ (Pipeline.pin (pcfgs (F := F)) adm p) c
  | ⟨0, _⟩ => fun c => rd0 Va c
  | ⟨1, _⟩ => fun c => rd1 Vb c

variable (m : (ℓ : Loc nD τ sig) → Buf (Elt F) ℓ)

/-- Region 0's entry valuation, read at the TensorCore's references. -/
abbrev W5 : Val0 F := fun c b => V5 m c b
/-- Region 1's entry valuation over what region 0 left. -/
abbrev W15 (o : Outs (F := F)) : Val0 F := fun c b => V15 m o c b

/-- What region 0 may leave in the hidden activations' array. -/
def P0 (o : Outs (F := F)) (c : Dev nD) : Prop := (rd0 (W5 m) c).ArrAt 5 cfg0.N (o 6 main_v14 c)
/-- What region 1 may leave in the padded result's array, entered over what region 0 left. -/
def P1 (o : Outs (F := F)) (c : Dev nD) : Prop := (rd1 (W15 m o) c).ArrAt 5 cfg1.N (o 16 main_v30 c)

/-- What every thread state carries beside the unscoped buffers: the generator register at some state, the core
    owing nothing. -/
abbrev Rst (c : Dev nD) : sProp 𝕄 :=
  iprop((∃ r, prngReg c r) ∗ ∃ W, owes (c : Thread nD τ) (0 : CellTallies nD τ sig Unit) W)

/-- Unknown contents that hold `G` in the hidden activations' array on core `c` (the launch valuation elsewhere). -/
def outs6 (c : Dev nD) (G : Buf (Elt F) ((c : Thread nD τ).loc main_v14)) : Outs (F := F) :=
  Function.update (fun _ r c' => V5 m c' r) 6
    (Function.update (fun r c' => V5 m c' r) main_v14 (Function.update (fun c' => V5 m c' main_v14) c G))

theorem outs6_at (c : Dev nD) (G : Buf (Elt F) ((c : Thread nD τ).loc main_v14)) : outs6 m c G 6 main_v14 c = G := by
  unfold outs6; rw [Function.update_self, Function.update_self, Function.update_self]

set_option maxHeartbeats 4000000 in
set_option backward.isDefEq.respectTransparency.types false in
def R0 (Vb : Val0 F) (Gx : Dev nD → sProp 𝕄) : Pipeline.RDat.RegionSeg (pcfgs (F := F)) adm (rdats (W5 m) Vb) () defs₀ Variants.none L₀ lv₀ 0 where
  win := launch0.win.to₀
  block_pos := launch0.block_pos
  stage_whole := launch0.stage_whole
  K := PEmpty
  osem k := k.elim
  ho := Pipeline.OwnSemFacts.none _
  hbody c := body_obligation0 (W5 m) c
  hwaits := Pipeline.RDat.hwaits_of_owed_zero _ _ _ _ L₀ lv₀ 0 fun _ _ => rfl
  pre c := iprop(StableHlo.held (c : Thread nD τ) (Pipeline.ucRefs τ sig) (V5 m c) ∗ (Rst c ∗ Gx c))
  post c := iprop(∃ o : Outs (F := F), StableHlo.held (c : Thread nD τ) (Pipeline.ucRefs τ sig) (V6 m o c) ∗ (⌜P0 m o c⌝ ∗ Rst c ∗ Gx c))
  X c := iprop(∃ r, prngReg c r)
  Y c := iprop(∃ r, prngReg c r)
  Z c := iprop(Pipeline.unscopedRest (Ix := Unit) (Name := ℕ) (U := UU) (Lvl := ℕ) spec0 c (W5 m c) ∗ Gx c)
  hentry c := by
    rw [Pipeline.ownSems0_none]
    have hsplit := Pipeline.RDat.arrays_of_unscopedBufs (p := 0) (pcfgs (F := F)) adm (rdats (W5 m) Vb) launch0.win launch0.arr_whole c
      ((rdats (W5 m) Vb 0 c).share_full fun _ => rfl) (W5 m c) fun _ => rfl
    rw [← Pipeline.unscopedBufs_held (Ix := Unit) (Name := ℕ) (U := UU) (Lvl := ℕ) c (V5 m c)]
    iintro ⟨⟨Hub, ⟨Hg, HO⟩, HG⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hg]; · iexact Hg
    isplitl [Hrest] <;> iassumption
  hin c := by
    show _ ⊢ Pipeline.ΦA spec0 c
    unfold Pipeline.ΦA
    iintro ⟨HX, -, Hs⟩
    isplitl [Hs]; · iexact Hs
    iexact HX
  hout c := by
    have hΦ : (rdats (W5 m) Vb 0 c).Φ (Fin.last (Pipeline.pin (pcfgs (F := F)) adm 0).N) = PhiS (W5 m) c cfg0.N (Nat.le_refl _) := rfl
    rw [hΦ]
    refine (PhiS_any (W5 m) c _ _).trans ?_
    rw [← PhiA0_eq, Pipeline.ownSems0_none]
    unfold Pipeline.ΦA
    iintro ⟨Hs, Hg⟩
    isplitl [Hg]; · iexact Hg
    isplitr; · iempintro
    iexact Hs
  hexit c := by
    have hshare := (rdats (W5 m) Vb 0 c).share_full fun _ => rfl
    have hjoin : ∀ o : Outs (F := F),
        iprop((rdats (W5 m) Vb 0 c).arrays (fun w => V6 m o c (Pipeline.arrRef spec0 w)) ∗ Pipeline.unscopedRest (Ix := Unit) (Name := ℕ) (U := UU) (Lvl := ℕ) spec0 c (W5 m c))
          ⊢ (StableHlo.held (c : Thread nD τ) (Pipeline.ucRefs τ sig) (V6 m o c) : sProp 𝕄) := fun o => by
      rw [← Pipeline.unscopedBufs_held (Ix := Unit) (Name := ℕ) (U := UU) (Lvl := ℕ) c (V6 m o c),
        Pipeline.unscopedBufs_split (Pipeline.pin (pcfgs (F := F)) adm) 0 launch0.win.arr_unscoped launch0.win.arr_inj c (fun b => V6 m o c b),
        Pipeline.RDat.arrays_eq (pcfgs (F := F)) adm (rdats (W5 m) Vb) 0 c launch0.arr_whole hshare]
      refine sep_mono .rfl (Entails.of_eq ?_)
      unfold Pipeline.unscopedRest
      exact bigSep_congr fun b hb => by
        have e : V6 m o c b = V5 m c b := V6_of m o c b (fun h => (Finset.mem_sdiff.mp hb).2 (by
          rw [List.mem_singleton] at h; subst h
          exact Finset.mem_image.mpr ⟨5, Finset.mem_univ _, rfl⟩))
        exact congrArg (fun x => (((c : Thread nD τ).loc b ↦{fullShare} x) : sProp 𝕄)) e.symm
    unfold Pipeline.RDat.arraysAt
    rw [bigSep_W0]
    iintro ⟨⟨⟨%F0, %h0, H0⟩, ⟨%F1, %h1, H1⟩, ⟨%F2, %h2, H2⟩, ⟨%F3, %h3, H3⟩, ⟨%F4, %h4, H4⟩, ⟨%F5, %h5, H5⟩⟩, HO, Hg, Hrest, HG⟩
    rw [(rdats (W5 m) Vb 0 c).ArrAt_in 0 rfl] at h0
    rw [(rdats (W5 m) Vb 0 c).ArrAt_in 1 rfl] at h1
    rw [(rdats (W5 m) Vb 0 c).ArrAt_in 2 rfl] at h2
    rw [(rdats (W5 m) Vb 0 c).ArrAt_in 3 rfl] at h3
    rw [(rdats (W5 m) Vb 0 c).ArrAt_in 4 rfl] at h4
    subst h0 h1 h2 h3 h4
    imodintro
    iexists (outs6 m c F5)
    isplitl [H0 H1 H2 H3 H4 H5 Hrest]
    · iapply (hjoin (outs6 m c F5))
      isplitr [Hrest]; swap; · iexact Hrest
      unfold Pipeline.RDat.arrays
      rw [bigSep_W0]
      have e0 : V6 m (outs6 m c F5) c (Pipeline.arrRef spec0 0) = (rdats (W5 m) Vb 0 c).A 0 := V6_of m _ c _ (by decide)
      have e1 : V6 m (outs6 m c F5) c (Pipeline.arrRef spec0 1) = (rdats (W5 m) Vb 0 c).A 1 := V6_of m _ c _ (by decide)
      have e2 : V6 m (outs6 m c F5) c (Pipeline.arrRef spec0 2) = (rdats (W5 m) Vb 0 c).A 2 := V6_of m _ c _ (by decide)
      have e3 : V6 m (outs6 m c F5) c (Pipeline.arrRef spec0 3) = (rdats (W5 m) Vb 0 c).A 3 := V6_of m _ c _ (by decide)
      have e4 : V6 m (outs6 m c F5) c (Pipeline.arrRef spec0 4) = (rdats (W5 m) Vb 0 c).A 4 := V6_of m _ c _ (by decide)
      have e5 : V6 m (outs6 m c F5) c (Pipeline.arrRef spec0 5) = F5 := by
        show Function.update (V5 m c) main_v14 (outs6 m c F5 6 main_v14 c) main_v14 = F5
        rw [Function.update_self, outs6_at]
      beta_reduce
      rw [e0, e1, e2, e3, e4, e5]
      isplitl [H0]; · iexact H0
      isplitl [H1]; · iexact H1
      isplitl [H2]; · iexact H2
      isplitl [H3]; · iexact H3
      isplitl [H4]; · iexact H4
      iexact H5
    isplitr
    · ipureintro
      unfold P0; rw [outs6_at]; exact h5
    isplitr [HG]; swap; · iexact HG
    isplitl [Hg]; · iexact Hg
    unfold Pipeline.RDat.owesAt Pipeline.owesWithin
    icases HO with ⟨%W, -, HO⟩; iexists W; iexact HO

end Cert.KernelIdeal.Hand

end
-- ==== Proof.IdealRegion1.lean ====
/-
  The second kernel region as a segment of the program's run, at any float instance, ENTERED OVER WHATEVER the first
  region left in the hidden activations' array: its record is a family over those unknown contents. The valuation
  it is entered with depends on the unknowns only through that array, so the contents it leaves in the padded
  result's array can be recorded by updating the unknowns there and nowhere else.
-/
import proofs.«171824_j50646254354906_2_alg».proof.Proof.IdealRegion0
import proofs.«171824_j50646254354906_2_alg».proof.Proof.Gen.KernelIdeal.Regions
import Idealize.ShloMosaic.Lib.Pipeline.Regions
import Idealize.ShloMosaic.Lib.Pipeline.RegionsLoop
import Idealize.ShloMosaic.Lib.Pipeline.Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf HostSeg)

variable {F : FTy → Type} [FloatOps F]

local notation "𝕄" => MT nD τ sig Unit (Elt F) ℕ UU ℕ

variable (m : (ℓ : Loc nD τ sig) → Buf (Elt F) ℓ)

/-- The valuation region 1 is entered with depends on the unknowns only through the hidden activations' array. -/
theorem V15_congr (o o' : Outs (F := F)) (c : Dev nD) (h : o' 6 main_v14 c = o 6 main_v14 c) : V15 m o' c = V15 m o c := by
  unfold V15 V14 V13 V12 V11 V10 V9 V8 V7 V6
  rw [h]

/-- The unknowns `o` with the padded result's array on core `c` set to `G`. -/
def outs16 (o : Outs (F := F)) (c : Dev nD) (G : Buf (Elt F) ((c : Thread nD τ).loc main_v30)) : Outs (F := F) :=
  Function.update o 16 (Function.update (o 16) main_v30 (Function.update (o 16 main_v30) c G))

theorem outs16_at (o : Outs (F := F)) (c : Dev nD) (G : Buf (Elt F) ((c : Thread nD τ).loc main_v30)) :
    outs16 o c G 16 main_v30 c = G := by
  unfold outs16; rw [Function.update_self, Function.update_self, Function.update_self]

theorem outs16_six (o : Outs (F := F)) (c : Dev nD) (G : Buf (Elt F) ((c : Thread nD τ).loc main_v30)) :
    outs16 o c G 6 = o 6 := by
  unfold outs16; exact Function.update_of_ne (by decide) _ _

theorem V15_outs16 (o : Outs (F := F)) (c : Dev nD) (G : Buf (Elt F) ((c : Thread nD τ).loc main_v30)) :
    V15 m (outs16 o c G) c = V15 m o c := V15_congr m o _ c (by rw [outs16_six])

theorem W15_outs16 (o : Outs (F := F)) (c : Dev nD) (G : Buf (Elt F) ((c : Thread nD τ).loc main_v30)) :
    W15 m (outs16 o c G) = W15 m o :=
  funext fun c' => funext fun b => congrFun (V15_congr m o _ c' (by rw [outs16_six])) b

theorem P0_outs16 (o : Outs (F := F)) (c : Dev nD) (G : Buf (Elt F) ((c : Thread nD τ).loc main_v30)) (h : P0 m o c) :
    P0 m (outs16 o c G) c := by
  unfold P0 at h ⊢; rw [outs16_six]; exact h

set_option maxHeartbeats 4000000 in
set_option backward.isDefEq.respectTransparency.types false in
def R1 (Va : Val0 F) (o : Outs (F := F)) : Pipeline.RDat.RegionSeg (pcfgs (F := F)) adm (rdats Va (W15 m o)) () defs₀ Variants.none L₀ lv₀ 1 where
  win := launch1.win.to₀
  block_pos := launch1.block_pos
  stage_whole := launch1.stage_whole
  K := PEmpty
  osem k := k.elim
  ho := Pipeline.OwnSemFacts.none _
  hbody c := body_obligation1 (W15 m o) c
  hwaits := Pipeline.RDat.hwaits_of_owed_zero _ _ _ _ L₀ lv₀ 1 fun _ _ => rfl
  pre c := iprop(StableHlo.held (c : Thread nD τ) (Pipeline.ucRefs τ sig) (V15 m o c) ∗ (⌜P0 m o c⌝ ∗ Rst c))
  post c := iprop(∃ o' : Outs (F := F), StableHlo.held (c : Thread nD τ) (Pipeline.ucRefs τ sig) (V16 m o' c) ∗ (⌜P0 m o' c ∧ P1 m o' c⌝ ∗ Rst c))
  X c := iprop(∃ r, prngReg c r)
  Y c := iprop(∃ r, prngReg c r)
  Z c := iprop(Pipeline.unscopedRest (Ix := Unit) (Name := ℕ) (U := UU) (Lvl := ℕ) spec1 c (W15 m o c) ∗ ⌜P0 m o c⌝)
  hentry c := by
    rw [Pipeline.ownSems0_none]
    have hsplit := Pipeline.RDat.arrays_of_unscopedBufs (p := 1) (pcfgs (F := F)) adm (rdats Va (W15 m o)) launch1.win launch1.arr_whole c
      ((rdats Va (W15 m o) 1 c).share_full fun _ => rfl) (W15 m o c) fun _ => rfl
    rw [← Pipeline.unscopedBufs_held (Ix := Unit) (Name := ℕ) (U := UU) (Lvl := ℕ) c (V15 m o c)]
    iintro ⟨⟨Hub, %hP, ⟨Hg, HO⟩⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hg]; · iexact Hg
    isplitl [Hrest]; · iexact Hrest
    ipureintro; exact hP
  hin c := by
    show _ ⊢ Pipeline.ΦA spec1 c
    unfold Pipeline.ΦA
    iintro ⟨HX, -, Hs⟩
    isplitl [Hs]; · iexact Hs
    iexact HX
  hout c := by
    show Pipeline.ΦA spec1 c ⊢ _
    rw [Pipeline.ownSems0_none]
    unfold Pipeline.ΦA
    iintro ⟨Hs, Hg⟩
    isplitl [Hg]; · iexact Hg
    isplitr; · iempintro
    iexact Hs
  hexit c := by
    have hshare := (rdats Va (W15 m o) 1 c).share_full fun _ => rfl
    have hjoin : ∀ o' : Outs (F := F), V15 m o' c = V15 m o c →
        iprop((rdats Va (W15 m o) 1 c).arrays (fun w => V16 m o' c (Pipeline.arrRef spec1 w)) ∗ Pipeline.unscopedRest (Ix := Unit) (Name := ℕ) (U := UU) (Lvl := ℕ) spec1 c (W15 m o c))
          ⊢ (StableHlo.held (c : Thread nD τ) (Pipeline.ucRefs τ sig) (V16 m o' c) : sProp 𝕄) := fun o' ho' => by
      rw [← Pipeline.unscopedBufs_held (Ix := Unit) (Name := ℕ) (U := UU) (Lvl := ℕ) c (V16 m o' c),
        Pipeline.unscopedBufs_split (Pipeline.pin (pcfgs (F := F)) adm) 1 launch1.win.arr_unscoped launch1.win.arr_inj c (fun b => V16 m o' c b),
        Pipeline.RDat.arrays_eq (pcfgs (F := F)) adm (rdats Va (W15 m o)) 1 c launch1.arr_whole hshare]
      refine sep_mono .rfl (Entails.of_eq ?_)
      unfold Pipeline.unscopedRest
      exact bigSep_congr fun b hb => by
        have e : V16 m o' c b = V15 m o c b := (V16_of m o' c b (fun h => (Finset.mem_sdiff.mp hb).2 (by
          rw [List.mem_singleton] at h; subst h
          exact Finset.mem_image.mpr ⟨5, Finset.mem_univ _, rfl⟩))).trans (congrFun ho' b)
        exact congrArg (fun x => (((c : Thread nD τ).loc b ↦{fullShare} x) : sProp 𝕄)) e.symm
    unfold Pipeline.RDat.arraysAt
    rw [bigSep_W1]
    iintro ⟨⟨⟨%F0, %h0, H0⟩, ⟨%F1, %h1, H1⟩, ⟨%F2, %h2, H2⟩, ⟨%F3, %h3, H3⟩, ⟨%F4, %h4, H4⟩, ⟨%F5, %h5, H5⟩⟩, HO, Hg, Hrest, %hP⟩
    rw [(rdats Va (W15 m o) 1 c).ArrAt_in 0 rfl] at h0
    rw [(rdats Va (W15 m o) 1 c).ArrAt_in 1 rfl] at h1
    rw [(rdats Va (W15 m o) 1 c).ArrAt_in 2 rfl] at h2
    rw [(rdats Va (W15 m o) 1 c).ArrAt_in 3 rfl] at h3
    rw [(rdats Va (W15 m o) 1 c).ArrAt_in 4 rfl] at h4
    subst h0 h1 h2 h3 h4
    imodintro
    iexists (outs16 o c F5)
    have hV := V15_outs16 m o c F5
    isplitl [H0 H1 H2 H3 H4 H5 Hrest]
    · iapply (hjoin (outs16 o c F5) hV)
      isplitr [Hrest]; swap; · iexact Hrest
      unfold Pipeline.RDat.arrays
      rw [bigSep_W1]
      have e0 : V16 m (outs16 o c F5) c (Pipeline.arrRef spec1 0) = (rdats Va (W15 m o) 1 c).A 0 := (V16_of m _ c _ (by decide)).trans (congrFun hV _)
      have e1 : V16 m (outs16 o c F5) c (Pipeline.arrRef spec1 1) = (rdats Va (W15 m o) 1 c).A 1 := (V16_of m _ c _ (by decide)).trans (congrFun hV _)
      have e2 : V16 m (outs16 o c F5) c (Pipeline.arrRef spec1 2) = (rdats Va (W15 m o) 1 c).A 2 := (V16_of m _ c _ (by decide)).trans (congrFun hV _)
      have e3 : V16 m (outs16 o c F5) c (Pipeline.arrRef spec1 3) = (rdats Va (W15 m o) 1 c).A 3 := (V16_of m _ c _ (by decide)).trans (congrFun hV _)
      have e4 : V16 m (outs16 o c F5) c (Pipeline.arrRef spec1 4) = (rdats Va (W15 m o) 1 c).A 4 := (V16_of m _ c _ (by decide)).trans (congrFun hV _)
      have e5 : V16 m (outs16 o c F5) c (Pipeline.arrRef spec1 5) = F5 := by
        show Function.update (V15 m (outs16 o c F5) c) main_v30 (outs16 o c F5 16 main_v30 c) main_v30 = F5
        rw [Function.update_self, outs16_at]
      beta_reduce
      rw [e0, e1, e2, e3, e4, e5]
      isplitl [H0]; · iexact H0
      isplitl [H1]; · iexact H1
      isplitl [H2]; · iexact H2
      isplitl [H3]; · iexact H3
      isplitl [H4]; · iexact H4
      iexact H5
    isplitr
    · ipureintro
      refine ⟨P0_outs16 m o c F5 hP, ?_⟩
      unfold P1
      rw [outs16_at, W15_outs16]
      exact h5
    isplitl [Hg]; · iexact Hg
    unfold Pipeline.RDat.owesAt Pipeline.owesWithin
    icases HO with ⟨%W, -, HO⟩; iexists W; iexact HO

end Cert.KernelIdeal.Hand

end
-- ==== Proof.IdealRegionHost.lean ====
/-
  The run's separation-logic wrappers, at any float instance. The launch element pays for two copies of the
  rounds ghost state of the staging cells: the left copy is the one the segment list of the run spends on its
  own kernel regions, the right copy rides along in the ghost resources of each core, so that a kernel region
  can be entered from inside a host segment. A family of host segments with one program is one host segment
  whose thread states are existential in the family's index; a family of kernel-region records is a host
  segment that opens the index at entry, spends the right copy's ghost state there, and closes it at exit.
-/
import proofs.«171824_j50646254354906_2_alg».proof.Proof.IdealData
import proofs.«171824_j50646254354906_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ UU ℕ

/-! ## The launch element and the second copy of the rounds ghost state -/

/-- The launch element: the rounds library's launch element at every staging cell, twice. -/
def u₀ : UU :=
  (initOf (Pipeline.cells cfgs cellOf_inj) (Pipeline.launchToks cfgs cellOf_inj),
   initOf (Pipeline.cells cfgs cellOf_inj) (Pipeline.launchToks cfgs cellOf_inj))

/-- What core `c` carries of the right copy: the rounds ghost state of the second kernel region's staging cells
    and its duty tokens. -/
def Gh (c : Dev nD) : sProp 𝕄 :=
  iprop(Pipeline.cellsGhost cfgs (embR : Emb (UR sig nD τ) 𝕄) 1 c ∗ Pipeline.toksInit cfgs (embR : Emb (UR sig nD τ) 𝕄) 1 c)

/-- The launch element yields the left copy's launch element whole and, from the right copy, each core's share. -/
theorem fund_u₀ : (ownU u₀ : sProp 𝕄) ⊢ |={Set.univ}=> iprop(BI.own ((embL : Emb (UR sig nD τ) 𝕄) (initOf (Pipeline.cells cfgs cellOf_inj) (Pipeline.launchToks cfgs cellOf_inj))) ∗ bigSep Finset.univ (Gh (F := F))) := by
  have hG : iprop((bigSep Finset.univ fun c : Dev nD => bigSep Finset.univ fun p => Pipeline.cellsGhost cfgs (embR : Emb (UR sig nD τ) 𝕄) p c)
        ∗ (bigSep Finset.univ fun c : Dev nD => bigSep Finset.univ fun p => (Pipeline.toksInit cfgs (embR : Emb (UR sig nD τ) 𝕄) p c : sProp 𝕄)))
      ⊢ bigSep Finset.univ (Gh (F := F)) := by
    rw [← bigSep_sep']
    exact bigSep_mono fun c _ => show _ ⊢ iprop(Pipeline.cellsGhost cfgs (embR : Emb (UR sig nD τ) 𝕄) 1 c ∗ Pipeline.toksInit cfgs (embR : Emb (UR sig nD τ) 𝕄) 1 c)
      from BI.sep_mono (bigSep_elim (Finset.mem_univ _)) (bigSep_elim (Finset.mem_univ _))
  unfold u₀
  iintro Hu
  ihave H := (ownU_pair _ _) $$ Hu
  icases H with ⟨HL, HR⟩
  imod (Pipeline.fund_ghost cfgs (embR : Emb (UR sig nD τ) 𝕄) cellOf_inj) $$ HR with ⟨Hg, Ht⟩
  imodintro
  isplitl [HL]; · iexact HL
  iapply hG
  isplitl [Hg]; · iexact Hg
  iexact Ht

/-! ## Host segments existential in an index -/

section Wrappers

variable (𝒱₀ : Variants) (L : GSem nD τ sig → Finset Unit) (lv : GSem nD τ sig → Unit → ℕ)

/-- A family of host segments with one program, as one host segment: it is entered from the thread state of some
    member and leaves at that member's. -/
def hostEx {ι : Type} (prog : Prog (TpuEff nD τ sig (Elt F) (Pipeline.Sig Λ₀ (Fin 2) fun p => (pcfgs (F := F) p).Adm) .tc) PUnit)
    (H : ι → Pipeline.HostSeg (Ix := Unit) (Name := ℕ) (U := UU) (Lvl := ℕ) (pcfgs (F := F)) defs₀ 𝒱₀ L lv)
    (hprog : ∀ o, (H o).prog = prog) :
    Pipeline.HostSeg (Ix := Unit) (Name := ℕ) (U := UU) (Lvl := ℕ) (pcfgs (F := F)) defs₀ 𝒱₀ L lv where
  prog := prog
  pre c := iprop(∃ o, (H o).pre c)
  post c := iprop(∃ o, (H o).post c)
  run c {β} k K := by
    iintro ⟨Hk, Hbd, ⟨%o, Hpre⟩, Hla⟩
    rw [← hprog o]
    iapply ((H o).run c k K)
    isplitl [Hk]
    · iintro ⟨Hbd, Hpost⟩
      iapply Hk
      isplitl [Hbd]; · iexact Hbd
      iexists o; iexact Hpost
    isplitl [Hbd]; · iexact Hbd
    isplitl [Hpre]; · iexact Hpre
    iexact Hla

/-- A family of records of the second kernel region, as a host segment: entered from some member's thread state
    beside the core's share of the right copy, it runs the region by that member's record and leaves at that
    member's thread state. -/
def regionHost {ι : Type}
    (rdats : ι → (p : Fin 2) → (c : Dev nD) → RDat τ (Elt F) Unit ℕ UU ℕ (cfgs p) c)
    (R : (o : ι) → Pipeline.RDat.RegionSeg (pcfgs (F := F)) adm (rdats o) () defs₀ 𝒱₀ L lv 1) :
    Pipeline.HostSeg (Ix := Unit) (Name := ℕ) (U := UU) (Lvl := ℕ) (pcfgs (F := F)) defs₀ 𝒱₀ L lv where
  prog := Prog.lift (.customCall (Pipeline.entry 1) ())
  pre c := iprop(∃ o, (R o).pre c ∗ Gh c)
  post c := iprop(∃ o, (R o).post c)
  run c {β} k K := by
    show _ ⊢ wp frame _ Set.univ (.op (.customCall (Pipeline.entry 1) ()) k) K
    unfold Gh
    iintro ⟨Hk, Hbd, ⟨%o, Hpre, Hg, Ht⟩, Hla⟩
    iapply (Pipeline.RDat.RegionSeg.wp (pcfgs (F := F)) adm (rdats o) () cellOf_inj (embR : Emb (UR sig nD τ) 𝕄) defs₀ 𝒱₀ L lv (R o) c none (fun _ h => nomatch h) k K)
    isplitl [Hk]
    · iintro ⟨Hbd, Hpost⟩
      iapply Hk
      isplitl [Hbd]; · iexact Hbd
      iexists o; iexact Hpost
    isplitl [Hbd]; · iexact Hbd
    isplitl [Hpre]; · iexact Hpre
    isplitl [Hla]; · iexact Hla
    isplitl [Hg]; · iexact Hg
    iexact Ht

end Wrappers

end Cert.KernelIdeal.Hand

end
-- ==== Proof.IdealRun.lean ====
/-
  The run of the whole program, at any float instance: five host stretches, the first kernel region, nine host
  stretches, the second kernel region, the closing slice. The first region's output is only constrained by its
  relational data, so every thread state after it is existential in the contents it left; the second region is
  entered at the proof data of those contents, chosen once they are known, and funded from a second copy of the
  rounds ghost state dealt at the launch. The final memory is read off the last valuation: the result's buffer
  as the closing slice computes it from SOME contents the regions may have left (with what the data says of them),
  every argument array as at launch.
-/
import proofs.«171824_j50646254354906_2_alg».proof.Proof.IdealRegion1
import proofs.«171824_j50646254354906_2_alg».proof.Proof.IdealRegionHost
import proofs.«171824_j50646254354906_2_alg».proof.Proof.Gen.KernelIdeal.Regions
import Idealize.ShloMosaic.Lib.Pipeline.Regions
import Idealize.ShloMosaic.Lib.Pipeline.RegionsLoop
import Idealize.ShloMosaic.Lib.Pipeline.Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf HostSeg)

variable {F : FTy → Type} [FloatOps F]

local notation "𝕄" => MT nD τ sig Unit (Elt F) ℕ UU ℕ

variable (m : (ℓ : Loc nD τ sig) → Buf (Elt F) ℓ)

/-- No loop of the program's own: no variant. -/
abbrev 𝒱 : Variants := Variants.none

/-- The rest of the thread state before the first region: the register, the core owing nothing, and the second
    region's copy of the rounds ghost state riding along. -/
abbrev E0 : Fin 3 → Dev nD → sProp 𝕄 := fun _ c => iprop(Rst c ∗ Gh c)
/-- Between the regions, over what the first left: the fact recorded of it besides. -/
abbrev E1 (o : Outs (F := F)) : Fin 3 → Dev nD → sProp 𝕄 := fun _ c => iprop(⌜P0 m o c⌝ ∗ Rst c ∗ Gh c)
/-- After the second region: both facts. -/
abbrev E2 (o : Outs (F := F)) : Fin 3 → Dev nD → sProp 𝕄 := fun _ c => iprop(⌜P0 m o c ∧ P1 m o c⌝ ∗ Rst c)

/-- The proof data the launch theorem is stated over: the first region's; the second region's entry is not
    fixed before the run, so its place holds anything. -/
abbrev RD : (p : Fin 2) → (c : Dev nD) → RDat τ (Elt F) Unit ℕ UU ℕ (Pipeline.pin (pcfgs (F := F)) adm p) c := rdats (W5 m) (W5 m)

/-- The program as segments: five host stretches, the first region, nine host stretches over SOME contents of the
    hidden activations' array, the second region run at the proof data of those contents, the closing slice. -/
def segsK : List (Pipeline.RDat.Seg (pcfgs (F := F)) adm (RD m) () defs₀ 𝒱 L₀ lv₀) :=
  [.host (seg0 m 𝒱 L₀ lv₀ E0), .host (seg1 m 𝒱 L₀ lv₀ E0), .host (seg2 m 𝒱 L₀ lv₀ E0), .host (seg3 m 𝒱 L₀ lv₀ E0), .host (seg4 m 𝒱 L₀ lv₀ E0),
   .region (R0 m (W5 m) Gh),
   .host (hostEx 𝒱 L₀ lv₀ (StableHlo.seq hostOps1) (fun o => seg6 m o 𝒱 L₀ lv₀ (E1 m o)) (fun _ => rfl)),
   .host (hostEx 𝒱 L₀ lv₀ (StableHlo.seq hostOps1_1) (fun o => seg7 m o 𝒱 L₀ lv₀ (E1 m o)) (fun _ => rfl)),
   .host (hostEx 𝒱 L₀ lv₀ (StableHlo.seq hostOps1_2) (fun o => seg8 m o 𝒱 L₀ lv₀ (E1 m o)) (fun _ => rfl)),
   .host (hostEx 𝒱 L₀ lv₀ (StableHlo.seq hostOps1_3) (fun o => seg9 m o 𝒱 L₀ lv₀ (E1 m o)) (fun _ => rfl)),
   .host (hostEx 𝒱 L₀ lv₀ (StableHlo.seq hostOps1_4) (fun o => seg10 m o 𝒱 L₀ lv₀ (E1 m o)) (fun _ => rfl)),
   .host (hostEx 𝒱 L₀ lv₀ (StableHlo.seq hostOps1_5) (fun o => seg11 m o 𝒱 L₀ lv₀ (E1 m o)) (fun _ => rfl)),
   .host (hostEx 𝒱 L₀ lv₀ (StableHlo.seq hostOps1_6) (fun o => seg12 m o 𝒱 L₀ lv₀ (E1 m o)) (fun _ => rfl)),
   .host (hostEx 𝒱 L₀ lv₀ (StableHlo.seq hostOps1_7) (fun o => seg13 m o 𝒱 L₀ lv₀ (E1 m o)) (fun _ => rfl)),
   .host (hostEx 𝒱 L₀ lv₀ (StableHlo.seq hostOps1_8) (fun o => seg14 m o 𝒱 L₀ lv₀ (E1 m o)) (fun _ => rfl)),
   .host (regionHost 𝒱 L₀ lv₀ (fun o => rdats (W5 m) (W15 m o)) (fun o => R1 m (W5 m) o)),
   .host (hostEx 𝒱 L₀ lv₀ (StableHlo.seq hostOps2) (fun o => seg16 m o 𝒱 L₀ lv₀ (E2 m o)) (fun _ => rfl))]

/-- Every argument array as at launch. -/
def ArgsKept (s : MemSt nD τ sig (Elt F)) (c : Dev nD) : Prop :=
  s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_arg9) = m ((c.tc : Thread nD τ).loc main_arg9)
      ∧ s.mem ((c.tc : Thread nD τ).loc main_arg10) = m ((c.tc : Thread nD τ).loc main_arg10)
      ∧ s.mem ((c.tc : Thread nD τ).loc main_arg11) = m ((c.tc : Thread nD τ).loc main_arg11)
      ∧ s.mem ((c.tc : Thread nD τ).loc main_arg12) = m ((c.tc : Thread nD τ).loc main_arg12)
      ∧ s.mem ((c.tc : Thread nD τ).loc main_arg13) = m ((c.tc : Thread nD τ).loc main_arg13)
      ∧ s.mem ((c.tc : Thread nD τ).loc main_arg14) = m ((c.tc : Thread nD τ).loc main_arg14)

/-- What a final memory holds on core `c`: for some contents the regions may have left, the result's buffer as the
    closing slice computes it from them, and every argument as at launch. -/
def Fin17 (s : MemSt nD τ sig (Elt F)) (c : Dev nD) : Prop :=
  ∃ o : Outs (F := F), P0 m o c ∧ P1 m o c ∧ s.mem ((c.tc : Thread nD τ).loc main_v31) = V17 m o c main_v31 ∧ ArgsKept m s c

set_option maxHeartbeats 4000000 in
set_option backward.isDefEq.respectTransparency.types false in
/-- THE RUN, at any float instance: from any memory with zero counters every weakly fair execution of the program
    terminates without a fault, and every final memory holds, on every core, the result as the closing slice reads
    it off SOME contents the two regions may have left, and every argument as at launch. -/
theorem run_main (ρ : Dev nD → PrngReg) :
    θ_run defs (onTc (τ := τ) (main (F := F))) ⟨m, fun _ => 0, ρ⟩ (fun r => ∀ c : Dev nD, Fin17 m r.2 c) := by
  refine Pipeline.RDat.θ_run_regions_kit (pcfgs (F := F)) adm (RD m) () cellOf_inj (embL : Emb (UR sig nD τ) 𝕄) defs₀ 𝒱 L₀ lv₀ m ρ main (segsK m)
    (fun c Q => by
      rewrite [main_chain c, Pipeline.RDat.Seg.run_eq_chain,
        show (segsK m).map Pipeline.RDat.Seg.prog = [
          StableHlo.seq hostOps0, StableHlo.seq hostOps0_1, StableHlo.seq hostOps0_2, StableHlo.seq hostOps0_3, StableHlo.seq hostOps0_4,
          Prog.lift (.customCall (Pipeline.entry 0) ()),
          StableHlo.seq hostOps1, StableHlo.seq hostOps1_1, StableHlo.seq hostOps1_2, StableHlo.seq hostOps1_3, StableHlo.seq hostOps1_4, StableHlo.seq hostOps1_5, StableHlo.seq hostOps1_6, StableHlo.seq hostOps1_7, StableHlo.seq hostOps1_8,
          Prog.lift (.customCall (Pipeline.entry 1) ()),
          StableHlo.seq hostOps2 ] from rfl]
      exact .rfl)
    (by simp [segsK, Pipeline.RDat.Seg.pipes, Pipeline.RDat.Seg.pipe?]) (O₀ := 0) (hL := fun _ _ => rfl) (G := Gh) (u₀ := u₀) (hu₀ := fund_u₀)
    (T₀ := fun c => iprop(StableHlo.held (c : Thread nD τ) (Pipeline.ucRefs τ sig) (V0 m c) ∗ (Rst c ∗ Gh c)))
    (Tₙ := fun c => iprop(∃ o : Outs (F := F), StableHlo.held (c : Thread nD τ) (Pipeline.ucRefs τ sig) (V17 m o c) ∗ ⌜P0 m o c ∧ P1 m o c⌝))
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl,
      fun c => ?_, fun c => ?_, fun c => ?_⟩)
    (hinit := ?_) (QY := fun c s => Fin17 m s c) (hfin := fun c s' => ?_) (hQ := fun _ h => h)
  · -- into the second region: the ghost copy is handed over
    show iprop(∃ o : Outs (F := F), StableHlo.held (c : Thread nD τ) (Pipeline.ucRefs τ sig) (V15 m o c) ∗ (⌜P0 m o c⌝ ∗ Rst c ∗ Gh c))
      ⊢ iprop(∃ o : Outs (F := F), (StableHlo.held (c : Thread nD τ) (Pipeline.ucRefs τ sig) (V15 m o c) ∗ (⌜P0 m o c⌝ ∗ Rst c)) ∗ Gh c)
    iintro ⟨%o, Hh, %hP, HR, HG⟩
    iexists o
    isplitr [HG]; swap; · iexact HG
    isplitl [Hh]; · iexact Hh
    isplitr; · ipureintro; exact hP
    iexact HR
  · -- out of it
    show iprop(∃ o : Outs (F := F), ∃ o' : Outs (F := F), StableHlo.held (c : Thread nD τ) (Pipeline.ucRefs τ sig) (V16 m o' c) ∗ (⌜P0 m o' c ∧ P1 m o' c⌝ ∗ Rst c))
      ⊢ iprop(∃ o' : Outs (F := F), StableHlo.held (c : Thread nD τ) (Pipeline.ucRefs τ sig) (V16 m o' c) ∗ (⌜P0 m o' c ∧ P1 m o' c⌝ ∗ Rst c))
    iintro ⟨%o, %o', H⟩
    iexists o'
    iexact H
  · -- the last state
    show iprop(∃ o : Outs (F := F), StableHlo.held (c : Thread nD τ) (Pipeline.ucRefs τ sig) (V17 m o c) ∗ (⌜P0 m o c ∧ P1 m o c⌝ ∗ Rst c))
      ⊢ iprop((∃ o : Outs (F := F), StableHlo.held (c : Thread nD τ) (Pipeline.ucRefs τ sig) (V17 m o c) ∗ ⌜P0 m o c ∧ P1 m o c⌝)
          ∗ ∃ W, owes (c.tc : Thread nD τ) (0 : CellTallies nD τ sig Unit) W)
    iintro ⟨%o, Hh, %hP, -, HO⟩
    isplitl [Hh]
    · iexists o
      isplitl [Hh]; · iexact Hh
      ipureintro; exact hP
    iexact HO
  · -- the launch
    have hcore : ∀ c : Dev nD, iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ Gh c)
        ⊢ (iprop(StableHlo.held (c : Thread nD τ) (Pipeline.ucRefs τ sig) (V0 m c) ∗ (Rst c ∗ Gh c)) : sProp 𝕄) := fun c => by
      rw [← Pipeline.unscopedBufs_held (Ix := Unit) (Name := ℕ) (U := UU) (Lvl := ℕ) c (V0 m c)]
      iintro ⟨Hb, -, HO, -, Hg, HG⟩
      isplitl [Hb]; · iexact Hb
      isplitr [HG]; swap; · iexact HG
      isplitl [Hg]; · iexists _; iexact Hg
      iexists ∅; iexact HO
    have hbig : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ Gh c))
        ⊢ (bigSep Finset.univ fun c : Dev nD => iprop(StableHlo.held (c : Thread nD τ) (Pipeline.ucRefs τ sig) (V0 m c) ∗ (Rst c ∗ Gh c)) : sProp 𝕄) :=
      bigSep_mono fun c _ => hcore c
    iintro ⟨H, -⟩
    imodintro
    iapply hbig
    iexact H
  · -- the end: every unscoped buffer read off the last valuation
    unfold StableHlo.held
    iintro ⟨⟨%o, Hh, %hP⟩, HSI⟩
    ihave Hr := (pointsTo_read_all (Pipeline.ucRefs τ sig) (fun b => ((c : Thread nD τ).1, b)) (V17 m o c) s') $$ [Hh HSI]
    · isplitl [Hh] <;> iassumption
    icases Hr with ⟨%h, HSI⟩
    imodintro
    isplitr
    · ipureintro
      exact ⟨o, hP.1, hP.2, h (Proc.devRef .tc main_v31) (Finset.mem_filter.mpr ⟨StableHlo.devRef_mem_tcRefs main_v31, by decide⟩),
        (h (Proc.devRef .tc main_arg0) (Finset.mem_filter.mpr ⟨StableHlo.devRef_mem_tcRefs main_arg0, by decide⟩)).trans (V17_main_arg0 m o c),
        (h (Proc.devRef .tc main_arg1) (Finset.mem_filter.mpr ⟨StableHlo.devRef_mem_tcRefs main_arg1, by decide⟩)).trans (V17_main_arg1 m o c),
        (h (Proc.devRef .tc main_arg2) (Finset.mem_filter.mpr ⟨StableHlo.devRef_mem_tcRefs main_arg2, by decide⟩)).trans (V17_main_arg2 m o c),
        (h (Proc.devRef .tc main_arg3) (Finset.mem_filter.mpr ⟨StableHlo.devRef_mem_tcRefs main_arg3, by decide⟩)).trans (V17_main_arg3 m o c),
        (h (Proc.devRef .tc main_arg4) (Finset.mem_filter.mpr ⟨StableHlo.devRef_mem_tcRefs main_arg4, by decide⟩)).trans (V17_main_arg4 m o c),
        (h (Proc.devRef .tc main_arg5) (Finset.mem_filter.mpr ⟨StableHlo.devRef_mem_tcRefs main_arg5, by decide⟩)).trans (V17_main_arg5 m o c),
        (h (Proc.devRef .tc main_arg6) (Finset.mem_filter.mpr ⟨StableHlo.devRef_mem_tcRefs main_arg6, by decide⟩)).trans (V17_main_arg6 m o c),
        (h (Proc.devRef .tc main_arg7) (Finset.mem_filter.mpr ⟨StableHlo.devRef_mem_tcRefs main_arg7, by decide⟩)).trans (V17_main_arg7 m o c),
        (h (Proc.devRef .tc main_arg8) (Finset.mem_filter.mpr ⟨StableHlo.devRef_mem_tcRefs main_arg8, by decide⟩)).trans (V17_main_arg8 m o c),
        (h (Proc.devRef .tc main_arg9) (Finset.mem_filter.mpr ⟨StableHlo.devRef_mem_tcRefs main_arg9, by decide⟩)).trans (V17_main_arg9 m o c),
        (h (Proc.devRef .tc main_arg10) (Finset.mem_filter.mpr ⟨StableHlo.devRef_mem_tcRefs main_arg10, by decide⟩)).trans (V17_main_arg10 m o c),
        (h (Proc.devRef .tc main_arg11) (Finset.mem_filter.mpr ⟨StableHlo.devRef_mem_tcRefs main_arg11, by decide⟩)).trans (V17_main_arg11 m o c),
        (h (Proc.devRef .tc main_arg12) (Finset.mem_filter.mpr ⟨StableHlo.devRef_mem_tcRefs main_arg12, by decide⟩)).trans (V17_main_arg12 m o c),
        (h (Proc.devRef .tc main_arg13) (Finset.mem_filter.mpr ⟨StableHlo.devRef_mem_tcRefs main_arg13, by decide⟩)).trans (V17_main_arg13 m o c),
        (h (Proc.devRef .tc main_arg14) (Finset.mem_filter.mpr ⟨StableHlo.devRef_mem_tcRefs main_arg14, by decide⟩)).trans (V17_main_arg14 m o c)⟩
    · iexact HSI

end Cert.KernelIdeal.Hand

end
-- ==== Proof.WordBody0.lean ====
/-
  The first layer's kernel body as triples, one per control case of its two conditionals (the
  first reduction step resets the accumulator; the last one also writes the output block), at any
  float instance: what each case leaves in the accumulator scratch and in the output's staging
  buffer, as the pieces its stores write.
-/
import proofs.«171824_j50646254354906_2_alg».proof.Proof.Gen.Kernel.Launch
import proofs.«171824_j50646254354906_2_alg».proof.Proof.Gen.Kernel.Skeleton
import proofs.«171824_j50646254354906_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

variable {U : Type} [URA U]

local notation "𝕄" => MT nD τ sig Unit (Elt F) ℕ U ℕ

/-- The first conditional's condition (the reduction coordinate is 0), from the grid coordinates. -/
abbrev condFirst (i : grid0.Coords) : Prop :=
  (Scalar.cmpi .ne (Scalar.extui (Scalar.cmpi .eq (BitVec.ofNat 32 (i 2).val) 0#32)) 0#32) = 1#1
/-- The second conditional's condition (the reduction coordinate is the last, 15). -/
abbrev condLast (i : grid0.Coords) : Prop := k0_cond2 i = 1#1

set_option maxHeartbeats 4000000 in
/-- A middle reduction step: the accumulator is read, added to, stored back; the output's buffer untouched. -/
noncomputable def runMid (c : Dev nD) (i : grid0.Coords) (arg3 : Memref sig .tc .vmem S1024x1280 .bf16) (harg3 : arg3.IsWhole)
    (arg4 : Memref sig .tc .vmem S1280x2048 .bf16) (harg4 : arg4.IsWhole)
    (arg5 : Memref sig .tc .vmem S1x2048 .f32) (harg5 : arg5.IsWhole)
    (arg6 : Memref sig .tc .vmem S1x2048 .f32) (harg6 : arg6.IsWhole)
    (arg7 : Memref sig .tc .vmem S1x2048 .f32) (harg7 : arg7.IsWhole)
    (arg8 : Memref sig .tc .vmem S1024x2048 .bf16) (harg8 : arg8.IsWhole)
    (arg9 : Memref sig .tc .vmem S1024x2048 .f32) (harg9 : arg9.IsWhole)
    (hc0 : ¬condFirst i) (hc1 : ¬condLast i) (x0 : Vec F S1024x1280 .bf16) (x1 : Vec F S1280x2048 .bf16) (x2 x3 x4 : Vec F S1x2048 .f32) (xs : Vec F S1024x2048 .f32) :
    { LS : List (View.Piece (Elt F) S1024x2048 .f32) //
      ∀ (E : Set ℕ) (K : PUnit → sProp 𝕄),
        iprop(owns (c : Thread nD τ) arg3 fullShare x0 ∗ owns (c : Thread nD τ) arg4 fullShare x1
            ∗ owns (c : Thread nD τ) arg5 fullShare x2 ∗ owns (c : Thread nD τ) arg6 fullShare x3 ∗ owns (c : Thread nD τ) arg7 fullShare x4
            ∗ (∃ d, owns (c : Thread nD τ) arg8 fullShare d) ∗ owns (c : Thread nD τ) arg9 fullShare xs
            ∗ (iprop(owns (c : Thread nD τ) arg3 fullShare x0 ∗ owns (c : Thread nD τ) arg4 fullShare x1
            ∗ owns (c : Thread nD τ) arg5 fullShare x2 ∗ owns (c : Thread nD τ) arg6 fullShare x3 ∗ owns (c : Thread nD τ) arg7 fullShare x4
                ∗ (∃ d, owns (c : Thread nD τ) arg8 fullShare d)
                ∗ (∃ f, arg9.view.loc (c : Thread nD τ) ↦[arg9.view.set]{fullShare} arg9.view.writes (Elt F) f LS)) -∗ K ⟨⟩))
          ⊢ wp frame (wpE (defs₀ (F := F)) Variants.none c none) E (cc0__layer1_kernel i arg3 harg3 arg4 harg4 arg5 harg5 arg6 harg6 arg7 harg7 arg8 harg8 arg9 harg9) K } := by
  refine ⟨?_, fun E K => ?run⟩
  case run =>
    simp only [cc0__layer1_kernel_eq_skeleton]; unfold cc0__layer1_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, %hf5, H5⟩, ⟨%fs, %hfs, HS⟩, Hk⟩
    obtain rfl := harg3.eq_unread hf0; obtain rfl := harg4.eq_unread hf1
    obtain rfl := harg5.eq_unread hf2; obtain rfl := harg6.eq_unread hf3; obtain rfl := harg7.eq_unread hf4
    obtain rfl := harg9.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists d5; iexists f5; isplitr; · ipureintro; exact hf5
      iexact H5
    iexists _; iexact HS

set_option maxHeartbeats 4000000 in
/-- The first reduction step: the accumulator, whatever it held, is reset, read, added to and stored back. -/
noncomputable def runFirst (c : Dev nD) (i : grid0.Coords) (arg3 : Memref sig .tc .vmem S1024x1280 .bf16) (harg3 : arg3.IsWhole)
    (arg4 : Memref sig .tc .vmem S1280x2048 .bf16) (harg4 : arg4.IsWhole)
    (arg5 : Memref sig .tc .vmem S1x2048 .f32) (harg5 : arg5.IsWhole)
    (arg6 : Memref sig .tc .vmem S1x2048 .f32) (harg6 : arg6.IsWhole)
    (arg7 : Memref sig .tc .vmem S1x2048 .f32) (harg7 : arg7.IsWhole)
    (arg8 : Memref sig .tc .vmem S1024x2048 .bf16) (harg8 : arg8.IsWhole)
    (arg9 : Memref sig .tc .vmem S1024x2048 .f32) (harg9 : arg9.IsWhole)
    (hc0 : condFirst i) (hc1 : ¬condLast i) (x0 : Vec F S1024x1280 .bf16) (x1 : Vec F S1280x2048 .bf16) (x2 x3 x4 : Vec F S1x2048 .f32) :
    { LS : List (View.Piece (Elt F) S1024x2048 .f32) //
      ∀ (E : Set ℕ) (K : PUnit → sProp 𝕄),
        iprop(owns (c : Thread nD τ) arg3 fullShare x0 ∗ owns (c : Thread nD τ) arg4 fullShare x1
            ∗ owns (c : Thread nD τ) arg5 fullShare x2 ∗ owns (c : Thread nD τ) arg6 fullShare x3 ∗ owns (c : Thread nD τ) arg7 fullShare x4
            ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1
            ∗ owns (c : Thread nD τ) arg5 fullShare x2 ∗ owns (c : Thread nD τ) arg6 fullShare x3 ∗ owns (c : Thread nD τ) arg7 fullShare x4
                ∗ (∃ d, owns (c : Thread nD τ) arg8 fullShare d)
                ∗ (∃ f, arg9.view.loc (c : Thread nD τ) ↦[arg9.view.set]{fullShare} arg9.view.writes (Elt F) f LS)) -∗ K ⟨⟩))
          ⊢ wp frame (wpE (defs₀ (F := F)) Variants.none c none) E (cc0__layer1_kernel i arg3 harg3 arg4 harg4 arg5 harg5 arg6 harg6 arg7 harg7 arg8 harg8 arg9 harg9) K } := by
  refine ⟨?_, fun E K => ?run⟩
  case run =>
    simp only [cc0__layer1_kernel_eq_skeleton]; unfold cc0__layer1_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, %hf5, H5⟩, ⟨%ds, %fs, -, HS⟩, Hk⟩
    obtain rfl := harg3.eq_unread hf0; obtain rfl := harg4.eq_unread hf1
    obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists d5; iexists f5; isplitr; · ipureintro; exact hf5
      iexact H5
    iexists _; iexact HS

set_option maxHeartbeats 4000000 in
/-- The last reduction step: the accumulator is added to and stored back, then read again with the three
    row vectors and the output block is stored whole. -/
noncomputable def runLast (c : Dev nD) (i : grid0.Coords) (arg3 : Memref sig .tc .vmem S1024x1280 .bf16) (harg3 : arg3.IsWhole)
    (arg4 : Memref sig .tc .vmem S1280x2048 .bf16) (harg4 : arg4.IsWhole)
    (arg5 : Memref sig .tc .vmem S1x2048 .f32) (harg5 : arg5.IsWhole)
    (arg6 : Memref sig .tc .vmem S1x2048 .f32) (harg6 : arg6.IsWhole)
    (arg7 : Memref sig .tc .vmem S1x2048 .f32) (harg7 : arg7.IsWhole)
    (arg8 : Memref sig .tc .vmem S1024x2048 .bf16) (harg8 : arg8.IsWhole)
    (arg9 : Memref sig .tc .vmem S1024x2048 .f32) (harg9 : arg9.IsWhole)
    (hc0 : ¬condFirst i) (hc1 : condLast i) (x0 : Vec F S1024x1280 .bf16) (x1 : Vec F S1280x2048 .bf16) (x2 x3 x4 : Vec F S1x2048 .f32) (xs : Vec F S1024x2048 .f32) :
    Σ' (LO : List (View.Piece (Elt F) S1024x2048 .bf16)), { LS : List (View.Piece (Elt F) S1024x2048 .f32) //
      ∀ (E : Set ℕ) (K : PUnit → sProp 𝕄),
        iprop(owns (c : Thread nD τ) arg3 fullShare x0 ∗ owns (c : Thread nD τ) arg4 fullShare x1
            ∗ owns (c : Thread nD τ) arg5 fullShare x2 ∗ owns (c : Thread nD τ) arg6 fullShare x3 ∗ owns (c : Thread nD τ) arg7 fullShare x4
            ∗ (∃ d, owns (c : Thread nD τ) arg8 fullShare d) ∗ owns (c : Thread nD τ) arg9 fullShare xs
            ∗ (iprop(owns (c : Thread nD τ) arg3 fullShare x0 ∗ owns (c : Thread nD τ) arg4 fullShare x1
            ∗ owns (c : Thread nD τ) arg5 fullShare x2 ∗ owns (c : Thread nD τ) arg6 fullShare x3 ∗ owns (c : Thread nD τ) arg7 fullShare x4
                ∗ (∃ f, arg8.view.loc (c : Thread nD τ) ↦[arg8.view.set]{fullShare} arg8.view.writes (Elt F) f LO)
                ∗ (∃ f, arg9.view.loc (c : Thread nD τ) ↦[arg9.view.set]{fullShare} arg9.view.writes (Elt F) f LS)) -∗ K ⟨⟩))
          ⊢ wp frame (wpE (defs₀ (F := F)) Variants.none c none) E (cc0__layer1_kernel i arg3 harg3 arg4 harg4 arg5 harg5 arg6 harg6 arg7 harg7 arg8 harg8 arg9 harg9) K } := by
  refine ⟨?_, ?_, fun E K => ?run⟩
  case run =>
    simp only [cc0__layer1_kernel_eq_skeleton]; unfold cc0__layer1_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg3.eq_unread hf0; obtain rfl := harg4.eq_unread hf1
    obtain rfl := harg5.eq_unread hf2; obtain rfl := harg6.eq_unread hf3; obtain rfl := harg7.eq_unread hf4
    obtain rfl := harg9.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; iexact H5
    iexists _; iexact HS

end Cert.Kernel.Hand

end
-- ==== Proof.WordPieces0.lean ====
/-
  What each control case of the first layer's body leaves, read back as values: the accumulator after a
  step is the accumulate payload of what it held before (the zero payload at the first step) and of the
  two operand blocks; the output's buffer after the last step is the epilogue payload of that accumulator
  and the three row vectors.
-/
import proofs.«171824_j50646254354906_2_alg».proof.Proof.Gen.Kernel.Launch
import proofs.«171824_j50646254354906_2_alg».proof.Proof.Gen.Kernel.Skeleton
import proofs.«171824_j50646254354906_2_alg».proof.Proof.Gen.Kernel.Points
import proofs.«171824_j50646254354906_2_alg».proof.Proof.WordBody0
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

variable {U : Type} [URA U]

local notation "𝕄" => MT nD τ sig Unit (Elt F) ℕ U ℕ

theorem zero2 : (![0, 0] : Fin 2 → Nat) = fun _ => 0 := funext fun a => by fin_cases a <;> rfl

theorem readMid (c : Dev nD) (i : grid0.Coords) (arg3 : Memref sig .tc .vmem S1024x1280 .bf16) (harg3 : arg3.IsWhole)
    (arg4 : Memref sig .tc .vmem S1280x2048 .bf16) (harg4 : arg4.IsWhole)
    (arg5 : Memref sig .tc .vmem S1x2048 .f32) (harg5 : arg5.IsWhole)
    (arg6 : Memref sig .tc .vmem S1x2048 .f32) (harg6 : arg6.IsWhole)
    (arg7 : Memref sig .tc .vmem S1x2048 .f32) (harg7 : arg7.IsWhole)
    (arg8 : Memref sig .tc .vmem S1024x2048 .bf16) (harg8 : arg8.IsWhole)
    (arg9 : Memref sig .tc .vmem S1024x2048 .f32) (harg9 : arg9.IsWhole)
    (hc0 : ¬condFirst i) (hc1 : ¬condLast i) (x0 : Vec F S1024x1280 .bf16) (x1 : Vec F S1280x2048 .bf16) (x2 x3 x4 : Vec F S1x2048 .f32) (xs : Vec F S1024x2048 .f32)
    (f : arg9.view.ty.Contents (Elt F)) :
    arg9.view.read (Elt F) (arg9.view.writes (Elt F) f (runMid (U := U) c i arg3 harg3 arg4 harg4 arg5 harg5 arg6 harg6 arg7 harg7 arg8 harg8 arg9 harg9 hc0 hc1 x0 x1 x2 x3 x4 xs).1)
      = k0_pay2 xs x0 x1 := by
  rw [View.read_writes_eq_canon _ _ _ (fun y => View.cover_of_tiledL _ S1024x2048.size (by sl_kernel_rfl) y)]
  unfold runMid; dsimp only; sl_unfold_words
  rw [View.canon_unit_zero zero2]
  simp only [View.readAt_eq_ld, harg9.read_unread, harg3.read_unread, harg4.read_unread,
    View.ld_unit_zero (S := S1024x2048) zero2, View.ld_unit_zero (S := S1024x1280) zero2, View.ld_unit_zero (S := S1280x2048) zero2]

theorem readFirst (c : Dev nD) (i : grid0.Coords) (arg3 : Memref sig .tc .vmem S1024x1280 .bf16) (harg3 : arg3.IsWhole)
    (arg4 : Memref sig .tc .vmem S1280x2048 .bf16) (harg4 : arg4.IsWhole)
    (arg5 : Memref sig .tc .vmem S1x2048 .f32) (harg5 : arg5.IsWhole)
    (arg6 : Memref sig .tc .vmem S1x2048 .f32) (harg6 : arg6.IsWhole)
    (arg7 : Memref sig .tc .vmem S1x2048 .f32) (harg7 : arg7.IsWhole)
    (arg8 : Memref sig .tc .vmem S1024x2048 .bf16) (harg8 : arg8.IsWhole)
    (arg9 : Memref sig .tc .vmem S1024x2048 .f32) (harg9 : arg9.IsWhole)
    (hc0 : condFirst i) (hc1 : ¬condLast i) (x0 : Vec F S1024x1280 .bf16) (x1 : Vec F S1280x2048 .bf16) (x2 x3 x4 : Vec F S1x2048 .f32)
    (f : arg9.view.ty.Contents (Elt F)) :
    arg9.view.read (Elt F) (arg9.view.writes (Elt F) f (runFirst (U := U) c i arg3 harg3 arg4 harg4 arg5 harg5 arg6 harg6 arg7 harg7 arg8 harg8 arg9 harg9 hc0 hc1 x0 x1 x2 x3 x4).1)
      = k0_pay2 (k0_pay1 (F := F)) x0 x1 := by
  rw [View.read_writes_eq_canon _ _ _ (fun y => View.cover_of_tiledL _ S1024x2048.size (by sl_kernel_rfl) y)]
  unfold runFirst; dsimp only; sl_unfold_words
  rw [View.canon_cons_unit_zero zero2]
  simp only [View.readAt_eq_ld, harg3.read_unread, harg4.read_unread, View.readCov_unit_zero (S := S1024x2048) arg9.view zero2,
    View.ld_unit_zero (S := S1024x2048) zero2, View.ld_unit_zero (S := S1024x1280) zero2, View.ld_unit_zero (S := S1280x2048) zero2]

theorem readLastAcc (c : Dev nD) (i : grid0.Coords) (arg3 : Memref sig .tc .vmem S1024x1280 .bf16) (harg3 : arg3.IsWhole)
    (arg4 : Memref sig .tc .vmem S1280x2048 .bf16) (harg4 : arg4.IsWhole)
    (arg5 : Memref sig .tc .vmem S1x2048 .f32) (harg5 : arg5.IsWhole)
    (arg6 : Memref sig .tc .vmem S1x2048 .f32) (harg6 : arg6.IsWhole)
    (arg7 : Memref sig .tc .vmem S1x2048 .f32) (harg7 : arg7.IsWhole)
    (arg8 : Memref sig .tc .vmem S1024x2048 .bf16) (harg8 : arg8.IsWhole)
    (arg9 : Memref sig .tc .vmem S1024x2048 .f32) (harg9 : arg9.IsWhole)
    (hc0 : ¬condFirst i) (hc1 : condLast i) (x0 : Vec F S1024x1280 .bf16) (x1 : Vec F S1280x2048 .bf16) (x2 x3 x4 : Vec F S1x2048 .f32) (xs : Vec F S1024x2048 .f32)
    (f : arg9.view.ty.Contents (Elt F)) :
    arg9.view.read (Elt F) (arg9.view.writes (Elt F) f (runLast (U := U) c i arg3 harg3 arg4 harg4 arg5 harg5 arg6 harg6 arg7 harg7 arg8 harg8 arg9 harg9 hc0 hc1 x0 x1 x2 x3 x4 xs).2.1)
      = k0_pay2 xs x0 x1 := by
  rw [View.read_writes_eq_canon _ _ _ (fun y => View.cover_of_tiledL _ S1024x2048.size (by sl_kernel_rfl) y)]
  unfold runLast; dsimp only; sl_unfold_words
  rw [View.canon_unit_zero zero2]
  simp only [View.readAt_eq_ld, harg9.read_unread, harg3.read_unread, harg4.read_unread,
    View.ld_unit_zero (S := S1024x2048) zero2, View.ld_unit_zero (S := S1024x1280) zero2, View.ld_unit_zero (S := S1280x2048) zero2]

theorem readLastOut (c : Dev nD) (i : grid0.Coords) (arg3 : Memref sig .tc .vmem S1024x1280 .bf16) (harg3 : arg3.IsWhole)
    (arg4 : Memref sig .tc .vmem S1280x2048 .bf16) (harg4 : arg4.IsWhole)
    (arg5 : Memref sig .tc .vmem S1x2048 .f32) (harg5 : arg5.IsWhole)
    (arg6 : Memref sig .tc .vmem S1x2048 .f32) (harg6 : arg6.IsWhole)
    (arg7 : Memref sig .tc .vmem S1x2048 .f32) (harg7 : arg7.IsWhole)
    (arg8 : Memref sig .tc .vmem S1024x2048 .bf16) (harg8 : arg8.IsWhole)
    (arg9 : Memref sig .tc .vmem S1024x2048 .f32) (harg9 : arg9.IsWhole)
    (hc0 : ¬condFirst i) (hc1 : condLast i) (x0 : Vec F S1024x1280 .bf16) (x1 : Vec F S1280x2048 .bf16) (x2 x3 x4 : Vec F S1x2048 .f32) (xs : Vec F S1024x2048 .f32)
    (f : arg8.view.ty.Contents (Elt F)) :
    arg8.view.read (Elt F) (arg8.view.writes (Elt F) f (runLast (U := U) c i arg3 harg3 arg4 harg4 arg5 harg5 arg6 harg6 arg7 harg7 arg8 harg8 arg9 harg9 hc0 hc1 x0 x1 x2 x3 x4 xs).1)
      = k0_pay3 (k0_pay2 xs x0 x1) x2 x3 x4 := by
  rw [View.read_writes_eq_canon _ _ _ (fun y => View.cover_of_tiledL _ S1024x2048.size (by sl_kernel_rfl) y)]
  unfold runLast; dsimp only; sl_unfold_words
  rw [View.canon_unit_zero zero2]
  simp only [View.readAt_eq_ld, harg9.read_unread, harg3.read_unread, harg4.read_unread, harg5.read_unread, harg6.read_unread, harg7.read_unread,
    View.readCov_unit_zero (S := S1024x2048) arg9.view zero2,
    View.ld_unit_zero (S := S1024x2048) zero2, View.ld_unit_zero (S := S1024x1280) zero2, View.ld_unit_zero (S := S1280x2048) zero2,
    View.ld_unit_zero (S := S1x2048) zero2]

end Cert.Kernel.Hand

end
-- ==== Proof.WordBody1.lean ====
/-
  The second layer's kernel body as a triple, at any float instance: from its five input staging
  buffers at known contents and its output buffer at any contents, the body runs to the inputs
  unchanged and the output buffer holding the one stored value, the payload of the five loads.
-/
import proofs.«171824_j50646254354906_2_alg».proof.Proof.Gen.Kernel.Launch
import proofs.«171824_j50646254354906_2_alg».proof.Proof.Gen.Kernel.Skeleton
import proofs.«171824_j50646254354906_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

variable {U : Type} [URA U]

local notation "𝕄" => MT nD τ sig Unit (Elt F) ℕ U ℕ

/-- The whole-buffer rectangle of the output block. -/
abbrev rOut1 : Rect S1024x512 := Rect.unit (s := S1024x512) ![0, 0] S1024x512.size inb_S1024x512_S1024x512_0_0

/-- What the body leaves in the output's staging buffer: its one store, over the five loads. -/
def out1 (x0 : Vec F S1024x4000 .bf16) (x1 : Vec F S4000x512 .bf16) (x2 x3 x4 : Vec F S1x512 .f32) : Vec F S1024x512 .f32 :=
  View.canon [⟨rOut1, k1_pay1
    (View.ld x0 (Rect.unit (s := S1024x4000) ![0, 0] S1024x4000.size inb_S1024x4000_S1024x4000_0_0))
    (View.ld x1 (Rect.unit (s := S4000x512) ![0, 0] S4000x512.size inb_S4000x512_S4000x512_0_0))
    (View.ld x2 (Rect.unit (s := S1x512) ![0, 0] S1x512.size inb_S1x512_S1x512_0_0))
    (View.ld x3 (Rect.unit (s := S1x512) ![0, 0] S1x512.size inb_S1x512_S1x512_0_0))
    (View.ld x4 (Rect.unit (s := S1x512) ![0, 0] S1x512.size inb_S1x512_S1x512_0_0))⟩]

/-- The one store covers the output buffer. -/
theorem cover1 (p0 : Vec F S1024x512 .f32) (y : S1024x512.Idx) :
    ∃ pc ∈ ([⟨rOut1, p0⟩] : List (View.Piece (Elt F) S1024x512 .f32)), y ∈ pc.1.set :=
  View.cover_of_tiled [⟨rOut1, p0⟩] S1024x512.size (by rfl) y

set_option maxHeartbeats 4000000 in
theorem sound_kernel1 (c : Dev nD) (E : Set ℕ) (i : grid1.Coords)
    (arg1 : Memref sig .tc .vmem S1024x4000 .bf16) (harg1 : arg1.IsWhole)
    (arg2 : Memref sig .tc .vmem S4000x512 .bf16) (harg2 : arg2.IsWhole)
    (arg3 : Memref sig .tc .vmem S1x512 .f32) (harg3 : arg3.IsWhole)
    (arg4 : Memref sig .tc .vmem S1x512 .f32) (harg4 : arg4.IsWhole)
    (arg5 : Memref sig .tc .vmem S1x512 .f32) (harg5 : arg5.IsWhole)
    (arg6 : Memref sig .tc .vmem S1024x512 .f32) (harg6 : arg6.IsWhole)
    (x0 : Vec F S1024x4000 .bf16) (x1 : Vec F S4000x512 .bf16) (x2 x3 x4 : Vec F S1x512 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out1 x0 x1 x2 x3 x4)) -∗ K ⟨⟩))
      ⊢ wp frame (wpE (defs₀ (F := F)) Variants.none c none) E
          (cc1__layer2_kernel i arg1 harg1 arg2 harg2 arg3 harg3 arg4 harg4 arg5 harg5 arg6 harg6) K := by
  simp only [cc1__layer2_kernel_eq_skeleton]; unfold cc1__layer2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1 _)

end Cert.Kernel.Hand

end
-- ==== Proof.WordData.lean ====
/-
  The relational proof data of the two kernel regions, at any float instance, over the contents `V` the
  region is entered with. An input window's buffer is left as the body found it. Region 0 keeps its
  accumulator in the invariant under a predicate that records it as the exact fold of the accumulate
  payload over the operand blocks the body found at the reduction steps so far; its output buffer, at
  the last reduction step, holds the epilogue payload of such an accumulator and of the three row
  vectors found there. Region 1's output buffer holds its one payload of the five buffers found.
-/
import proofs.«171824_j50646254354906_2_alg».proof.Proof.Gen.Kernel.Launch
import proofs.«171824_j50646254354906_2_alg».proof.Proof.Gen.Kernel.Skeleton
import proofs.«171824_j50646254354906_2_alg».proof.Proof.Gen.Kernel.Points
import proofs.«171824_j50646254354906_2_alg».proof.Proof.WordPieces0
import proofs.«171824_j50646254354906_2_alg».proof.Proof.WordBody1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

/-- The user algebra: two copies of the rounds algebra, one per kernel region's staging cells. -/
abbrev UU : Type := UR sig nD τ × UR sig nD τ

local notation "𝕄" => MT nD τ sig Unit (Elt F) ℕ UU ℕ

variable (V : (c : Dev nD) → (b : Ref sig .tc) → Buf (Elt F) ((c : Thread nD τ).loc b))

/-! ## Region 1 -/

/-- Region 1 with every window left as found: what its buffers may hold at a point (`Finds`) is read off this. -/
def rdIn1 (c : Dev nD) : RDat τ (Elt F) Unit ℕ UU ℕ cfg1 c where
  A w := V c (Pipeline.arrRef spec1 w)
  after _ _ Y X := X = Y
  Φ _ := iprop(emp)
  q _ := fullShare
  owed _ := 0

/-- What the body leaves in region 1's output buffer at point `t`: its payload of five buffers' contents the
    body may have found there. -/
def OutRel1 (c : Dev nD) (t : Fin cfg1.N) (X : Vec F S1024x512 .f32) : Prop :=
  ∃ (Y0 : Vec F S1024x4000 .bf16) (Y1 : Vec F S4000x512 .bf16) (Y2 Y3 Y4 : Vec F S1x512 .f32),
    (rdIn1 V c).Finds 0 t Y0 ∧ (rdIn1 V c).Finds 1 t Y1 ∧ (rdIn1 V c).Finds 2 t Y2 ∧ (rdIn1 V c).Finds 3 t Y3
      ∧ (rdIn1 V c).Finds 4 t Y4 ∧ X = out1 Y0 Y1 Y2 Y3 Y4

/-- Region 1's proof data. -/
def rd1 (c : Dev nD) : RDat τ (Elt F) Unit ℕ UU ℕ cfg1 c where
  A w := V c (Pipeline.arrRef spec1 w)
  after w t Y X := match w with
    | ⟨5, _⟩ => OutRel1 V c t X
    | _ => X = Y
  Φ _ := Pipeline.ΦA spec1 c
  q _ := fullShare
  owed _ := 0

theorem finds1 (c : Dev nD) (w : Fin cfg1.W) (hw : w.val < 5) (t : Fin cfg1.N) (X) :
    (rd1 V c).Finds w t X ↔ (rdIn1 V c).Finds w t X := by
  refine RDat.finds_congr (rd := rdIn1 V c) (rd' := rd1 V c) rfl ?_ t X
  match w, hw with
  | ⟨0, _⟩, _ => rfl
  | ⟨1, _⟩, _ => rfl
  | ⟨2, _⟩, _ => rfl
  | ⟨3, _⟩, _ => rfl
  | ⟨4, _⟩, _ => rfl

set_option maxHeartbeats 2000000 in
theorem body_obligation1 (c : Dev nD) : (rd1 V c).BodyObligation (defs₀ (F := F)) Variants.none () Set.univ := fun t Y hY => by
  rw [bigSep_W1, bigSep_W1]
  show _ ⊢ wp frame (wpE (defs₀ (F := F)) Variants.none c none) Set.univ (bodyAt1 t) _
  rw [show (rd1 V c).Φ t.succ = (rd1 V c).Φ t.castSucc from rfl,
    show (rd1 V c).owesAt () t.succ = (rd1 V c).owesAt () t.castSucc from rfl]
  iintro ⟨HΦ, Ho, H0, H1, H2, H3, H4, H5⟩
  iapply (sound_kernel1 (U := UU) c Set.univ (grid1.coords t) _ _ _ _ _ _ _ _ _ _ _ _ (Y 0) (Y 1) (Y 2) (Y 3) (Y 4) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexists (Y 0); isplitr; · ipureintro; exact rfl
                  iexact H0
  isplitl [H1]; · iexists (Y 1); isplitr; · ipureintro; exact rfl
                  iexact H1
  isplitl [H2]; · iexists (Y 2); isplitr; · ipureintro; exact rfl
                  iexact H2
  isplitl [H3]; · iexists (Y 3); isplitr; · ipureintro; exact rfl
                  iexact H3
  isplitl [H4]; · iexists (Y 4); isplitr; · ipureintro; exact rfl
                  iexact H4
  iexists _; isplitr
  swap; · iexact H5
  ipureintro
  exact ⟨Y 0, Y 1, Y 2, Y 3, Y 4, (finds1 V c 0 (by decide) t _).mp (hY 0), (finds1 V c 1 (by decide) t _).mp (hY 1),
    (finds1 V c 2 (by decide) t _).mp (hY 2), (finds1 V c 3 (by decide) t _).mp (hY 3), (finds1 V c 4 (by decide) t _).mp (hY 4), rfl⟩

/-! ## Region 0 -/

/-- Region 0 with every window left as found. -/
def rdIn0 (c : Dev nD) : RDat τ (Elt F) Unit ℕ UU ℕ cfg0 c where
  A w := V c (Pipeline.arrRef spec0 w)
  after _ _ Y X := X = Y
  Φ _ := iprop(emp)
  q _ := fullShare
  owed _ := 0

/-- The accumulator after the body at position `n`: at a first reduction step (`n` a multiple of 16) the
    accumulate payload of the zero payload and the two operand blocks found there; at a later one, of the
    accumulator after the position before and the blocks found there. -/
def AccAt (c : Dev nD) : (n : ℕ) → n < cfg0.N → Vec F S1024x2048 .f32 → Prop
  | 0, h, acc => ∃ (Y0 : Vec F S1024x1280 .bf16) (Y1 : Vec F S1280x2048 .bf16),
      (rdIn0 V c).Finds 0 ⟨0, h⟩ Y0 ∧ (rdIn0 V c).Finds 1 ⟨0, h⟩ Y1 ∧ acc = k0_pay2 (k0_pay1 (F := F)) Y0 Y1
  | n + 1, h, acc =>
    if (n + 1) % 16 = 0 then
      ∃ (Y0 : Vec F S1024x1280 .bf16) (Y1 : Vec F S1280x2048 .bf16),
        (rdIn0 V c).Finds 0 ⟨n + 1, h⟩ Y0 ∧ (rdIn0 V c).Finds 1 ⟨n + 1, h⟩ Y1 ∧ acc = k0_pay2 (k0_pay1 (F := F)) Y0 Y1
    else
      ∃ (acc' : Vec F S1024x2048 .f32) (Y0 : Vec F S1024x1280 .bf16) (Y1 : Vec F S1280x2048 .bf16),
        AccAt c n (Nat.lt_of_succ_lt h) acc' ∧ (rdIn0 V c).Finds 0 ⟨n + 1, h⟩ Y0 ∧ (rdIn0 V c).Finds 1 ⟨n + 1, h⟩ Y1
          ∧ acc = k0_pay2 acc' Y0 Y1

theorem accAt_first (c : Dev nD) (t : Fin cfg0.N) (h0 : t.val % 16 = 0) (Y0 : Vec F S1024x1280 .bf16) (Y1 : Vec F S1280x2048 .bf16)
    (h0f : (rdIn0 V c).Finds 0 t Y0) (h1f : (rdIn0 V c).Finds 1 t Y1) :
    AccAt V c t.val t.isLt (k0_pay2 (k0_pay1 (F := F)) Y0 Y1) := by
  obtain ⟨n, hn⟩ := t
  cases n with
  | zero => exact ⟨Y0, Y1, h0f, h1f, rfl⟩
  | succ n => unfold AccAt; rw [if_pos h0]; exact ⟨Y0, Y1, h0f, h1f, rfl⟩

theorem accAt_next (c : Dev nD) (t : Fin cfg0.N) (h0 : t.val % 16 ≠ 0) (acc' : Vec F S1024x2048 .f32)
    (hacc : AccAt V c (t.val - 1) (Nat.lt_of_le_of_lt (Nat.sub_le _ _) t.isLt) acc')
    (Y0 : Vec F S1024x1280 .bf16) (Y1 : Vec F S1280x2048 .bf16)
    (h0f : (rdIn0 V c).Finds 0 t Y0) (h1f : (rdIn0 V c).Finds 1 t Y1) :
    AccAt V c t.val t.isLt (k0_pay2 acc' Y0 Y1) := by
  obtain ⟨n, hn⟩ := t
  cases n with
  | zero => exact absurd (Nat.zero_mod _) h0
  | succ n => unfold AccAt; rw [if_neg h0]; exact ⟨acc', Y0, Y1, hacc, h0f, h1f, rfl⟩

/-- What the body leaves in region 0's output buffer at a last reduction step: the epilogue payload of the
    accumulator after that step and of the three row vectors found there. -/
def OutRel0 (c : Dev nD) (t : Fin cfg0.N) (X : Vec F S1024x2048 .bf16) : Prop :=
  ∃ (acc : Vec F S1024x2048 .f32) (Y2 Y3 Y4 : Vec F S1x2048 .f32),
    AccAt V c t.val t.isLt acc ∧ (rdIn0 V c).Finds 2 t Y2 ∧ (rdIn0 V c).Finds 3 t Y3 ∧ (rdIn0 V c).Finds 4 t Y4
      ∧ X = k0_pay3 acc Y2 Y3 Y4

/-- The accumulator scratch, as the whole memref the body is passed. -/
abbrev scM : Memref sig .tc .vmem S1024x2048 .f32 := Memref.whole cc0_scratch0

/-- The core's scoped buffers that region 0 neither stages nor uses: region 1's staging buffers, at anything. -/
def Others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f))

theorem PhiA0_eq (c : Dev nD) :
    (Pipeline.ΦA spec0 c : sProp 𝕄) = iprop(((∃ d, owns (c : Thread nD τ) scM fullShare d) ∗ Others0 c) ∗ (∃ r, prngReg c r)) := by
  unfold Pipeline.ΦA Others0; rw [scopedRest0_eq]; simp only [scM, owns_whole]; rfl

/-- The region invariant before position `n`: before the first point the scoped rest at anything; afterwards the
    accumulator at contents satisfying `AccAt` of the position before. -/
def PhiS (c : Dev nD) : (n : ℕ) → n ≤ cfg0.N → sProp 𝕄
  | 0, _ => Pipeline.ΦA spec0 c
  | n + 1, hn => iprop(((∃ acc, ⌜AccAt V c n hn acc⌝ ∗ owns (c : Thread nD τ) scM fullShare acc) ∗ Others0 c) ∗ (∃ r, prngReg c r))

theorem PhiS_succ (c : Dev nD) (n : ℕ) (hn : n < cfg0.N) :
    PhiS V c (n + 1) hn = iprop(((∃ acc, ⌜AccAt V c n hn acc⌝ ∗ owns (c : Thread nD τ) scM fullShare acc) ∗ Others0 c) ∗ (∃ r, prngReg c r)) := rfl

theorem PhiS_pos (c : Dev nD) (n : ℕ) (h : n ≤ cfg0.N) (hz : n ≠ 0) :
    PhiS V c n h = iprop(((∃ acc, ⌜AccAt V c (n - 1) (by omega) acc⌝ ∗ owns (c : Thread nD τ) scM fullShare acc) ∗ Others0 c) ∗ (∃ r, prngReg c r)) := by
  cases n with
  | zero => exact absurd rfl hz
  | succ n => rfl

/-- At any position the invariant yields the accumulator at some contents. -/
theorem PhiS_any (c : Dev nD) (n : ℕ) (h : n ≤ cfg0.N) :
    PhiS V c n h ⊢ iprop(((∃ d, owns (c : Thread nD τ) scM fullShare d) ∗ Others0 c) ∗ (∃ r, prngReg c r)) := by
  cases n with
  | zero => rw [show PhiS V c 0 h = Pipeline.ΦA spec0 c from rfl, PhiA0_eq]
  | succ n =>
    rw [PhiS_succ]
    iintro ⟨⟨⟨%acc, -, HS⟩, HO⟩, Hg⟩
    isplitr [Hg]
    · isplitl [HS]; · iexists acc; iexact HS
      iexact HO
    iexact Hg

/-- Region 0's proof data. -/
def rd0 (c : Dev nD) : RDat τ (Elt F) Unit ℕ UU ℕ cfg0 c where
  A w := V c (Pipeline.arrRef spec0 w)
  after w t Y X := match w with
    | ⟨5, _⟩ => if t.val % 16 = 15 then OutRel0 V c t X else True
    | _ => X = Y
  Φ t := PhiS V c t.val (Nat.le_of_lt_succ t.isLt)
  q _ := fullShare
  owed _ := 0

theorem finds0 (c : Dev nD) (w : Fin cfg0.W) (hw : w.val < 5) (t : Fin cfg0.N) (X) :
    (rd0 V c).Finds w t X ↔ (rdIn0 V c).Finds w t X := by
  refine RDat.finds_congr (rd := rdIn0 V c) (rd' := rd0 V c) rfl ?_ t X
  match w, hw with
  | ⟨0, _⟩, _ => rfl
  | ⟨1, _⟩, _ => rfl
  | ⟨2, _⟩, _ => rfl
  | ⟨3, _⟩, _ => rfl
  | ⟨4, _⟩, _ => rfl

/-- The first conditional is taken at the first reduction steps, the second at the last ones: decided over the grid. -/
theorem hcFirst : ∀ t : Fin cfg0.N, condFirst (grid0.coords t) ↔ t.val % 16 = 0 :=
  (by decide +kernel : ∀ t : Fin grid0.N, condFirst (grid0.coords t) ↔ t.val % 16 = 0)
theorem hcLast : ∀ t : Fin cfg0.N, condLast (grid0.coords t) ↔ t.val % 16 = 15 :=
  (by decide +kernel : ∀ t : Fin grid0.N, condLast (grid0.coords t) ↔ t.val % 16 = 15)

end Cert.Kernel.Hand

end
-- ==== Proof.WordOblig0.lean ====
/-
  Region 0's body obligation: at each grid point the body, handed buffers it may find there and the
  invariant before the point, runs to the invariant after it and to buffers in the stated relations —
  by the control case of the point (first, middle or last reduction step).
-/
import proofs.«171824_j50646254354906_2_alg».proof.Proof.Gen.Kernel.Launch
import proofs.«171824_j50646254354906_2_alg».proof.Proof.Gen.Kernel.Skeleton
import proofs.«171824_j50646254354906_2_alg».proof.Proof.Gen.Kernel.Points
import proofs.«171824_j50646254354906_2_alg».proof.Proof.WordData
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ UU ℕ

variable (V : (c : Dev nD) → (b : Ref sig .tc) → Buf (Elt F) ((c : Thread nD τ).loc b))

set_option maxHeartbeats 4000000 in
theorem body_obligation0 (c : Dev nD) : (rd0 V c).BodyObligation (defs₀ (F := F)) Variants.none () Set.univ := fun t Y hY => by
  rw [bigSep_W0, bigSep_W0]
  show _ ⊢ wp frame (wpE (defs₀ (F := F)) Variants.none c none) Set.univ (bodyAt0 t) _
  rw [show (rd0 V c).owesAt () t.succ = (rd0 V c).owesAt () t.castSucc from rfl,
    show (rd0 V c).Φ t.succ = PhiS V c (t.val + 1) t.isLt from rfl,
    show (rd0 V c).Φ t.castSucc = PhiS V c t.val (Nat.le_of_lt t.isLt) from rfl, PhiS_succ]
  have f0 := (finds0 V c 0 (by decide) t _).mp (hY 0)
  have f1 := (finds0 V c 1 (by decide) t _).mp (hY 1)
  have f2 := (finds0 V c 2 (by decide) t _).mp (hY 2)
  have f3 := (finds0 V c 3 (by decide) t _).mp (hY 3)
  have f4 := (finds0 V c 4 (by decide) t _).mp (hY 4)
  by_cases h0 : t.val % 16 = 0
  · -- a first reduction step
    have hcf : condFirst (grid0.coords t) := (hcFirst t).mpr h0
    have hcl : ¬condLast (grid0.coords t) := fun h => by have := (hcLast t).mp h; omega
    iintro ⟨HΦ, Ho, H0, H1, H2, H3, H4, H5⟩
    ihave HΦ' := (PhiS_any V c t.val (Nat.le_of_lt t.isLt)) $$ HΦ
    icases HΦ' with ⟨⟨HS, HO⟩, Hg⟩
    iapply ((runFirst (U := UU) c (grid0.coords t) _ _ _ _ _ _ _ _ _ _ _ _ _ _ hcf hcl (Y 0) (Y 1) (Y 2) (Y 3) (Y 4)).2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, ⟨%d5, H5⟩, ⟨%f, HS⟩⟩
    isplitl [HS HO Hg]
    · isplitr [Hg]
      · isplitl [HS]
        · iexists (k0_pay2 (k0_pay1 (F := F)) (Y 0) (Y 1)); isplitr
          · ipureintro; exact accAt_first V c t h0 (Y 0) (Y 1) f0 f1
          unfold owns; iexists _; isplitr
          swap; · iexact HS
          ipureintro; exact readFirst c _ _ _ _ _ _ _ _ _ _ _ _ _ _ _ hcf hcl _ _ _ _ _ f
        iexact HO
      iexact Hg
    isplitl [Ho]; · iexact Ho
    isplitl [H0]; · iexists (Y 0); isplitr; · ipureintro; exact rfl
                    iexact H0
    isplitl [H1]; · iexists (Y 1); isplitr; · ipureintro; exact rfl
                    iexact H1
    isplitl [H2]; · iexists (Y 2); isplitr; · ipureintro; exact rfl
                    iexact H2
    isplitl [H3]; · iexists (Y 3); isplitr; · ipureintro; exact rfl
                    iexact H3
    isplitl [H4]; · iexists (Y 4); isplitr; · ipureintro; exact rfl
                    iexact H4
    iexists d5; isplitr
    · ipureintro; show (if t.val % 16 = 15 then _ else True); rw [if_neg (by omega)]; trivial
    iexact H5
  · have hcf : ¬condFirst (grid0.coords t) := fun h => h0 ((hcFirst t).mp h)
    have hz : t.val ≠ 0 := fun h => h0 (by rw [h])
    rw [PhiS_pos V c t.val _ hz]
    by_cases h15 : t.val % 16 = 15
    · -- a last reduction step
      have hcl : condLast (grid0.coords t) := (hcLast t).mpr h15
      iintro ⟨⟨⟨⟨%acc, %hacc, HS⟩, HO⟩, Hg⟩, Ho, H0, H1, H2, H3, H4, H5⟩
      iapply ((runLast (U := UU) c (grid0.coords t) _ _ _ _ _ _ _ _ _ _ _ _ _ _ hcf hcl (Y 0) (Y 1) (Y 2) (Y 3) (Y 4) acc).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, ⟨%f5, H5⟩, ⟨%f, HS⟩⟩
      isplitl [HS HO Hg]
      · isplitr [Hg]
        · isplitl [HS]
          · iexists (k0_pay2 acc (Y 0) (Y 1)); isplitr
            · ipureintro; exact accAt_next V c t h0 acc hacc (Y 0) (Y 1) f0 f1
            unfold owns; iexists _; isplitr
            swap; · iexact HS
            ipureintro; exact readLastAcc c _ _ _ _ _ _ _ _ _ _ _ _ _ _ _ hcf hcl _ _ _ _ _ _ f
          iexact HO
        iexact Hg
      isplitl [Ho]; · iexact Ho
      isplitl [H0]; · iexists (Y 0); isplitr; · ipureintro; exact rfl
                      iexact H0
      isplitl [H1]; · iexists (Y 1); isplitr; · ipureintro; exact rfl
                      iexact H1
      isplitl [H2]; · iexists (Y 2); isplitr; · ipureintro; exact rfl
                      iexact H2
      isplitl [H3]; · iexists (Y 3); isplitr; · ipureintro; exact rfl
                      iexact H3
      isplitl [H4]; · iexists (Y 4); isplitr; · ipureintro; exact rfl
                      iexact H4
      iexists (k0_pay3 (k0_pay2 acc (Y 0) (Y 1)) (Y 2) (Y 3) (Y 4)); isplitr
      · ipureintro; show (if t.val % 16 = 15 then _ else True); rw [if_pos h15]
        exact ⟨k0_pay2 acc (Y 0) (Y 1), Y 2, Y 3, Y 4, accAt_next V c t h0 acc hacc (Y 0) (Y 1) f0 f1, f2, f3, f4, rfl⟩
      unfold owns; iexists _; isplitr
      swap; · iexact H5
      ipureintro; exact readLastOut c _ _ _ _ _ _ _ _ _ _ _ _ _ _ _ hcf hcl _ _ _ _ _ _ f5
    · -- a middle reduction step
      have hcl : ¬condLast (grid0.coords t) := fun h => h15 ((hcLast t).mp h)
      iintro ⟨⟨⟨⟨%acc, %hacc, HS⟩, HO⟩, Hg⟩, Ho, H0, H1, H2, H3, H4, H5⟩
      iapply ((runMid (U := UU) c (grid0.coords t) _ _ _ _ _ _ _ _ _ _ _ _ _ _ hcf hcl (Y 0) (Y 1) (Y 2) (Y 3) (Y 4) acc).2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, ⟨%d5, H5⟩, ⟨%f, HS⟩⟩
      isplitl [HS HO Hg]
      · isplitr [Hg]
        · isplitl [HS]
          · iexists (k0_pay2 acc (Y 0) (Y 1)); isplitr
            · ipureintro; exact accAt_next V c t h0 acc hacc (Y 0) (Y 1) f0 f1
            unfold owns; iexists _; isplitr
            swap; · iexact HS
            ipureintro; exact readMid c _ _ _ _ _ _ _ _ _ _ _ _ _ _ _ hcf hcl _ _ _ _ _ _ f
          iexact HO
        iexact Hg
      isplitl [Ho]; · iexact Ho
      isplitl [H0]; · iexists (Y 0); isplitr; · ipureintro; exact rfl
                      iexact H0
      isplitl [H1]; · iexists (Y 1); isplitr; · ipureintro; exact rfl
                      iexact H1
      isplitl [H2]; · iexists (Y 2); isplitr; · ipureintro; exact rfl
                      iexact H2
      isplitl [H3]; · iexists (Y 3); isplitr; · ipureintro; exact rfl
                      iexact H3
      isplitl [H4]; · iexists (Y 4); isplitr; · ipureintro; exact rfl
                      iexact H4
      iexists d5; isplitr
      · ipureintro; show (if t.val % 16 = 15 then _ else True); rw [if_neg h15]; trivial
      iexact H5

end Cert.Kernel.Hand

end
-- ==== Proof.WordRegion0.lean ====
/-
  The first kernel region as a segment of the program's run, at any float instance. Between two items of the
  program a core holds every unscoped buffer whole at a valuation, its generator register at some state, and
  owes nothing. The region is entered with the buffers as the host stretches before it left them; its six
  windowed arrays are split out of them, the rest bypasses the region; at its end the five input arrays are as at
  entry, and the hidden activations' array holds SOME contents the write-backs may have left there — the thread
  state after the region is existential in those contents, recorded with what the relational data says of them.
-/
import proofs.«171824_j50646254354906_2_alg».proof.Proof.WordData
import proofs.«171824_j50646254354906_2_alg».proof.Proof.WordOblig0
import proofs.«171824_j50646254354906_2_alg».proof.Proof.Gen.Kernel.Regions
import Idealize.ShloMosaic.Lib.Pipeline.Regions
import Idealize.ShloMosaic.Lib.Pipeline.RegionsLoop
import Idealize.ShloMosaic.Lib.Pipeline.Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf HostSeg)

variable {F : FTy → Type} [FloatOps F]

local notation "𝕄" => MT nD τ sig Unit (Elt F) ℕ UU ℕ

/-- No core owes another anything: no level is assigned. -/
abbrev L₀ : GSem nD τ sig → Finset Unit := fun _ => ∅
abbrev lv₀ : GSem nD τ sig → Unit → ℕ := fun _ _ => 0

/-- A valuation of a core's unscoped buffers, read at the TensorCore's references. -/
abbrev Val0 (F : FTy → Type) [FloatOps F] : Type := (c : Dev nD) → (b : Ref sig .tc) → Buf (Elt F) ((c : Thread nD τ).loc b)

/-- The proof data of both regions, over the valuations each is entered with. -/
def rdats (Va Vb : Val0 F) : (p : Fin 2) → (c : Dev nD) → RDat τ (Elt F) Unit ℕ UU ℕ (Pipeline.pin (pcfgs (F := F)) adm p) c
  | ⟨0, _⟩ => fun c => rd0 Va c
  | ⟨1, _⟩ => fun c => rd1 Vb c

variable (m : (ℓ : Loc nD τ sig) → Buf (Elt F) ℓ)

/-- Region 0's entry valuation, read at the TensorCore's references. -/
abbrev W5 : Val0 F := fun c b => V5 m c b
/-- Region 1's entry valuation over what region 0 left. -/
abbrev W15 (o : Outs (F := F)) : Val0 F := fun c b => V15 m o c b

/-- What region 0 may leave in the hidden activations' array. -/
def P0 (o : Outs (F := F)) (c : Dev nD) : Prop := (rd0 (W5 m) c).ArrAt 5 cfg0.N (o 6 main_v14 c)
/-- What region 1 may leave in the padded result's array, entered over what region 0 left. -/
def P1 (o : Outs (F := F)) (c : Dev nD) : Prop := (rd1 (W15 m o) c).ArrAt 5 cfg1.N (o 16 main_v30 c)

/-- What every thread state carries beside the unscoped buffers: the generator register at some state, the core
    owing nothing. -/
abbrev Rst (c : Dev nD) : sProp 𝕄 :=
  iprop((∃ r, prngReg c r) ∗ ∃ W, owes (c : Thread nD τ) (0 : CellTallies nD τ sig Unit) W)

/-- Unknown contents that hold `G` in the hidden activations' array on core `c` (the launch valuation elsewhere). -/
def outs6 (c : Dev nD) (G : Buf (Elt F) ((c : Thread nD τ).loc main_v14)) : Outs (F := F) :=
  Function.update (fun _ r c' => V5 m c' r) 6
    (Function.update (fun r c' => V5 m c' r) main_v14 (Function.update (fun c' => V5 m c' main_v14) c G))

theorem outs6_at (c : Dev nD) (G : Buf (Elt F) ((c : Thread nD τ).loc main_v14)) : outs6 m c G 6 main_v14 c = G := by
  unfold outs6; rw [Function.update_self, Function.update_self, Function.update_self]

set_option maxHeartbeats 4000000 in
set_option backward.isDefEq.respectTransparency.types false in
def R0 (Vb : Val0 F) (Gx : Dev nD → sProp 𝕄) : Pipeline.RDat.RegionSeg (pcfgs (F := F)) adm (rdats (W5 m) Vb) () defs₀ Variants.none L₀ lv₀ 0 where
  win := launch0.win.to₀
  block_pos := launch0.block_pos
  stage_whole := launch0.stage_whole
  K := PEmpty
  osem k := k.elim
  ho := Pipeline.OwnSemFacts.none _
  hbody c := body_obligation0 (W5 m) c
  hwaits := Pipeline.RDat.hwaits_of_owed_zero _ _ _ _ L₀ lv₀ 0 fun _ _ => rfl
  pre c := iprop(StableHlo.held (c : Thread nD τ) (Pipeline.ucRefs τ sig) (V5 m c) ∗ (Rst c ∗ Gx c))
  post c := iprop(∃ o : Outs (F := F), StableHlo.held (c : Thread nD τ) (Pipeline.ucRefs τ sig) (V6 m o c) ∗ (⌜P0 m o c⌝ ∗ Rst c ∗ Gx c))
  X c := iprop(∃ r, prngReg c r)
  Y c := iprop(∃ r, prngReg c r)
  Z c := iprop(Pipeline.unscopedRest (Ix := Unit) (Name := ℕ) (U := UU) (Lvl := ℕ) spec0 c (W5 m c) ∗ Gx c)
  hentry c := by
    rw [Pipeline.ownSems0_none]
    have hsplit := Pipeline.RDat.arrays_of_unscopedBufs (p := 0) (pcfgs (F := F)) adm (rdats (W5 m) Vb) launch0.win launch0.arr_whole c
      ((rdats (W5 m) Vb 0 c).share_full fun _ => rfl) (W5 m c) fun _ => rfl
    rw [← Pipeline.unscopedBufs_held (Ix := Unit) (Name := ℕ) (U := UU) (Lvl := ℕ) c (V5 m c)]
    iintro ⟨⟨Hub, ⟨Hg, HO⟩, HG⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hg]; · iexact Hg
    isplitl [Hrest] <;> iassumption
  hin c := by
    show _ ⊢ Pipeline.ΦA spec0 c
    unfold Pipeline.ΦA
    iintro ⟨HX, -, Hs⟩
    isplitl [Hs]; · iexact Hs
    iexact HX
  hout c := by
    have hΦ : (rdats (W5 m) Vb 0 c).Φ (Fin.last (Pipeline.pin (pcfgs (F := F)) adm 0).N) = PhiS (W5 m) c cfg0.N (Nat.le_refl _) := rfl
    rw [hΦ]
    refine (PhiS_any (W5 m) c _ _).trans ?_
    rw [← PhiA0_eq, Pipeline.ownSems0_none]
    unfold Pipeline.ΦA
    iintro ⟨Hs, Hg⟩
    isplitl [Hg]; · iexact Hg
    isplitr; · iempintro
    iexact Hs
  hexit c := by
    have hshare := (rdats (W5 m) Vb 0 c).share_full fun _ => rfl
    have hjoin : ∀ o : Outs (F := F),
        iprop((rdats (W5 m) Vb 0 c).arrays (fun w => V6 m o c (Pipeline.arrRef spec0 w)) ∗ Pipeline.unscopedRest (Ix := Unit) (Name := ℕ) (U := UU) (Lvl := ℕ) spec0 c (W5 m c))
          ⊢ (StableHlo.held (c : Thread nD τ) (Pipeline.ucRefs τ sig) (V6 m o c) : sProp 𝕄) := fun o => by
      rw [← Pipeline.unscopedBufs_held (Ix := Unit) (Name := ℕ) (U := UU) (Lvl := ℕ) c (V6 m o c),
        Pipeline.unscopedBufs_split (Pipeline.pin (pcfgs (F := F)) adm) 0 launch0.win.arr_unscoped launch0.win.arr_inj c (fun b => V6 m o c b),
        Pipeline.RDat.arrays_eq (pcfgs (F := F)) adm (rdats (W5 m) Vb) 0 c launch0.arr_whole hshare]
      refine sep_mono .rfl (Entails.of_eq ?_)
      unfold Pipeline.unscopedRest
      exact bigSep_congr fun b hb => by
        have e : V6 m o c b = V5 m c b := V6_of m o c b (fun h => (Finset.mem_sdiff.mp hb).2 (by
          rw [List.mem_singleton] at h; subst h
          exact Finset.mem_image.mpr ⟨5, Finset.mem_univ _, rfl⟩))
        exact congrArg (fun x => (((c : Thread nD τ).loc b ↦{fullShare} x) : sProp 𝕄)) e.symm
    unfold Pipeline.RDat.arraysAt
    rw [bigSep_W0]
    iintro ⟨⟨⟨%F0, %h0, H0⟩, ⟨%F1, %h1, H1⟩, ⟨%F2, %h2, H2⟩, ⟨%F3, %h3, H3⟩, ⟨%F4, %h4, H4⟩, ⟨%F5, %h5, H5⟩⟩, HO, Hg, Hrest, HG⟩
    rw [(rdats (W5 m) Vb 0 c).ArrAt_in 0 rfl] at h0
    rw [(rdats (W5 m) Vb 0 c).ArrAt_in 1 rfl] at h1
    rw [(rdats (W5 m) Vb 0 c).ArrAt_in 2 rfl] at h2
    rw [(rdats (W5 m) Vb 0 c).ArrAt_in 3 rfl] at h3
    rw [(rdats (W5 m) Vb 0 c).ArrAt_in 4 rfl] at h4
    subst h0 h1 h2 h3 h4
    imodintro
    iexists (outs6 m c F5)
    isplitl [H0 H1 H2 H3 H4 H5 Hrest]
    · iapply (hjoin (outs6 m c F5))
      isplitr [Hrest]; swap; · iexact Hrest
      unfold Pipeline.RDat.arrays
      rw [bigSep_W0]
      have e0 : V6 m (outs6 m c F5) c (Pipeline.arrRef spec0 0) = (rdats (W5 m) Vb 0 c).A 0 := V6_of m _ c _ (by decide)
      have e1 : V6 m (outs6 m c F5) c (Pipeline.arrRef spec0 1) = (rdats (W5 m) Vb 0 c).A 1 := V6_of m _ c _ (by decide)
      have e2 : V6 m (outs6 m c F5) c (Pipeline.arrRef spec0 2) = (rdats (W5 m) Vb 0 c).A 2 := V6_of m _ c _ (by decide)
      have e3 : V6 m (outs6 m c F5) c (Pipeline.arrRef spec0 3) = (rdats (W5 m) Vb 0 c).A 3 := V6_of m _ c _ (by decide)
      have e4 : V6 m (outs6 m c F5) c (Pipeline.arrRef spec0 4) = (rdats (W5 m) Vb 0 c).A 4 := V6_of m _ c _ (by decide)
      have e5 : V6 m (outs6 m c F5) c (Pipeline.arrRef spec0 5) = F5 := by
        show Function.update (V5 m c) main_v14 (outs6 m c F5 6 main_v14 c) main_v14 = F5
        rw [Function.update_self, outs6_at]
      beta_reduce
      rw [e0, e1, e2, e3, e4, e5]
      isplitl [H0]; · iexact H0
      isplitl [H1]; · iexact H1
      isplitl [H2]; · iexact H2
      isplitl [H3]; · iexact H3
      isplitl [H4]; · iexact H4
      iexact H5
    isplitr
    · ipureintro
      unfold P0; rw [outs6_at]; exact h5
    isplitr [HG]; swap; · iexact HG
    isplitl [Hg]; · iexact Hg
    unfold Pipeline.RDat.owesAt Pipeline.owesWithin
    icases HO with ⟨%W, -, HO⟩; iexists W; iexact HO

end Cert.Kernel.Hand

end
-- ==== Proof.WordRegion1.lean ====
/-
  The second kernel region as a segment of the program's run, at any float instance, ENTERED OVER WHATEVER the first
  region left in the hidden activations' array: its record is a family over those unknown contents. The valuation
  it is entered with depends on the unknowns only through that array, so the contents it leaves in the padded
  result's array can be recorded by updating the unknowns there and nowhere else.
-/
import proofs.«171824_j50646254354906_2_alg».proof.Proof.WordRegion0
import proofs.«171824_j50646254354906_2_alg».proof.Proof.Gen.Kernel.Regions
import Idealize.ShloMosaic.Lib.Pipeline.Regions
import Idealize.ShloMosaic.Lib.Pipeline.RegionsLoop
import Idealize.ShloMosaic.Lib.Pipeline.Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf HostSeg)

variable {F : FTy → Type} [FloatOps F]

local notation "𝕄" => MT nD τ sig Unit (Elt F) ℕ UU ℕ

variable (m : (ℓ : Loc nD τ sig) → Buf (Elt F) ℓ)

/-- The valuation region 1 is entered with depends on the unknowns only through the hidden activations' array. -/
theorem V15_congr (o o' : Outs (F := F)) (c : Dev nD) (h : o' 6 main_v14 c = o 6 main_v14 c) : V15 m o' c = V15 m o c := by
  unfold V15 V14 V13 V12 V11 V10 V9 V8 V7 V6
  rw [h]

/-- The unknowns `o` with the padded result's array on core `c` set to `G`. -/
def outs16 (o : Outs (F := F)) (c : Dev nD) (G : Buf (Elt F) ((c : Thread nD τ).loc main_v30)) : Outs (F := F) :=
  Function.update o 16 (Function.update (o 16) main_v30 (Function.update (o 16 main_v30) c G))

theorem outs16_at (o : Outs (F := F)) (c : Dev nD) (G : Buf (Elt F) ((c : Thread nD τ).loc main_v30)) :
    outs16 o c G 16 main_v30 c = G := by
  unfold outs16; rw [Function.update_self, Function.update_self, Function.update_self]

theorem outs16_six (o : Outs (F := F)) (c : Dev nD) (G : Buf (Elt F) ((c : Thread nD τ).loc main_v30)) :
    outs16 o c G 6 = o 6 := by
  unfold outs16; exact Function.update_of_ne (by decide) _ _

theorem V15_outs16 (o : Outs (F := F)) (c : Dev nD) (G : Buf (Elt F) ((c : Thread nD τ).loc main_v30)) :
    V15 m (outs16 o c G) c = V15 m o c := V15_congr m o _ c (by rw [outs16_six])

theorem W15_outs16 (o : Outs (F := F)) (c : Dev nD) (G : Buf (Elt F) ((c : Thread nD τ).loc main_v30)) :
    W15 m (outs16 o c G) = W15 m o :=
  funext fun c' => funext fun b => congrFun (V15_congr m o _ c' (by rw [outs16_six])) b

theorem P0_outs16 (o : Outs (F := F)) (c : Dev nD) (G : Buf (Elt F) ((c : Thread nD τ).loc main_v30)) (h : P0 m o c) :
    P0 m (outs16 o c G) c := by
  unfold P0 at h ⊢; rw [outs16_six]; exact h

set_option maxHeartbeats 4000000 in
set_option backward.isDefEq.respectTransparency.types false in
def R1 (Va : Val0 F) (o : Outs (F := F)) : Pipeline.RDat.RegionSeg (pcfgs (F := F)) adm (rdats Va (W15 m o)) () defs₀ Variants.none L₀ lv₀ 1 where
  win := launch1.win.to₀
  block_pos := launch1.block_pos
  stage_whole := launch1.stage_whole
  K := PEmpty
  osem k := k.elim
  ho := Pipeline.OwnSemFacts.none _
  hbody c := body_obligation1 (W15 m o) c
  hwaits := Pipeline.RDat.hwaits_of_owed_zero _ _ _ _ L₀ lv₀ 1 fun _ _ => rfl
  pre c := iprop(StableHlo.held (c : Thread nD τ) (Pipeline.ucRefs τ sig) (V15 m o c) ∗ (⌜P0 m o c⌝ ∗ Rst c))
  post c := iprop(∃ o' : Outs (F := F), StableHlo.held (c : Thread nD τ) (Pipeline.ucRefs τ sig) (V16 m o' c) ∗ (⌜P0 m o' c ∧ P1 m o' c⌝ ∗ Rst c))
  X c := iprop(∃ r, prngReg c r)
  Y c := iprop(∃ r, prngReg c r)
  Z c := iprop(Pipeline.unscopedRest (Ix := Unit) (Name := ℕ) (U := UU) (Lvl := ℕ) spec1 c (W15 m o c) ∗ ⌜P0 m o c⌝)
  hentry c := by
    rw [Pipeline.ownSems0_none]
    have hsplit := Pipeline.RDat.arrays_of_unscopedBufs (p := 1) (pcfgs (F := F)) adm (rdats Va (W15 m o)) launch1.win launch1.arr_whole c
      ((rdats Va (W15 m o) 1 c).share_full fun _ => rfl) (W15 m o c) fun _ => rfl
    rw [← Pipeline.unscopedBufs_held (Ix := Unit) (Name := ℕ) (U := UU) (Lvl := ℕ) c (V15 m o c)]
    iintro ⟨⟨Hub, %hP, ⟨Hg, HO⟩⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hg]; · iexact Hg
    isplitl [Hrest]; · iexact Hrest
    ipureintro; exact hP
  hin c := by
    show _ ⊢ Pipeline.ΦA spec1 c
    unfold Pipeline.ΦA
    iintro ⟨HX, -, Hs⟩
    isplitl [Hs]; · iexact Hs
    iexact HX
  hout c := by
    show Pipeline.ΦA spec1 c ⊢ _
    rw [Pipeline.ownSems0_none]
    unfold Pipeline.ΦA
    iintro ⟨Hs, Hg⟩
    isplitl [Hg]; · iexact Hg
    isplitr; · iempintro
    iexact Hs
  hexit c := by
    have hshare := (rdats Va (W15 m o) 1 c).share_full fun _ => rfl
    have hjoin : ∀ o' : Outs (F := F), V15 m o' c = V15 m o c →
        iprop((rdats Va (W15 m o) 1 c).arrays (fun w => V16 m o' c (Pipeline.arrRef spec1 w)) ∗ Pipeline.unscopedRest (Ix := Unit) (Name := ℕ) (U := UU) (Lvl := ℕ) spec1 c (W15 m o c))
          ⊢ (StableHlo.held (c : Thread nD τ) (Pipeline.ucRefs τ sig) (V16 m o' c) : sProp 𝕄) := fun o' ho' => by
      rw [← Pipeline.unscopedBufs_held (Ix := Unit) (Name := ℕ) (U := UU) (Lvl := ℕ) c (V16 m o' c),
        Pipeline.unscopedBufs_split (Pipeline.pin (pcfgs (F := F)) adm) 1 launch1.win.arr_unscoped launch1.win.arr_inj c (fun b => V16 m o' c b),
        Pipeline.RDat.arrays_eq (pcfgs (F := F)) adm (rdats Va (W15 m o)) 1 c launch1.arr_whole hshare]
      refine sep_mono .rfl (Entails.of_eq ?_)
      unfold Pipeline.unscopedRest
      exact bigSep_congr fun b hb => by
        have e : V16 m o' c b = V15 m o c b := (V16_of m o' c b (fun h => (Finset.mem_sdiff.mp hb).2 (by
          rw [List.mem_singleton] at h; subst h
          exact Finset.mem_image.mpr ⟨5, Finset.mem_univ _, rfl⟩))).trans (congrFun ho' b)
        exact congrArg (fun x => (((c : Thread nD τ).loc b ↦{fullShare} x) : sProp 𝕄)) e.symm
    unfold Pipeline.RDat.arraysAt
    rw [bigSep_W1]
    iintro ⟨⟨⟨%F0, %h0, H0⟩, ⟨%F1, %h1, H1⟩, ⟨%F2, %h2, H2⟩, ⟨%F3, %h3, H3⟩, ⟨%F4, %h4, H4⟩, ⟨%F5, %h5, H5⟩⟩, HO, Hg, Hrest, %hP⟩
    rw [(rdats Va (W15 m o) 1 c).ArrAt_in 0 rfl] at h0
    rw [(rdats Va (W15 m o) 1 c).ArrAt_in 1 rfl] at h1
    rw [(rdats Va (W15 m o) 1 c).ArrAt_in 2 rfl] at h2
    rw [(rdats Va (W15 m o) 1 c).ArrAt_in 3 rfl] at h3
    rw [(rdats Va (W15 m o) 1 c).ArrAt_in 4 rfl] at h4
    subst h0 h1 h2 h3 h4
    imodintro
    iexists (outs16 o c F5)
    have hV := V15_outs16 m o c F5
    isplitl [H0 H1 H2 H3 H4 H5 Hrest]
    · iapply (hjoin (outs16 o c F5) hV)
      isplitr [Hrest]; swap; · iexact Hrest
      unfold Pipeline.RDat.arrays
      rw [bigSep_W1]
      have e0 : V16 m (outs16 o c F5) c (Pipeline.arrRef spec1 0) = (rdats Va (W15 m o) 1 c).A 0 := (V16_of m _ c _ (by decide)).trans (congrFun hV _)
      have e1 : V16 m (outs16 o c F5) c (Pipeline.arrRef spec1 1) = (rdats Va (W15 m o) 1 c).A 1 := (V16_of m _ c _ (by decide)).trans (congrFun hV _)
      have e2 : V16 m (outs16 o c F5) c (Pipeline.arrRef spec1 2) = (rdats Va (W15 m o) 1 c).A 2 := (V16_of m _ c _ (by decide)).trans (congrFun hV _)
      have e3 : V16 m (outs16 o c F5) c (Pipeline.arrRef spec1 3) = (rdats Va (W15 m o) 1 c).A 3 := (V16_of m _ c _ (by decide)).trans (congrFun hV _)
      have e4 : V16 m (outs16 o c F5) c (Pipeline.arrRef spec1 4) = (rdats Va (W15 m o) 1 c).A 4 := (V16_of m _ c _ (by decide)).trans (congrFun hV _)
      have e5 : V16 m (outs16 o c F5) c (Pipeline.arrRef spec1 5) = F5 := by
        show Function.update (V15 m (outs16 o c F5) c) main_v30 (outs16 o c F5 16 main_v30 c) main_v30 = F5
        rw [Function.update_self, outs16_at]
      beta_reduce
      rw [e0, e1, e2, e3, e4, e5]
      isplitl [H0]; · iexact H0
      isplitl [H1]; · iexact H1
      isplitl [H2]; · iexact H2
      isplitl [H3]; · iexact H3
      isplitl [H4]; · iexact H4
      iexact H5
    isplitr
    · ipureintro
      refine ⟨P0_outs16 m o c F5 hP, ?_⟩
      unfold P1
      rw [outs16_at, W15_outs16]
      exact h5
    isplitl [Hg]; · iexact Hg
    unfold Pipeline.RDat.owesAt Pipeline.owesWithin
    icases HO with ⟨%W, -, HO⟩; iexists W; iexact HO

end Cert.Kernel.Hand

end
-- ==== Proof.WordRegionHost.lean ====
/-
  The run's separation-logic wrappers, at any float instance. The launch element pays for two copies of the
  rounds ghost state of the staging cells: the left copy is the one the segment list of the run spends on its
  own kernel regions, the right copy rides along in the ghost resources of each core, so that a kernel region
  can be entered from inside a host segment. A family of host segments with one program is one host segment
  whose thread states are existential in the family's index; a family of kernel-region records is a host
  segment that opens the index at entry, spends the right copy's ghost state there, and closes it at exit.
-/
import proofs.«171824_j50646254354906_2_alg».proof.Proof.WordData
import proofs.«171824_j50646254354906_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ UU ℕ

/-! ## The launch element and the second copy of the rounds ghost state -/

/-- The launch element: the rounds library's launch element at every staging cell, twice. -/
def u₀ : UU :=
  (initOf (Pipeline.cells cfgs cellOf_inj) (Pipeline.launchToks cfgs cellOf_inj),
   initOf (Pipeline.cells cfgs cellOf_inj) (Pipeline.launchToks cfgs cellOf_inj))

/-- What core `c` carries of the right copy: the rounds ghost state of the second kernel region's staging cells
    and its duty tokens. -/
def Gh (c : Dev nD) : sProp 𝕄 :=
  iprop(Pipeline.cellsGhost cfgs (embR : Emb (UR sig nD τ) 𝕄) 1 c ∗ Pipeline.toksInit cfgs (embR : Emb (UR sig nD τ) 𝕄) 1 c)

/-- The launch element yields the left copy's launch element whole and, from the right copy, each core's share. -/
theorem fund_u₀ : (ownU u₀ : sProp 𝕄) ⊢ |={Set.univ}=> iprop(BI.own ((embL : Emb (UR sig nD τ) 𝕄) (initOf (Pipeline.cells cfgs cellOf_inj) (Pipeline.launchToks cfgs cellOf_inj))) ∗ bigSep Finset.univ (Gh (F := F))) := by
  have hG : iprop((bigSep Finset.univ fun c : Dev nD => bigSep Finset.univ fun p => Pipeline.cellsGhost cfgs (embR : Emb (UR sig nD τ) 𝕄) p c)
        ∗ (bigSep Finset.univ fun c : Dev nD => bigSep Finset.univ fun p => (Pipeline.toksInit cfgs (embR : Emb (UR sig nD τ) 𝕄) p c : sProp 𝕄)))
      ⊢ bigSep Finset.univ (Gh (F := F)) := by
    rw [← bigSep_sep']
    exact bigSep_mono fun c _ => show _ ⊢ iprop(Pipeline.cellsGhost cfgs (embR : Emb (UR sig nD τ) 𝕄) 1 c ∗ Pipeline.toksInit cfgs (embR : Emb (UR sig nD τ) 𝕄) 1 c)
      from BI.sep_mono (bigSep_elim (Finset.mem_univ _)) (bigSep_elim (Finset.mem_univ _))
  unfold u₀
  iintro Hu
  ihave H := (ownU_pair _ _) $$ Hu
  icases H with ⟨HL, HR⟩
  imod (Pipeline.fund_ghost cfgs (embR : Emb (UR sig nD τ) 𝕄) cellOf_inj) $$ HR with ⟨Hg, Ht⟩
  imodintro
  isplitl [HL]; · iexact HL
  iapply hG
  isplitl [Hg]; · iexact Hg
  iexact Ht

/-! ## Host segments existential in an index -/

section Wrappers

variable (𝒱₀ : Variants) (L : GSem nD τ sig → Finset Unit) (lv : GSem nD τ sig → Unit → ℕ)

/-- A family of host segments with one program, as one host segment: it is entered from the thread state of some
    member and leaves at that member's. -/
def hostEx {ι : Type} (prog : Prog (TpuEff nD τ sig (Elt F) (Pipeline.Sig Λ₀ (Fin 2) fun p => (pcfgs (F := F) p).Adm) .tc) PUnit)
    (H : ι → Pipeline.HostSeg (Ix := Unit) (Name := ℕ) (U := UU) (Lvl := ℕ) (pcfgs (F := F)) defs₀ 𝒱₀ L lv)
    (hprog : ∀ o, (H o).prog = prog) :
    Pipeline.HostSeg (Ix := Unit) (Name := ℕ) (U := UU) (Lvl := ℕ) (pcfgs (F := F)) defs₀ 𝒱₀ L lv where
  prog := prog
  pre c := iprop(∃ o, (H o).pre c)
  post c := iprop(∃ o, (H o).post c)
  run c {β} k K := by
    iintro ⟨Hk, Hbd, ⟨%o, Hpre⟩, Hla⟩
    rw [← hprog o]
    iapply ((H o).run c k K)
    isplitl [Hk]
    · iintro ⟨Hbd, Hpost⟩
      iapply Hk
      isplitl [Hbd]; · iexact Hbd
      iexists o; iexact Hpost
    isplitl [Hbd]; · iexact Hbd
    isplitl [Hpre]; · iexact Hpre
    iexact Hla

/-- A family of records of the second kernel region, as a host segment: entered from some member's thread state
    beside the core's share of the right copy, it runs the region by that member's record and leaves at that
    member's thread state. -/
def regionHost {ι : Type}
    (rdats : ι → (p : Fin 2) → (c : Dev nD) → RDat τ (Elt F) Unit ℕ UU ℕ (cfgs p) c)
    (R : (o : ι) → Pipeline.RDat.RegionSeg (pcfgs (F := F)) adm (rdats o) () defs₀ 𝒱₀ L lv 1) :
    Pipeline.HostSeg (Ix := Unit) (Name := ℕ) (U := UU) (Lvl := ℕ) (pcfgs (F := F)) defs₀ 𝒱₀ L lv where
  prog := Prog.lift (.customCall (Pipeline.entry 1) ())
  pre c := iprop(∃ o, (R o).pre c ∗ Gh c)
  post c := iprop(∃ o, (R o).post c)
  run c {β} k K := by
    show _ ⊢ wp frame _ Set.univ (.op (.customCall (Pipeline.entry 1) ()) k) K
    unfold Gh
    iintro ⟨Hk, Hbd, ⟨%o, Hpre, Hg, Ht⟩, Hla⟩
    iapply (Pipeline.RDat.RegionSeg.wp (pcfgs (F := F)) adm (rdats o) () cellOf_inj (embR : Emb (UR sig nD τ) 𝕄) defs₀ 𝒱₀ L lv (R o) c none (fun _ h => nomatch h) k K)
    isplitl [Hk]
    · iintro ⟨Hbd, Hpost⟩
      iapply Hk
      isplitl [Hbd]; · iexact Hbd
      iexists o; iexact Hpost
    isplitl [Hbd]; · iexact Hbd
    isplitl [Hpre]; · iexact Hpre
    isplitl [Hla]; · iexact Hla
    isplitl [Hg]; · iexact Hg
    iexact Ht

end Wrappers

end Cert.Kernel.Hand

end
-- ==== Proof.WordRun.lean ====
/-
  The run of the whole program, at any float instance: five host stretches, the first kernel region, nine host
  stretches, the second kernel region, the closing slice. The first region's output is only constrained by its
  relational data, so every thread state after it is existential in the contents it left; the second region is
  entered at the proof data of those contents, chosen once they are known, and funded from a second copy of the
  rounds ghost state dealt at the launch. The final memory is read off the last valuation: the result's buffer
  as the closing slice computes it from SOME contents the regions may have left (with what the data says of them),
  every argument array as at launch.
-/
import proofs.«171824_j50646254354906_2_alg».proof.Proof.WordRegion1
import proofs.«171824_j50646254354906_2_alg».proof.Proof.WordRegionHost
import proofs.«171824_j50646254354906_2_alg».proof.Proof.Gen.Kernel.Regions
import Idealize.ShloMosaic.Lib.Pipeline.Regions
import Idealize.ShloMosaic.Lib.Pipeline.RegionsLoop
import Idealize.ShloMosaic.Lib.Pipeline.Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf HostSeg)

variable {F : FTy → Type} [FloatOps F]

local notation "𝕄" => MT nD τ sig Unit (Elt F) ℕ UU ℕ

variable (m : (ℓ : Loc nD τ sig) → Buf (Elt F) ℓ)

/-- No loop of the program's own: no variant. -/
abbrev 𝒱 : Variants := Variants.none

/-- The rest of the thread state before the first region: the register, the core owing nothing, and the second
    region's copy of the rounds ghost state riding along. -/
abbrev E0 : Fin 3 → Dev nD → sProp 𝕄 := fun _ c => iprop(Rst c ∗ Gh c)
/-- Between the regions, over what the first left: the fact recorded of it besides. -/
abbrev E1 (o : Outs (F := F)) : Fin 3 → Dev nD → sProp 𝕄 := fun _ c => iprop(⌜P0 m o c⌝ ∗ Rst c ∗ Gh c)
/-- After the second region: both facts. -/
abbrev E2 (o : Outs (F := F)) : Fin 3 → Dev nD → sProp 𝕄 := fun _ c => iprop(⌜P0 m o c ∧ P1 m o c⌝ ∗ Rst c)

/-- The proof data the launch theorem is stated over: the first region's; the second region's entry is not
    fixed before the run, so its place holds anything. -/
abbrev RD : (p : Fin 2) → (c : Dev nD) → RDat τ (Elt F) Unit ℕ UU ℕ (Pipeline.pin (pcfgs (F := F)) adm p) c := rdats (W5 m) (W5 m)

/-- The program as segments: five host stretches, the first region, nine host stretches over SOME contents of the
    hidden activations' array, the second region run at the proof data of those contents, the closing slice. -/
def segsK : List (Pipeline.RDat.Seg (pcfgs (F := F)) adm (RD m) () defs₀ 𝒱 L₀ lv₀) :=
  [.host (seg0 m 𝒱 L₀ lv₀ E0), .host (seg1 m 𝒱 L₀ lv₀ E0), .host (seg2 m 𝒱 L₀ lv₀ E0), .host (seg3 m 𝒱 L₀ lv₀ E0), .host (seg4 m 𝒱 L₀ lv₀ E0),
   .region (R0 m (W5 m) Gh),
   .host (hostEx 𝒱 L₀ lv₀ (StableHlo.seq hostOps1) (fun o => seg6 m o 𝒱 L₀ lv₀ (E1 m o)) (fun _ => rfl)),
   .host (hostEx 𝒱 L₀ lv₀ (StableHlo.seq hostOps1_1) (fun o => seg7 m o 𝒱 L₀ lv₀ (E1 m o)) (fun _ => rfl)),
   .host (hostEx 𝒱 L₀ lv₀ (StableHlo.seq hostOps1_2) (fun o => seg8 m o 𝒱 L₀ lv₀ (E1 m o)) (fun _ => rfl)),
   .host (hostEx 𝒱 L₀ lv₀ (StableHlo.seq hostOps1_3) (fun o => seg9 m o 𝒱 L₀ lv₀ (E1 m o)) (fun _ => rfl)),
   .host (hostEx 𝒱 L₀ lv₀ (StableHlo.seq hostOps1_4) (fun o => seg10 m o 𝒱 L₀ lv₀ (E1 m o)) (fun _ => rfl)),
   .host (hostEx 𝒱 L₀ lv₀ (StableHlo.seq hostOps1_5) (fun o => seg11 m o 𝒱 L₀ lv₀ (E1 m o)) (fun _ => rfl)),
   .host (hostEx 𝒱 L₀ lv₀ (StableHlo.seq hostOps1_6) (fun o => seg12 m o 𝒱 L₀ lv₀ (E1 m o)) (fun _ => rfl)),
   .host (hostEx 𝒱 L₀ lv₀ (StableHlo.seq hostOps1_7) (fun o => seg13 m o 𝒱 L₀ lv₀ (E1 m o)) (fun _ => rfl)),
   .host (hostEx 𝒱 L₀ lv₀ (StableHlo.seq hostOps1_8) (fun o => seg14 m o 𝒱 L₀ lv₀ (E1 m o)) (fun _ => rfl)),
   .host (regionHost 𝒱 L₀ lv₀ (fun o => rdats (W5 m) (W15 m o)) (fun o => R1 m (W5 m) o)),
   .host (hostEx 𝒱 L₀ lv₀ (StableHlo.seq hostOps2) (fun o => seg16 m o 𝒱 L₀ lv₀ (E2 m o)) (fun _ => rfl))]

/-- Every argument array as at launch. -/
def ArgsKept (s : MemSt nD τ sig (Elt F)) (c : Dev nD) : Prop :=
  s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_arg9) = m ((c.tc : Thread nD τ).loc main_arg9)
      ∧ s.mem ((c.tc : Thread nD τ).loc main_arg10) = m ((c.tc : Thread nD τ).loc main_arg10)
      ∧ s.mem ((c.tc : Thread nD τ).loc main_arg11) = m ((c.tc : Thread nD τ).loc main_arg11)
      ∧ s.mem ((c.tc : Thread nD τ).loc main_arg12) = m ((c.tc : Thread nD τ).loc main_arg12)
      ∧ s.mem ((c.tc : Thread nD τ).loc main_arg13) = m ((c.tc : Thread nD τ).loc main_arg13)
      ∧ s.mem ((c.tc : Thread nD τ).loc main_arg14) = m ((c.tc : Thread nD τ).loc main_arg14)

/-- What a final memory holds on core `c`: for some contents the regions may have left, the result's buffer as the
    closing slice computes it from them, and every argument as at launch. -/
def Fin17 (s : MemSt nD τ sig (Elt F)) (c : Dev nD) : Prop :=
  ∃ o : Outs (F := F), P0 m o c ∧ P1 m o c ∧ s.mem ((c.tc : Thread nD τ).loc main_v31) = V17 m o c main_v31 ∧ ArgsKept m s c

set_option maxHeartbeats 4000000 in
set_option backward.isDefEq.respectTransparency.types false in
/-- THE RUN, at any float instance: from any memory with zero counters every weakly fair execution of the program
    terminates without a fault, and every final memory holds, on every core, the result as the closing slice reads
    it off SOME contents the two regions may have left, and every argument as at launch. -/
theorem run_main (ρ : Dev nD → PrngReg) :
    θ_run defs (onTc (τ := τ) (main (F := F))) ⟨m, fun _ => 0, ρ⟩ (fun r => ∀ c : Dev nD, Fin17 m r.2 c) := by
  refine Pipeline.RDat.θ_run_regions_kit (pcfgs (F := F)) adm (RD m) () cellOf_inj (embL : Emb (UR sig nD τ) 𝕄) defs₀ 𝒱 L₀ lv₀ m ρ main (segsK m)
    (fun c Q => by
      rewrite [main_chain c, Pipeline.RDat.Seg.run_eq_chain,
        show (segsK m).map Pipeline.RDat.Seg.prog = [
          StableHlo.seq hostOps0, StableHlo.seq hostOps0_1, StableHlo.seq hostOps0_2, StableHlo.seq hostOps0_3, StableHlo.seq hostOps0_4,
          Prog.lift (.customCall (Pipeline.entry 0) ()),
          StableHlo.seq hostOps1, StableHlo.seq hostOps1_1, StableHlo.seq hostOps1_2, StableHlo.seq hostOps1_3, StableHlo.seq hostOps1_4, StableHlo.seq hostOps1_5, StableHlo.seq hostOps1_6, StableHlo.seq hostOps1_7, StableHlo.seq hostOps1_8,
          Prog.lift (.customCall (Pipeline.entry 1) ()),
          StableHlo.seq hostOps2 ] from rfl]
      exact .rfl)
    (by simp [segsK, Pipeline.RDat.Seg.pipes, Pipeline.RDat.Seg.pipe?]) (O₀ := 0) (hL := fun _ _ => rfl) (G := Gh) (u₀ := u₀) (hu₀ := fund_u₀)
    (T₀ := fun c => iprop(StableHlo.held (c : Thread nD τ) (Pipeline.ucRefs τ sig) (V0 m c) ∗ (Rst c ∗ Gh c)))
    (Tₙ := fun c => iprop(∃ o : Outs (F := F), StableHlo.held (c : Thread nD τ) (Pipeline.ucRefs τ sig) (V17 m o c) ∗ ⌜P0 m o c ∧ P1 m o c⌝))
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl,
      fun c => ?_, fun c => ?_, fun c => ?_⟩)
    (hinit := ?_) (QY := fun c s => Fin17 m s c) (hfin := fun c s' => ?_) (hQ := fun _ h => h)
  · -- into the second region: the ghost copy is handed over
    show iprop(∃ o : Outs (F := F), StableHlo.held (c : Thread nD τ) (Pipeline.ucRefs τ sig) (V15 m o c) ∗ (⌜P0 m o c⌝ ∗ Rst c ∗ Gh c))
      ⊢ iprop(∃ o : Outs (F := F), (StableHlo.held (c : Thread nD τ) (Pipeline.ucRefs τ sig) (V15 m o c) ∗ (⌜P0 m o c⌝ ∗ Rst c)) ∗ Gh c)
    iintro ⟨%o, Hh, %hP, HR, HG⟩
    iexists o
    isplitr [HG]; swap; · iexact HG
    isplitl [Hh]; · iexact Hh
    isplitr; · ipureintro; exact hP
    iexact HR
  · -- out of it
    show iprop(∃ o : Outs (F := F), ∃ o' : Outs (F := F), StableHlo.held (c : Thread nD τ) (Pipeline.ucRefs τ sig) (V16 m o' c) ∗ (⌜P0 m o' c ∧ P1 m o' c⌝ ∗ Rst c))
      ⊢ iprop(∃ o' : Outs (F := F), StableHlo.held (c : Thread nD τ) (Pipeline.ucRefs τ sig) (V16 m o' c) ∗ (⌜P0 m o' c ∧ P1 m o' c⌝ ∗ Rst c))
    iintro ⟨%o, %o', H⟩
    iexists o'
    iexact H
  · -- the last state
    show iprop(∃ o : Outs (F := F), StableHlo.held (c : Thread nD τ) (Pipeline.ucRefs τ sig) (V17 m o c) ∗ (⌜P0 m o c ∧ P1 m o c⌝ ∗ Rst c))
      ⊢ iprop((∃ o : Outs (F := F), StableHlo.held (c : Thread nD τ) (Pipeline.ucRefs τ sig) (V17 m o c) ∗ ⌜P0 m o c ∧ P1 m o c⌝)
          ∗ ∃ W, owes (c.tc : Thread nD τ) (0 : CellTallies nD τ sig Unit) W)
    iintro ⟨%o, Hh, %hP, -, HO⟩
    isplitl [Hh]
    · iexists o
      isplitl [Hh]; · iexact Hh
      ipureintro; exact hP
    iexact HO
  · -- the launch
    have hcore : ∀ c : Dev nD, iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ Gh c)
        ⊢ (iprop(StableHlo.held (c : Thread nD τ) (Pipeline.ucRefs τ sig) (V0 m c) ∗ (Rst c ∗ Gh c)) : sProp 𝕄) := fun c => by
      rw [← Pipeline.unscopedBufs_held (Ix := Unit) (Name := ℕ) (U := UU) (Lvl := ℕ) c (V0 m c)]
      iintro ⟨Hb, -, HO, -, Hg, HG⟩
      isplitl [Hb]; · iexact Hb
      isplitr [HG]; swap; · iexact HG
      isplitl [Hg]; · iexists _; iexact Hg
      iexists ∅; iexact HO
    have hbig : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ Gh c))
        ⊢ (bigSep Finset.univ fun c : Dev nD => iprop(StableHlo.held (c : Thread nD τ) (Pipeline.ucRefs τ sig) (V0 m c) ∗ (Rst c ∗ Gh c)) : sProp 𝕄) :=
      bigSep_mono fun c _ => hcore c
    iintro ⟨H, -⟩
    imodintro
    iapply hbig
    iexact H
  · -- the end: every unscoped buffer read off the last valuation
    unfold StableHlo.held
    iintro ⟨⟨%o, Hh, %hP⟩, HSI⟩
    ihave Hr := (pointsTo_read_all (Pipeline.ucRefs τ sig) (fun b => ((c : Thread nD τ).1, b)) (V17 m o c) s') $$ [Hh HSI]
    · isplitl [Hh] <;> iassumption
    icases Hr with ⟨%h, HSI⟩
    imodintro
    isplitr
    · ipureintro
      exact ⟨o, hP.1, hP.2, h (Proc.devRef .tc main_v31) (Finset.mem_filter.mpr ⟨StableHlo.devRef_mem_tcRefs main_v31, by decide⟩),
        (h (Proc.devRef .tc main_arg0) (Finset.mem_filter.mpr ⟨StableHlo.devRef_mem_tcRefs main_arg0, by decide⟩)).trans (V17_main_arg0 m o c),
        (h (Proc.devRef .tc main_arg1) (Finset.mem_filter.mpr ⟨StableHlo.devRef_mem_tcRefs main_arg1, by decide⟩)).trans (V17_main_arg1 m o c),
        (h (Proc.devRef .tc main_arg2) (Finset.mem_filter.mpr ⟨StableHlo.devRef_mem_tcRefs main_arg2, by decide⟩)).trans (V17_main_arg2 m o c),
        (h (Proc.devRef .tc main_arg3) (Finset.mem_filter.mpr ⟨StableHlo.devRef_mem_tcRefs main_arg3, by decide⟩)).trans (V17_main_arg3 m o c),
        (h (Proc.devRef .tc main_arg4) (Finset.mem_filter.mpr ⟨StableHlo.devRef_mem_tcRefs main_arg4, by decide⟩)).trans (V17_main_arg4 m o c),
        (h (Proc.devRef .tc main_arg5) (Finset.mem_filter.mpr ⟨StableHlo.devRef_mem_tcRefs main_arg5, by decide⟩)).trans (V17_main_arg5 m o c),
        (h (Proc.devRef .tc main_arg6) (Finset.mem_filter.mpr ⟨StableHlo.devRef_mem_tcRefs main_arg6, by decide⟩)).trans (V17_main_arg6 m o c),
        (h (Proc.devRef .tc main_arg7) (Finset.mem_filter.mpr ⟨StableHlo.devRef_mem_tcRefs main_arg7, by decide⟩)).trans (V17_main_arg7 m o c),
        (h (Proc.devRef .tc main_arg8) (Finset.mem_filter.mpr ⟨StableHlo.devRef_mem_tcRefs main_arg8, by decide⟩)).trans (V17_main_arg8 m o c),
        (h (Proc.devRef .tc main_arg9) (Finset.mem_filter.mpr ⟨StableHlo.devRef_mem_tcRefs main_arg9, by decide⟩)).trans (V17_main_arg9 m o c),
        (h (Proc.devRef .tc main_arg10) (Finset.mem_filter.mpr ⟨StableHlo.devRef_mem_tcRefs main_arg10, by decide⟩)).trans (V17_main_arg10 m o c),
        (h (Proc.devRef .tc main_arg11) (Finset.mem_filter.mpr ⟨StableHlo.devRef_mem_tcRefs main_arg11, by decide⟩)).trans (V17_main_arg11 m o c),
        (h (Proc.devRef .tc main_arg12) (Finset.mem_filter.mpr ⟨StableHlo.devRef_mem_tcRefs main_arg12, by decide⟩)).trans (V17_main_arg12 m o c),
        (h (Proc.devRef .tc main_arg13) (Finset.mem_filter.mpr ⟨StableHlo.devRef_mem_tcRefs main_arg13, by decide⟩)).trans (V17_main_arg13 m o c),
        (h (Proc.devRef .tc main_arg14) (Finset.mem_filter.mpr ⟨StableHlo.devRef_mem_tcRefs main_arg14, by decide⟩)).trans (V17_main_arg14 m o c)⟩
    · iexact HSI

end Cert.Kernel.Hand

end
-- ==== Proof.LibPlainDot.lean ====
/-
  A plain matrix product read at an index.

  For the dimension numbers of an `M x K` by `K x N` product (contract the left operand's columns with the right
  operand's rows, no batch axis) the contraction index is one coordinate `k < K`, the left operand is read at
  `(row, k)` and the right at `(k, column)`. So at the ideal instance both the matrix unit's product into a zero
  accumulator and the host's `dot_general` are, at output index `(r, c)`, the sum over `k` of `l (r, k) * r (k, c)`.
-/
import Idealize.ShloMosaic.PureOps.Ideal.Laws
import Idealize.ShloMosaic.Lib.ValueIdx

noncomputable section

namespace Cert.Lib.PlainDot

open Idealize.ShloMosaic Idealize.ShloMosaic.ValueIdx

variable (M K N : ℕ)

theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The contraction sum of a plain product, over the contracted coordinate. -/
theorem sum_plain {α : Type*} [AddCommMonoid α] (f : (⟨2, ![M, K]⟩ : Shape).Idx → (⟨2, ![K, N]⟩ : Shape).Idx → α)
    (i : (⟨2, ![M, N]⟩ : Shape).Idx) :
    ∑ q : (DotDims.plain M K N).contr.Idx, f ((DotDims.plain M K N).lhsIdx i q) ((DotDims.plain M K N).rhsIdx i q)
      = ∑ k : Fin K, f (ix2 (i 0) k) (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact lhs0 M K N _ _
      | ⟨1, _⟩ => exact ((DotDims.plain M K N).lhsIdx_val_of_single (cl := 1) rfl i _).trans hk)
  have er : (DotDims.plain M K N).rhsIdx i ((contrEquiv1 (DotDims.plain M K N) K rfl rfl).symm k) = ix2 k (i 1) :=
    funext fun a => Fin.ext (by
      match a with
      | ⟨0, _⟩ => exact ((DotDims.plain M K N).rhsIdx_val_of_single (cr := 0) rfl i _).trans hk
      | ⟨1, _⟩ => exact rhs1 M K N _ _)
  rw [el, er]
  rfl

/-- The matrix unit's product into a zero accumulator, at an index. -/
theorem matmul_zero_apply {φ₁ φ₂ : FTy} (prec : Option ContractPrecision)
    (l : FVec Ideal ⟨2, ![M, K]⟩ φ₁) (r : FVec Ideal ⟨2, ![K, N]⟩ φ₂) (i : (⟨2, ![M, N]⟩ : Shape).Idx) :
    FloatOps.matmul (DotDims.plain M K N) prec l r (constant ⟨2, ![M, N]⟩ .f32 0x00000000#32) i
      = ∑ k : Fin K, l (ix2 (i 0) k) * r (ix2 k (i 1)) := by
  rw [Ideal.matmul_constant_zero_apply]
  exact sum_plain M K N (fun a b => l a * r b) i

/-- The host's `dot_general`, at an index. -/
theorem dotGeneral_apply {φ₁ φ₂ : FTy} (prec : Option ContractPrecision) (sched : HostSchedule)
    (l : FVec Ideal ⟨2, ![M, K]⟩ φ₁) (r : FVec Ideal ⟨2, ![K, N]⟩ φ₂) (i : (⟨2, ![M, N]⟩ : Shape).Idx) :
    FloatOps.dotGeneral (DotDims.plain M K N) prec sched l r i
      = ∑ k : Fin K, l (ix2 (i 0) k) * r (ix2 k (i 1)) := by
  rw [Ideal.dotGeneral_apply]
  exact sum_plain M K N (fun a b => l a * r b) i

end Cert.Lib.PlainDot

end
-- ==== Proof.IdealPayloads.lean ====
/-
  The kernel's four pure payloads read at an index, at the ideal instance.

  Layer 1 accumulates a 1024 x 2048 block over the reduction steps. Its first payload is the zero splat the accumulator
  starts from. Its second adds to the accumulator the product of a 1024 x 1280 block of the input with a 1280 x 2048
  block of the weights: at the index (r, q), the sum over j of x (r, j) * w (j, q). Its third is the epilogue
  max (acc + bias, 0) * scale + shift, where bias, scale and shift are single rows repeated over the 1024 rows, followed
  by a change of format that is the identity on the extended reals. Layer 2's payload is
  tanh ((h w + bias) * scale + shift), with the same convention for the three rows.

  Every shape cast here is to the same shape, hence the identity; a row repeated over many rows reads, at (r, q), the
  row's entry in column q; the matrix unit's product into a zero accumulator is the sum over the contracted coordinate
  (the plain product's dimension numbers are exactly the two records of this kernel).
-/
import proofs.«171824_j50646254354906_2_alg».proof.Proof.Gen.KernelIdeal.Skeleton
import proofs.«171824_j50646254354906_2_alg».proof.Proof.LibPlainDot
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Payloads

open Cert.KernelIdeal Cert.KernelIdeal.Gen Idealize.ShloMosaic Idealize.ShloMosaic.ValueIdx

/-- Layer 1's dimension numbers are the plain 1024 x 1280 by 1280 x 2048 product's. -/
theorem dot1_eq : dot_S1024x1280_S1280x2048_S1024x2048_1_0_0_1_n_n = DotDims.plain 1024 1280 2048 := rfl

/-- Layer 2's dimension numbers are the plain 1024 x 4000 by 4000 x 512 product's. -/
theorem dot2_eq : dot_S1024x4000_S4000x512_S1024x512_1_0_0_1_n_n = DotDims.plain 1024 4000 512 := rfl

/-- The accumulator's initial value: zero everywhere. -/
theorem pay1_apply (r : Fin 1024) (q : Fin 2048) : k0_pay1 (F := Ideal) (ix2 r q) = 0 := by
  unfold k0_pay1
  simp only [shapeCast_self, broadcast_apply]
  exact Ideal.ofBits_zero_f32

/-- One reduction step: the accumulator plus the block product, at an index. -/
theorem pay2_apply (acc : Vec Ideal S1024x2048 .f32) (x : Vec Ideal S1024x1280 .bf16) (w : Vec Ideal S1280x2048 .bf16)
    (r : Fin 1024) (q : Fin 2048) :
    k0_pay2 acc x w (ix2 r q) = acc (ix2 r q) + ∑ j : Fin 1280, x (ix2 r j) * w (ix2 j q) := by
  unfold k0_pay2
  simp only [shapeCast_self, dot1_eq]
  rw [addf_apply]
  refine congrArg (acc (ix2 r q) + ·) ?_
  exact Cert.Lib.PlainDot.matmul_zero_apply 1024 1280 2048 none x w (ix2 r q)

/-- The epilogue: the rectified, scaled and shifted accumulator, at an index. -/
theorem pay3_apply (acc : Vec Ideal S1024x2048 .f32) (b s t : Vec Ideal S1x2048 .f32) (r : Fin 1024) (q : Fin 2048) :
    k0_pay3 acc b s t (ix2 r q)
      = max (acc (ix2 r q) + b (ix2 (0 : Fin 1) q)) 0 * s (ix2 (0 : Fin 1) q) + t (ix2 (0 : Fin 1) q) := by
  unfold k0_pay3
  simp only [shapeCast_self]
  rw [truncf_apply, addf_apply, mulf_apply, maximumf_apply, addf_apply, broadcast_apply,
    broadcastTo_1b_ab_apply, broadcastTo_1b_ab_apply, broadcastTo_1b_ab_apply]
  rw [show (Scalar.ofBits .f32 0x00000000#32 : Ideal .f32) = 0 from Ideal.ofBits_zero_f32]

/-- Layer 2: the hyperbolic tangent of the scaled and shifted product plus bias, at an index. -/
theorem k1_pay1_apply (h : Vec Ideal S1024x4000 .bf16) (w : Vec Ideal S4000x512 .bf16) (b s t : Vec Ideal S1x512 .f32)
    (r : Fin 1024) (q : Fin 512) :
    k1_pay1 h w b s t (ix2 r q)
      = Ideal.tanh ((∑ g : Fin 4000, h (ix2 r g) * w (ix2 g q) + b (ix2 (0 : Fin 1) q)) * s (ix2 (0 : Fin 1) q)
          + t (ix2 (0 : Fin 1) q)) := by
  unfold k1_pay1
  simp only [shapeCast_self, dot2_eq]
  show Ideal.tanh _ = _
  rw [addf_apply, mulf_apply, addf_apply,
    broadcastTo_1b_ab_apply, broadcastTo_1b_ab_apply, broadcastTo_1b_ab_apply]
  refine congrArg
    (fun z => Ideal.tanh ((z + b (ix2 (0 : Fin 1) q)) * s (ix2 (0 : Fin 1) q) + t (ix2 (0 : Fin 1) q))) ?_
  exact Cert.Lib.PlainDot.matmul_zero_apply 1024 4000 512 none h w (ix2 r q)

end Cert.KernelIdeal.Payloads

end
-- ==== Proof.IdealSums.lean ====
/-
  Sums over a contraction axis cut into equal blocks and padded with zeros.

  A sum over p consecutive blocks of q terms is the sum over the p·q terms; terms past the true
  extent that are zero contribute nothing; and an accumulator that starts at zero and adds one block
  sum per step holds, after step k, the sum of the first k + 1 block sums. Only that addition on the
  extended reals is a commutative monoid, and 0 · 0 = 0, is used.
-/
import Mathlib.Data.EReal.Basic
import Mathlib.Algebra.BigOperators.Fin
import Mathlib.Algebra.BigOperators.Intervals

open scoped BigOperators

namespace Cert.Sums

/-- A sum over `p` consecutive blocks of `q` terms is the sum over the first `p * q` terms. -/
theorem sum_blocks {M : Type*} [AddCommMonoid M] (f : ℕ → M) (p q : ℕ) :
    ∑ k ∈ Finset.range p, ∑ j ∈ Finset.range q, f (k * q + j) = ∑ c ∈ Finset.range (p * q), f c := by
  induction p with
  | zero => simp
  | succ p ih => rw [Finset.sum_range_succ, ih, Nat.succ_mul, Finset.sum_range_add]

/-- A sum over `n + e` terms of which those from `n` on are zero is the sum over the first `n`. -/
theorem sum_range_pad {M : Type*} [AddCommMonoid M] (f : ℕ → M) (n e : ℕ) (hf : ∀ c, n ≤ c → f c = 0) :
    ∑ c ∈ Finset.range (n + e), f c = ∑ c ∈ Finset.range n, f c := by
  rw [Finset.sum_range_add, Finset.sum_eq_zero (fun x _ => hf (n + x) (Nat.le_add_right n x)), add_zero]

/-- Blocks of a zero-padded axis: `p` blocks of `q` terms covering `n + e = p * q` indices, the terms
    from `n` on zero, sum to the sum over the true extent `n`, indexed by `Fin n`. -/
theorem sum_blocks_pad {M : Type*} [AddCommMonoid M] (f : ℕ → M) (p q n e : ℕ) (hpq : p * q = n + e)
    (hf : ∀ c, n ≤ c → f c = 0) :
    ∑ k ∈ Finset.range p, ∑ j : Fin q, f (k * q + j.val) = ∑ c : Fin n, f c.val := by
  have hblock : ∀ k ∈ Finset.range p, ∑ j : Fin q, f (k * q + j.val) = ∑ j ∈ Finset.range q, f (k * q + j) :=
    fun k _ => Fin.sum_univ_eq_sum_range (fun j => f (k * q + j)) q
  rw [Finset.sum_congr rfl hblock, sum_blocks f p q, hpq, sum_range_pad f n e hf]
  exact (Fin.sum_univ_eq_sum_range f n).symm

/-- The first contraction: 16 blocks of 1280 over an axis of extent 20000 padded with zeros to 20480. -/
theorem blocks_pad_sum (a b : ℕ → EReal) (ha : ∀ c, 20000 ≤ c → a c = 0) (hb : ∀ c, 20000 ≤ c → b c = 0) :
    ∑ k ∈ Finset.range 16, ∑ j : Fin 1280, a (k * 1280 + j.val) * b (k * 1280 + j.val)
      = ∑ c : Fin 20000, a c.val * b c.val :=
  sum_blocks_pad (fun c => a c * b c) 16 1280 20000 480 (by norm_num)
    (fun c hc => by rw [ha c hc, hb c hc, mul_zero])

/-- An accumulator that starts at zero and adds one term per step holds, after step `k`, the sum of
    the first `k + 1` terms. -/
theorem fold_eq (s : ℕ → EReal) (acc : ℕ → EReal) (h0 : acc 0 = 0 + s 0) (hs : ∀ k, acc (k + 1) = acc k + s (k + 1))
    (k : ℕ) : acc k = ∑ k' ∈ Finset.range (k + 1), s k' := by
  induction k with
  | zero => rw [h0, zero_add, Finset.sum_range_one]
  | succ k ih => rw [hs, ih, Finset.sum_range_succ s (k + 1)]

end Cert.Sums
-- ==== Proof.IdealValue0.lean ====
/-
  Region 0's value at the ideal instance.

  The first layer runs on a grid of 64 points t = (m * 2 + n) * 16 + k: output block (m, n) of 1024 x 2048 entries
  is accumulated over the sixteen reduction steps k and written back at k = 15; the column block n = 1 overhangs
  the arrays of 4000 columns, and only its first 1952 columns are moved by a fetch or a write-back.

  What the output array may hold after the region is its entry contents overwritten, in point order, at each
  flushing point by the moved part of some contents the body may have left there. Every entry (r, g) of the
  array lies in the moved part of the block (r / 1024, g / 2048), so it holds an entry of contents the body left
  at a last reduction step: the epilogue of an accumulator that unrolls, step by step, into sixteen sums of 1280
  products of entries of the two operand blocks the body found. A block just fetched holds the array's entries on
  the part the fetch moves, and an output column q reads the weight block's and the three rows' column q only, so
  for an output column inside the array nothing past the arrays' end is read. The three rows are fetched at the
  first reduction step of a run and left as found in between, so what the body finds of them at the last step is
  what that fetch landed. The sixteen block sums are the sum over the padded contraction axis of 20480.

  The grid's index maps, cuts and schedule are decided once over the 64 points.
-/
import proofs.«171824_j50646254354906_2_alg».proof.Proof.IdealData
import proofs.«171824_j50646254354906_2_alg».proof.Proof.IdealPayloads
import proofs.«171824_j50646254354906_2_alg».proof.Proof.IdealSums
import Idealize.ShloMosaic.Lib.Pipeline.Cells
import Idealize.ShloMosaic.Lib.Pipeline.Value
import Idealize.ShloMosaic.Lib.ValueIdx

set_option maxRecDepth 16384

/-! ## What an output array holds after the write-backs, element by element, over relational data

A property that holds of every element of the moved part of every contents the body may leave at a
flushing point holds, after the write-backs below a position, of every array element that some
flushing point below it covers: the last point that wrote the element wrote a value with the property. -/

namespace Cert.Lib.RArr

open Idealize.SL Idealize.SL.RA
open Idealize.ShloMosaic Idealize.ShloMosaic.TcCoe Idealize.ShloMosaic.Pipeline

variable {nD : Nat} {τ : Topo} {sig : RefSig} {Val : EltTy → Type} {Λ₀ : Idealize.SL.Sem.Labels}
variable {Ix : Type} [DecidableEq Ix] {Name : Type} [DecidableEq Name] {U : Type} [URA U] {Lvl : Type}
variable {cfg : Cfg sig Λ₀} {c : Dev nD} (rd : RDat τ Val Ix Name U Lvl cfg c)

theorem arrAt_forall_of_leaves (w : Fin cfg.W)
    (P : ((cfg.win w).arr.view.loc (c.tc : Thread nD τ)).2.ty.Idx → Val ((cfg.win w).arr.view.loc (c.tc : Thread nD τ)).2.ty.elt → Prop)
    (hP : ∀ t, (cfg.win w).flush t = true → ∀ X, rd.Leaves w t X → ∀ y : ((cfg.win w).xblock (cfg.grid.coords t)).Idx,
      P (((cfg.win w).blk t).view.emb y)
        (_root_.cast (congrArg Val ((cfg.win w).blk t).view.elt_eq.symm) ((cfg.win w).cut (cfg.grid.coords t) X y))) :
    ∀ (n : Nat) (G : Buf Val ((cfg.win w).arr.view.loc (c.tc : Thread nD τ))), rd.ArrAt w n G →
      ∀ (t : Fin cfg.N) (i : ((cfg.win w).arr.view.loc (c.tc : Thread nD τ)).2.ty.Idx),
        t.val < n → (cfg.win w).flush t = true → i ∈ ((cfg.win w).blk t).view.set → P i (G i)
  | 0, _, _, _, _, ht, _, _ => absurd ht (Nat.not_lt_zero _)
  | n + 1, G, hG, t, i, ht, hf, hi => by
    by_cases hn : n < cfg.N
    swap
    · have hG' : rd.ArrAt w n G := by
        rw [rd.ArrAt_stable w (n + 1) (by omega), ← rd.ArrAt_stable w n (by omega)] at hG
        exact hG
      exact arrAt_forall_of_leaves w P hP n G hG' t i (by have := t.isLt; omega) hf hi
    have hs := rd.ArrAt_succ w ⟨n, hn⟩
    rw [show (⟨n, hn⟩ : Fin cfg.N).val + 1 = n + 1 from rfl] at hs
    rw [hs] at hG
    by_cases hfn : (cfg.win w).flush ⟨n, hn⟩ = true
    · rw [if_pos hfn] at hG
      obtain ⟨G₀, X, hG₀, hX, rfl⟩ := hG
      by_cases hin : i ∈ ((cfg.win w).blk ⟨n, hn⟩).view.set
      · obtain ⟨y, -, rfl⟩ := Finset.mem_map.mp hin
        rw [View.write_emb_of_mem _ _ (Finset.mem_univ y)]
        exact hP _ hfn X hX y
      · rw [View.write_of_not_mem _ _ _ (by rwa [View.setOn_univ])]
        have htn : t.val ≠ n := fun e => hin (by have : t = ⟨n, hn⟩ := Fin.ext e; exact this ▸ hi)
        exact arrAt_forall_of_leaves w P hP n G₀ hG₀ t i (by omega) hf hi
    · rw [if_neg hfn] at hG
      have htn : t.val ≠ n := fun e => hfn (by have : t = ⟨n, hn⟩ := Fin.ext e; exact this ▸ hf)
      exact arrAt_forall_of_leaves w P hP n G hG t i (by omega) hf hi

/-- A window the body leaves as found, at a point that does not fetch it and is not the first: what the body
    finds there it found at the point before (an input is never written back). -/
theorem finds_pred_of_kept (w : Fin cfg.W) (hin : (cfg.win w).isOut = false)
    (hafter : ∀ t Y X, rd.after w t Y X → X = Y) (t : Fin cfg.N) (hf : (cfg.win w).fetch t = false) (ht : t.val ≠ 0)
    (X : (cfg.win w).block.Idx → Val (cfg.win w).elt) (h : rd.Finds w t X) :
    rd.Finds w ⟨t.val - 1, Nat.lt_of_le_of_lt (Nat.sub_le _ _) t.isLt⟩ X := by
  rw [rd.finds_of_pos hf ht] at h
  rcases h with h | ⟨Y, hY, hXY⟩
  · simp [Window.flush, hin] at h
  · rw [hafter _ _ _ hXY]; exact hY

/-- What a fetch lands at a block index it moves: the array's element under it. -/
theorem fetched_apply_of_moved (w : Fin cfg.W) (t : Fin cfg.N) (d : (cfg.win w).block.Idx → Val (cfg.win w).elt)
    (j : (cfg.win w).block.Idx) (h : (cfg.win w).moved (cfg.grid.coords t) j = true) :
    rd.fetched w t d j
      = ((cfg.win w).blk t).view.read Val (rd.A w) (fun a => ⟨(j a).val, ((cfg.win w).moved_iff _ j).mp h a⟩) := by
  unfold RDat.fetched Window.fill
  rw [dif_pos h]; rfl

end Cert.Lib.RArr

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat RDat Cfg Window cellOf)
open scoped BigOperators

variable (V : (c : Dev nD) → (b : Ref sig .tc) → Buf (Elt Ideal) ((c : Thread nD τ).loc b))

/-- The five input arrays of region 0 at its entry, as functions into the extended reals. -/
abbrev inX (c : Dev nD) : S2048x20480.Idx → EReal := V c main_v4
abbrev inW (c : Dev nD) : S20480x4000.Idx → EReal := V c main_v2
abbrev inB (c : Dev nD) : S1x4000.Idx → EReal := V c main_v13
abbrev inS (c : Dev nD) : S1x4000.Idx → EReal := V c main_v11
abbrev inT (c : Dev nD) : S1x4000.Idx → EReal := V c main_v12

/-! ## The grid's schedule and block geometry, decided over its 64 points

Point t = (m * 2 + n) * 16 + k. The output is written back at the last reduction steps; the two matrix operands
are fetched at every point, the three rows where the column block changes, that is at the first reduction steps.
Block indices: x at (m, k), the weights at (k, n), the rows at (0, n), the output at (m, n); on the column axis of
length 4000 the block n = 1 is cut to its first 1952 columns. -/

theorem flush5 : ∀ t : Fin cfg0.N, (cfg0.win 5).flush t = true ↔ t.val % 16 = 15 :=
  (by decide +kernel : ∀ t : Fin grid0.N, (win0_5).flush t = true ↔ t.val % 16 = 15)
theorem fetch0 : ∀ t : Fin cfg0.N, (cfg0.win 0).fetch t = true :=
  (by decide +kernel : ∀ t : Fin grid0.N, (win0_0).fetch t = true)
theorem fetch1 : ∀ t : Fin cfg0.N, (cfg0.win 1).fetch t = true :=
  (by decide +kernel : ∀ t : Fin grid0.N, (win0_1).fetch t = true)
theorem fetch2 : ∀ t : Fin cfg0.N, (cfg0.win 2).fetch t = true ↔ t.val % 16 = 0 :=
  (by decide +kernel : ∀ t : Fin grid0.N, (win0_2).fetch t = true ↔ t.val % 16 = 0)
theorem fetch3 : ∀ t : Fin cfg0.N, (cfg0.win 3).fetch t = true ↔ t.val % 16 = 0 :=
  (by decide +kernel : ∀ t : Fin grid0.N, (win0_3).fetch t = true ↔ t.val % 16 = 0)
theorem fetch4 : ∀ t : Fin cfg0.N, (cfg0.win 4).fetch t = true ↔ t.val % 16 = 0 :=
  (by decide +kernel : ∀ t : Fin grid0.N, (win0_4).fetch t = true ↔ t.val % 16 = 0)
theorem geom0 : ∀ t : Fin cfg0.N, (cfg0.win 0).index t 0 = t.val / 32 ∧ (cfg0.win 0).index t 1 = t.val % 16
    ∧ (cfg0.win 0).xsize (cfg0.grid.coords t) 0 = 1024 ∧ (cfg0.win 0).xsize (cfg0.grid.coords t) 1 = 1280 :=
  (by decide +kernel : ∀ t : Fin grid0.N, win0_0.index t 0 = t.val / 32 ∧ win0_0.index t 1 = t.val % 16
    ∧ win0_0.xsize (grid0.coords t) 0 = 1024 ∧ win0_0.xsize (grid0.coords t) 1 = 1280)
theorem geom1 : ∀ t : Fin cfg0.N, (cfg0.win 1).index t 0 = t.val % 16 ∧ (cfg0.win 1).index t 1 = t.val / 16 % 2
    ∧ (cfg0.win 1).xsize (cfg0.grid.coords t) 0 = 1280 ∧ (cfg0.win 1).xsize (cfg0.grid.coords t) 1 = 4000 - t.val / 16 % 2 * 2048 - (1 - t.val / 16 % 2) * 1952 :=
  (by decide +kernel : ∀ t : Fin grid0.N, win0_1.index t 0 = t.val % 16 ∧ win0_1.index t 1 = t.val / 16 % 2
    ∧ win0_1.xsize (grid0.coords t) 0 = 1280 ∧ win0_1.xsize (grid0.coords t) 1 = 4000 - t.val / 16 % 2 * 2048 - (1 - t.val / 16 % 2) * 1952)
theorem geom2 : ∀ t : Fin cfg0.N, (cfg0.win 2).index t 0 = 0 ∧ (cfg0.win 2).index t 1 = t.val / 16 % 2
    ∧ (cfg0.win 2).xsize (cfg0.grid.coords t) 0 = 1 ∧ (cfg0.win 2).xsize (cfg0.grid.coords t) 1 = 4000 - t.val / 16 % 2 * 2048 - (1 - t.val / 16 % 2) * 1952 :=
  (by decide +kernel : ∀ t : Fin grid0.N, win0_2.index t 0 = 0 ∧ win0_2.index t 1 = t.val / 16 % 2
    ∧ win0_2.xsize (grid0.coords t) 0 = 1 ∧ win0_2.xsize (grid0.coords t) 1 = 4000 - t.val / 16 % 2 * 2048 - (1 - t.val / 16 % 2) * 1952)
theorem geom3 : ∀ t : Fin cfg0.N, (cfg0.win 3).index t 0 = 0 ∧ (cfg0.win 3).index t 1 = t.val / 16 % 2
    ∧ (cfg0.win 3).xsize (cfg0.grid.coords t) 0 = 1 ∧ (cfg0.win 3).xsize (cfg0.grid.coords t) 1 = 4000 - t.val / 16 % 2 * 2048 - (1 - t.val / 16 % 2) * 1952 :=
  (by decide +kernel : ∀ t : Fin grid0.N, win0_3.index t 0 = 0 ∧ win0_3.index t 1 = t.val / 16 % 2
    ∧ win0_3.xsize (grid0.coords t) 0 = 1 ∧ win0_3.xsize (grid0.coords t) 1 = 4000 - t.val / 16 % 2 * 2048 - (1 - t.val / 16 % 2) * 1952)
theorem geom4 : ∀ t : Fin cfg0.N, (cfg0.win 4).index t 0 = 0 ∧ (cfg0.win 4).index t 1 = t.val / 16 % 2
    ∧ (cfg0.win 4).xsize (cfg0.grid.coords t) 0 = 1 ∧ (cfg0.win 4).xsize (cfg0.grid.coords t) 1 = 4000 - t.val / 16 % 2 * 2048 - (1 - t.val / 16 % 2) * 1952 :=
  (by decide +kernel : ∀ t : Fin grid0.N, win0_4.index t 0 = 0 ∧ win0_4.index t 1 = t.val / 16 % 2
    ∧ win0_4.xsize (grid0.coords t) 0 = 1 ∧ win0_4.xsize (grid0.coords t) 1 = 4000 - t.val / 16 % 2 * 2048 - (1 - t.val / 16 % 2) * 1952)
theorem geom5 : ∀ t : Fin cfg0.N, (cfg0.win 5).index t 0 = t.val / 32 ∧ (cfg0.win 5).index t 1 = t.val / 16 % 2
    ∧ (cfg0.win 5).xsize (cfg0.grid.coords t) 0 = 1024 ∧ (cfg0.win 5).xsize (cfg0.grid.coords t) 1 = 4000 - t.val / 16 % 2 * 2048 - (1 - t.val / 16 % 2) * 1952 :=
  (by decide +kernel : ∀ t : Fin grid0.N, win0_5.index t 0 = t.val / 32 ∧ win0_5.index t 1 = t.val / 16 % 2
    ∧ win0_5.xsize (grid0.coords t) 0 = 1024 ∧ win0_5.xsize (grid0.coords t) 1 = 4000 - t.val / 16 % 2 * 2048 - (1 - t.val / 16 % 2) * 1952)

theorem t_lt (t : Fin cfg0.N) : t.val < 64 := t.isLt.trans_eq N_0

/-! ## What the body finds in the input windows, at an index inside the array -/

/-- The input block found at a point: the input's entries of rows m * 1024 .. and columns k * 1280 ... -/
theorem finds0_apply (c : Dev nD) (t : Fin cfg0.N) (Y : Vec Ideal S1024x1280 .bf16) (h : (rdIn0 (F := Ideal) V c).Finds 0 t Y)
    (a : Fin 1024) (b : Fin 1280) :
    Y (ix2 a b) = inX V c (ix2 ⟨t.val / 32 * 1024 + a.val, by have := t_lt t; have := a.isLt; omega⟩
      ⟨t.val % 16 * 1280 + b.val, by have := b.isLt; omega⟩) := by
  obtain ⟨d, rfl⟩ := ((rdIn0 (F := Ideal) V c).finds_of_fetch (fetch0 t) Y).mp h
  have hm : (cfg0.win 0).moved (cfg0.grid.coords t) (ix2 a b) = true := by
    rw [Window.moved_iff]; intro ax
    match ax with
    | ⟨0, _⟩ => exact lt_of_lt_of_eq a.isLt (geom0 t).2.2.1.symm
    | ⟨1, _⟩ => exact lt_of_lt_of_eq b.isLt (geom0 t).2.2.2.symm
  rw [Cert.Lib.RArr.fetched_apply_of_moved _ 0 t d _ hm]
  show inX V c _ = inX V c _
  congr 1
  funext ax; apply Fin.ext
  match ax with
  | ⟨0, _⟩ => exact ((cfg0.win 0).rect_emb_val t _ 0).trans (by rw [(geom0 t).1]; rfl)
  | ⟨1, _⟩ => exact ((cfg0.win 0).rect_emb_val t _ 1).trans (by rw [(geom0 t).2.1]; rfl)

/-- The weight block found at a point, at a column inside the array: the weights' entries of rows k * 1280 ..
    and columns n * 2048 ... -/
theorem finds1_apply (c : Dev nD) (t : Fin cfg0.N) (Y : Vec Ideal S1280x2048 .bf16) (h : (rdIn0 (F := Ideal) V c).Finds 1 t Y)
    (a : Fin 1280) (b : Fin 2048) (hb : t.val / 16 % 2 * 2048 + b.val < 4000) :
    Y (ix2 a b) = inW V c (ix2 ⟨t.val % 16 * 1280 + a.val, by have := a.isLt; omega⟩ ⟨t.val / 16 % 2 * 2048 + b.val, hb⟩) := by
  obtain ⟨d, rfl⟩ := ((rdIn0 (F := Ideal) V c).finds_of_fetch (fetch1 t) Y).mp h
  have hm : (cfg0.win 1).moved (cfg0.grid.coords t) (ix2 a b) = true := by
    rw [Window.moved_iff]; intro ax
    match ax with
    | ⟨0, _⟩ => exact lt_of_lt_of_eq a.isLt (geom1 t).2.2.1.symm
    | ⟨1, _⟩ => exact lt_of_lt_of_eq (show b.val < 4000 - t.val / 16 % 2 * 2048 - (1 - t.val / 16 % 2) * 1952 by have := b.isLt; omega) (geom1 t).2.2.2.symm
  rw [Cert.Lib.RArr.fetched_apply_of_moved _ 1 t d _ hm]
  show inW V c _ = inW V c _
  congr 1
  funext ax; apply Fin.ext
  match ax with
  | ⟨0, _⟩ => exact ((cfg0.win 1).rect_emb_val t _ 0).trans (by rw [(geom1 t).1]; rfl)
  | ⟨1, _⟩ => exact ((cfg0.win 1).rect_emb_val t _ 1).trans (by rw [(geom1 t).2.1]; rfl)

/-- A window fetched only at the first reduction steps and left as found in between holds, at any point, what
    the fetch at the first step of the point's run landed. -/
theorem finds_back (c : Dev nD) (w : Fin cfg0.W) (hin : (cfg0.win w).isOut = false)
    (hf : ∀ t : Fin cfg0.N, (cfg0.win w).fetch t = true ↔ t.val % 16 = 0)
    (Y : (cfg0.win w).block.Idx → Elt Ideal (cfg0.win w).elt) :
    ∀ (k : ℕ) (t : Fin cfg0.N), t.val % 16 = k → (rdIn0 (F := Ideal) V c).Finds w t Y →
      ∃ d, Y = (rdIn0 (F := Ideal) V c).fetched w ⟨t.val - t.val % 16, Nat.lt_of_le_of_lt (Nat.sub_le _ _) t.isLt⟩ d
  | 0, t, hk, h => by
    obtain ⟨d, hd⟩ := ((rdIn0 (F := Ideal) V c).finds_of_fetch ((hf t).mpr hk) Y).mp h
    refine ⟨d, ?_⟩
    have e : (⟨t.val - t.val % 16, Nat.lt_of_le_of_lt (Nat.sub_le _ _) t.isLt⟩ : Fin cfg0.N) = t := Fin.ext (by simp only [hk]; omega)
    rw [e]; exact hd
  | k + 1, t, hk, h => by
    have hnf : (cfg0.win w).fetch t = false := by
      cases hc : (cfg0.win w).fetch t with
      | false => rfl
      | true => exact absurd ((hf t).mp hc) (by omega)
    have h' := Cert.Lib.RArr.finds_pred_of_kept (rdIn0 (F := Ideal) V c) w hin (fun _ _ _ e => e) t hnf (by omega) Y h
    obtain ⟨d, hd⟩ := finds_back c w hin hf Y k ⟨t.val - 1, Nat.lt_of_le_of_lt (Nat.sub_le _ _) t.isLt⟩ (by simp only; omega) h'
    refine ⟨d, ?_⟩
    have e : (⟨(t.val - 1) - (t.val - 1) % 16, Nat.lt_of_le_of_lt (Nat.sub_le _ _) (Nat.lt_of_le_of_lt (Nat.sub_le _ _) t.isLt)⟩ : Fin cfg0.N)
        = ⟨t.val - t.val % 16, Nat.lt_of_le_of_lt (Nat.sub_le _ _) t.isLt⟩ := Fin.ext (by simp only; omega)
    rw [← e]; exact hd

/-- The bias row found at a point, at a column inside the array. -/
theorem finds2_apply (c : Dev nD) (t : Fin cfg0.N) (Y : Vec Ideal S1x2048 .f32) (h : (rdIn0 (F := Ideal) V c).Finds 2 t Y)
    (b : Fin 2048) (hb : t.val / 16 % 2 * 2048 + b.val < 4000) :
    Y (ix2 (0 : Fin 1) b) = inB V c (ix2 (0 : Fin 1) ⟨t.val / 16 % 2 * 2048 + b.val, hb⟩) := by
  obtain ⟨d, rfl⟩ := finds_back V c 2 rfl fetch2 Y _ t rfl h
  generalize ht0 : (⟨t.val - t.val % 16, Nat.lt_of_le_of_lt (Nat.sub_le _ _) t.isLt⟩ : Fin cfg0.N) = t0
  have hq : t0.val / 16 % 2 = t.val / 16 % 2 := by rw [← ht0]; simp only; omega
  have hm : (cfg0.win 2).moved (cfg0.grid.coords t0) (ix2 (0 : Fin 1) b) = true := by
    rw [Window.moved_iff]; intro ax
    match ax with
    | ⟨0, _⟩ => exact lt_of_lt_of_eq Nat.zero_lt_one (geom2 t0).2.2.1.symm
    | ⟨1, _⟩ => exact lt_of_lt_of_eq (show b.val < 4000 - t0.val / 16 % 2 * 2048 - (1 - t0.val / 16 % 2) * 1952 by have := b.isLt; omega) (geom2 t0).2.2.2.symm
  rw [Cert.Lib.RArr.fetched_apply_of_moved _ 2 t0 d _ hm]
  show inB V c _ = inB V c _
  congr 1
  funext ax; apply Fin.ext
  match ax with
  | ⟨0, _⟩ => exact ((cfg0.win 2).rect_emb_val t0 _ 0).trans (by rw [(geom2 t0).1]; rfl)
  | ⟨1, _⟩ => exact ((cfg0.win 2).rect_emb_val t0 _ 1).trans (by rw [(geom2 t0).2.1, hq]; rfl)

/-- The scale row found at a point, at a column inside the array. -/
theorem finds3_apply (c : Dev nD) (t : Fin cfg0.N) (Y : Vec Ideal S1x2048 .f32) (h : (rdIn0 (F := Ideal) V c).Finds 3 t Y)
    (b : Fin 2048) (hb : t.val / 16 % 2 * 2048 + b.val < 4000) :
    Y (ix2 (0 : Fin 1) b) = inS V c (ix2 (0 : Fin 1) ⟨t.val / 16 % 2 * 2048 + b.val, hb⟩) := by
  obtain ⟨d, rfl⟩ := finds_back V c 3 rfl fetch3 Y _ t rfl h
  generalize ht0 : (⟨t.val - t.val % 16, Nat.lt_of_le_of_lt (Nat.sub_le _ _) t.isLt⟩ : Fin cfg0.N) = t0
  have hq : t0.val / 16 % 2 = t.val / 16 % 2 := by rw [← ht0]; simp only; omega
  have hm : (cfg0.win 3).moved (cfg0.grid.coords t0) (ix2 (0 : Fin 1) b) = true := by
    rw [Window.moved_iff]; intro ax
    match ax with
    | ⟨0, _⟩ => exact lt_of_lt_of_eq Nat.zero_lt_one (geom3 t0).2.2.1.symm
    | ⟨1, _⟩ => exact lt_of_lt_of_eq (show b.val < 4000 - t0.val / 16 % 2 * 2048 - (1 - t0.val / 16 % 2) * 1952 by have := b.isLt; omega) (geom3 t0).2.2.2.symm
  rw [Cert.Lib.RArr.fetched_apply_of_moved _ 3 t0 d _ hm]
  show inS V c _ = inS V c _
  congr 1
  funext ax; apply Fin.ext
  match ax with
  | ⟨0, _⟩ => exact ((cfg0.win 3).rect_emb_val t0 _ 0).trans (by rw [(geom3 t0).1]; rfl)
  | ⟨1, _⟩ => exact ((cfg0.win 3).rect_emb_val t0 _ 1).trans (by rw [(geom3 t0).2.1, hq]; rfl)

/-- The shift row found at a point, at a column inside the array. -/
theorem finds4_apply (c : Dev nD) (t : Fin cfg0.N) (Y : Vec Ideal S1x2048 .f32) (h : (rdIn0 (F := Ideal) V c).Finds 4 t Y)
    (b : Fin 2048) (hb : t.val / 16 % 2 * 2048 + b.val < 4000) :
    Y (ix2 (0 : Fin 1) b) = inT V c (ix2 (0 : Fin 1) ⟨t.val / 16 % 2 * 2048 + b.val, hb⟩) := by
  obtain ⟨d, rfl⟩ := finds_back V c 4 rfl fetch4 Y _ t rfl h
  generalize ht0 : (⟨t.val - t.val % 16, Nat.lt_of_le_of_lt (Nat.sub_le _ _) t.isLt⟩ : Fin cfg0.N) = t0
  have hq : t0.val / 16 % 2 = t.val / 16 % 2 := by rw [← ht0]; simp only; omega
  have hm : (cfg0.win 4).moved (cfg0.grid.coords t0) (ix2 (0 : Fin 1) b) = true := by
    rw [Window.moved_iff]; intro ax
    match ax with
    | ⟨0, _⟩ => exact lt_of_lt_of_eq Nat.zero_lt_one (geom4 t0).2.2.1.symm
    | ⟨1, _⟩ => exact lt_of_lt_of_eq (show b.val < 4000 - t0.val / 16 % 2 * 2048 - (1 - t0.val / 16 % 2) * 1952 by have := b.isLt; omega) (geom4 t0).2.2.2.symm
  rw [Cert.Lib.RArr.fetched_apply_of_moved _ 4 t0 d _ hm]
  show inT V c _ = inT V c _
  congr 1
  funext ax; apply Fin.ext
  match ax with
  | ⟨0, _⟩ => exact ((cfg0.win 4).rect_emb_val t0 _ 0).trans (by rw [(geom4 t0).1]; rfl)
  | ⟨1, _⟩ => exact ((cfg0.win 4).rect_emb_val t0 _ 1).trans (by rw [(geom4 t0).2.1, hq]; rfl)

/-! ## The accumulator and the epilogue at an index -/

/-- One product term of output row r and column g, along the padded contraction axis, zero past it. -/
def term (c : Dev nD) (r : Fin 2048) (g : Fin 4000) (k : ℕ) : EReal :=
  if h : k < 20480 then inX V c (ix2 r ⟨k, h⟩) * inW V c (ix2 ⟨k, h⟩ g) else 0

/-- One reduction step at an index inside the array: the accumulator plus the block sum of the step. -/
theorem step_apply (c : Dev nD) (t : Fin cfg0.N) (acc' : Vec Ideal S1024x2048 .f32)
    (Y0 : Vec Ideal S1024x1280 .bf16) (Y1 : Vec Ideal S1280x2048 .bf16)
    (h0 : (rdIn0 (F := Ideal) V c).Finds 0 t Y0) (h1 : (rdIn0 (F := Ideal) V c).Finds 1 t Y1)
    (a : Fin 1024) (b : Fin 2048) (r : Fin 2048) (g : Fin 4000)
    (hr : r.val = t.val / 32 * 1024 + a.val) (hg : g.val = t.val / 16 % 2 * 2048 + b.val) (kk : ℕ) (hk : t.val % 16 = kk) :
    k0_pay2 acc' Y0 Y1 (ix2 a b) = acc' (ix2 a b) + ∑ jj : Fin 1280, term V c r g (kk * 1280 + jj.val) := by
  subst hk
  obtain ⟨rv, hrv⟩ := r
  obtain ⟨gv, hgv⟩ := g
  simp only at hr hg
  subst hr hg
  have hb : t.val / 16 % 2 * 2048 + b.val < 4000 := hgv
  rw [Cert.KernelIdeal.Payloads.pay2_apply]
  congr 1
  refine Finset.sum_congr rfl fun jj _ => ?_
  rw [finds0_apply V c t Y0 h0 a jj, finds1_apply V c t Y1 h1 jj b hb]
  unfold term
  rw [dif_pos (show t.val % 16 * 1280 + jj.val < 20480 by have := jj.isLt; omega)]

/-- The accumulator after the body at a position, at an index inside the array: the block sums of the
    reduction steps of its run so far. -/
theorem accAt_apply (c : Dev nD) : ∀ (p : ℕ) (hp : p < cfg0.N) (acc : Vec Ideal S1024x2048 .f32), AccAt (F := Ideal) V c p hp acc →
    ∀ (a : Fin 1024) (b : Fin 2048) (r : Fin 2048) (g : Fin 4000),
      r.val = p / 32 * 1024 + a.val → g.val = p / 16 % 2 * 2048 + b.val →
      acc (ix2 a b) = ∑ kk ∈ Finset.range (p % 16 + 1), ∑ jj : Fin 1280, term V c r g (kk * 1280 + jj.val)
  | 0, hp, acc, h, a, b, r, g, hr, hg => by
    obtain ⟨Y0, Y1, h0, h1, rfl⟩ := h
    rw [step_apply V c ⟨0, hp⟩ _ Y0 Y1 h0 h1 a b r g hr hg 0 rfl, Cert.KernelIdeal.Payloads.pay1_apply, zero_add]
    show _ = ∑ kk ∈ Finset.range 1, _
    rw [Finset.sum_range_one]
  | n + 1, hp, acc, h, a, b, r, g, hr, hg => by
    unfold AccAt at h
    by_cases hz : (n + 1) % 16 = 0
    · rw [if_pos hz] at h
      obtain ⟨Y0, Y1, h0, h1, rfl⟩ := h
      rw [step_apply V c ⟨n + 1, hp⟩ _ Y0 Y1 h0 h1 a b r g hr hg 0 hz, Cert.KernelIdeal.Payloads.pay1_apply, zero_add, hz]
      show _ = ∑ kk ∈ Finset.range 1, _
      rw [Finset.sum_range_one]
    · rw [if_neg hz] at h
      obtain ⟨acc', Y0, Y1, hacc, h0, h1, rfl⟩ := h
      have ih := accAt_apply c n (Nat.lt_of_succ_lt hp) acc' hacc a b r g (by omega) (by omega)
      rw [step_apply V c ⟨n + 1, hp⟩ _ Y0 Y1 h0 h1 a b r g hr hg (n % 16 + 1) (by show (n + 1) % 16 = n % 16 + 1; omega), ih,
        show (n + 1) % 16 = n % 16 + 1 by omega, Finset.sum_range_succ _ (n % 16 + 1)]

/-- The value of an output entry: the rectified, scaled and shifted full product. -/
abbrev outF (c : Dev nD) (r : Fin 2048) (g : Fin 4000) : EReal :=
  max ((∑ k : Fin 20480, inX V c (ix2 r k) * inW V c (ix2 k g)) + inB V c (ix2 (0 : Fin 1) g)) 0 * inS V c (ix2 (0 : Fin 1) g)
    + inT V c (ix2 (0 : Fin 1) g)

/-- The sixteen block sums of 1280 terms are the sum over the contraction axis. -/
theorem blocks_sum (c : Dev nD) (r : Fin 2048) (g : Fin 4000) :
    ∑ kk ∈ Finset.range 16, ∑ jj : Fin 1280, term V c r g (kk * 1280 + jj.val)
      = ∑ k : Fin 20480, inX V c (ix2 r k) * inW V c (ix2 k g) := by
  rw [Cert.Sums.sum_blocks_pad (term V c r g) 16 1280 20480 0 (by norm_num) (fun k hk => dif_neg (by omega))]
  exact Finset.sum_congr rfl fun k _ => dif_pos k.isLt

/-- What the body leaves in the output buffer at a last reduction step, at an index inside the array. -/
theorem outRel0_apply (c : Dev nD) (t : Fin cfg0.N) (ht : t.val % 16 = 15) (X : Vec Ideal S1024x2048 .bf16)
    (h : OutRel0 (F := Ideal) V c t X) (a : Fin 1024) (b : Fin 2048) (r : Fin 2048) (g : Fin 4000)
    (hr : r.val = t.val / 32 * 1024 + a.val) (hg : g.val = t.val / 16 % 2 * 2048 + b.val) :
    X (ix2 a b) = outF V c r g := by
  obtain ⟨acc, Y2, Y3, Y4, hacc, h2, h3, h4, rfl⟩ := h
  have hb : t.val / 16 % 2 * 2048 + b.val < 4000 := hg ▸ g.isLt
  have eg : (⟨t.val / 16 % 2 * 2048 + b.val, hb⟩ : Fin 4000) = g := Fin.ext hg.symm
  rw [Cert.KernelIdeal.Payloads.pay3_apply, finds2_apply V c t Y2 h2 b hb, finds3_apply V c t Y3 h3 b hb,
    finds4_apply V c t Y4 h4 b hb, eg, accAt_apply V c t.val t.isLt acc hacc a b r g hr hg, ht, blocks_sum]

/-! ## The output array after the region -/

/-- What the body may leave in the output buffer at a last reduction step satisfies the epilogue relation. -/
theorem leaves5_outRel (c : Dev nD) (t : Fin cfg0.N) (ht : t.val % 16 = 15) (X : Vec Ideal S1024x2048 .bf16)
    (h : (rd0 (F := Ideal) V c).Leaves 5 t X) : OutRel0 (F := Ideal) V c t X := by
  obtain ⟨Y, -, hXY⟩ := h
  have h' : (if t.val % 16 = 15 then OutRel0 (F := Ideal) V c t X else True) := hXY
  rwa [if_pos ht] at h'

/-- Region 0's value: after its write-backs every entry of the output array holds the rectified, scaled and
    shifted product of the input row with the weight column over the whole padded contraction axis. -/
theorem region0_value (c : Dev nD) (G : Buf (Elt Ideal) ((cfg0.win 5).arr.view.loc (c.tc : Thread nD τ)))
    (h : (rd0 (F := Ideal) V c).ArrAt 5 cfg0.N G) (r : Fin 2048) (g : Fin 4000) :
    (G : S2048x4000.Idx → EReal) (ix2 r g)
      = max ((∑ k : Fin 20480, inX V c (ix2 r k) * inW V c (ix2 k g)) + inB V c (ix2 (0 : Fin 1) g)) 0 * inS V c (ix2 (0 : Fin 1) g)
          + inT V c (ix2 (0 : Fin 1) g) := by
  have hN : (r.val / 1024 * 2 + g.val / 2048) * 16 + 15 < cfg0.N := by
    rw [show cfg0.N = 64 from N_0]; have := r.isLt; have := g.isLt; omega
  have key := Cert.Lib.RArr.arrAt_forall_of_leaves (rd0 (F := Ideal) V c) 5
    (fun (i : S2048x4000.Idx) (v : EReal) => v = outF V c (i 0) (i 1))
    (fun t hf X hX y => by
      have ht := (flush5 t).mp hf
      show X ((cfg0.win 5).xinj (cfg0.grid.coords t) y) = _
      rw [eq_ix2 ((cfg0.win 5).xinj (cfg0.grid.coords t) y)]
      exact outRel0_apply V c t ht X (leaves5_outRel V c t ht X hX) _ _ _ _
        (((cfg0.win 5).rect_emb_val t y 0).trans (by rw [(geom5 t).1]; rfl))
        (((cfg0.win 5).rect_emb_val t y 1).trans (by rw [(geom5 t).2.1]; rfl)))
    cfg0.N G h ⟨(r.val / 1024 * 2 + g.val / 2048) * 16 + 15, hN⟩ (ix2 r g) hN
    ((flush5 _).mpr (by simp only; omega))
    (by
      show ix2 r g ∈ ((View.whole main_v14).slice (win0_5.rect ⟨(r.val / 1024 * 2 + g.val / 2048) * 16 + 15, hN⟩)).set
      rw [View.set_slice_whole, Rect.mem_set_unit]
      intro ax
      have hg5 := geom5 ⟨(r.val / 1024 * 2 + g.val / 2048) * 16 + 15, hN⟩
      match ax with
      | ⟨0, _⟩ =>
        show win0_5.index _ 0 * 1024 ≤ r.val ∧ r.val < win0_5.index _ 0 * 1024 + win0_5.xsize _ 0
        rw [hg5.1, hg5.2.2.1]; simp only; have := r.isLt; have := g.isLt; omega
      | ⟨1, _⟩ =>
        show win0_5.index _ 1 * 2048 ≤ g.val ∧ g.val < win0_5.index _ 1 * 2048 + win0_5.xsize _ 1
        rw [hg5.2.1, hg5.2.2.2]; simp only; have := r.isLt; have := g.isLt; omega)
  exact key

/-- The same, with the five input arrays as functions into the extended reals. -/
theorem region0_value_of (c : Dev nD) (G : Buf (Elt Ideal) ((cfg0.win (5 : Fin 6)).arr.view.loc (c.tc : Thread nD τ)))
    (h : (rd0 (F := Ideal) V c).ArrAt 5 cfg0.N G)
    (X : S2048x20480.Idx → EReal) (W : S20480x4000.Idx → EReal) (B S T : S1x4000.Idx → EReal)
    (hX : X = V c (Pipeline.arrRef spec0 (0 : Fin 6))) (hW : W = V c (Pipeline.arrRef spec0 (1 : Fin 6)))
    (hB : B = V c (Pipeline.arrRef spec0 (2 : Fin 6))) (hS : S = V c (Pipeline.arrRef spec0 (3 : Fin 6)))
    (hT : T = V c (Pipeline.arrRef spec0 (4 : Fin 6))) (r : Fin 2048) (g : Fin 4000) :
    (G : S2048x4000.Idx → EReal) (ix2 r g)
      = max ((∑ k : Fin 20480, X (ix2 r k) * W (ix2 k g)) + B (ix2 (0 : Fin 1) g)) 0 * S (ix2 (0 : Fin 1) g)
          + T (ix2 (0 : Fin 1) g) := by
  subst hX hW hB hS hT
  exact region0_value V c G h r g

end Cert.KernelIdeal.Hand

end
-- ==== Proof.IdealValue1.lean ====
/-
  The second layer's result array at the ideal instance, for any contents the region is entered with.

  The region's grid has two points, the row blocks 0..1023 and 1024..2047 of the 2048 x 512 result; no block
  overhangs an array. What the result array may hold after both write-backs is its entry contents with block 0 and
  then block 1 overwritten by contents the body may have left at that point: the body's payload of the five buffers
  it found. The first input's buffer is fetched at both points and holds the input's row block of the point; the
  weights and the three row vectors have a constant block index, are fetched at the first point only and are left
  as found, so at either point they hold the whole arrays. Read at an index (r, p), row r lies in block r / 1024 at
  the in-block row r % 1024, the write of block 1 leaves the rows of block 0 alone, and the payload there is
  tanh ((sum over g of h (r, g) * w (g, p) + b p) * s p + t p) over the entry contents of the five inputs.
-/
import proofs.«171824_j50646254354906_2_alg».proof.Proof.IdealData
import proofs.«171824_j50646254354906_2_alg».proof.Proof.IdealPayloads
import Idealize.ShloMosaic.Lib.Pipeline.Cells
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat RDat Cfg Window)
open scoped BigOperators

/-- The zero offsets of a rank-2 whole-buffer rectangle. -/
theorem hz2 : (![0, 0] : Fin 2 → Nat) = fun _ => 0 := funext fun a => by fin_cases a <;> rfl

/-- The body's payload at an index: the hyperbolic tangent of the scaled and shifted product plus bias. -/
theorem out1_apply (Y0 : Vec Ideal S1024x4000 .bf16) (Y1 : Vec Ideal S4000x512 .bf16) (Y2 Y3 Y4 : Vec Ideal S1x512 .f32)
    (r : Fin 1024) (p : Fin 512) :
    out1 Y0 Y1 Y2 Y3 Y4 (ix2 r p)
      = Ideal.tanh ((∑ g : Fin 4000, Y0 (ix2 r g) * Y1 (ix2 g p) + Y2 (ix2 (0 : Fin 1) p)) * Y3 (ix2 (0 : Fin 1) p)
          + Y4 (ix2 (0 : Fin 1) p)) := by
  unfold out1
  rw [View.canon_unit_zero hz2]
  simp only [View.ld_unit_zero (S := S1024x4000) hz2, View.ld_unit_zero (S := S4000x512) hz2, View.ld_unit_zero (S := S1x512) hz2]
  exact Cert.KernelIdeal.Payloads.k1_pay1_apply Y0 Y1 Y2 Y3 Y4 r p

/-- The second layer at row r and column p over five arrays read as extended reals: the hyperbolic tangent of the
    scaled and shifted product plus bias. -/
def layer2At (H : S2048x4000.Idx → EReal) (W : S4000x512.Idx → EReal) (B S T : S1x512.Idx → EReal)
    (r : Fin 2048) (p : Fin 512) : EReal :=
  Ideal.tanh (((∑ g : Fin 4000, H (ix2 r g) * W (ix2 g p)) + B (ix2 (0 : Fin 1) p)) * S (ix2 (0 : Fin 1) p)
    + T (ix2 (0 : Fin 1) p))

theorem layer2At_apply (H : S2048x4000.Idx → EReal) (W : S4000x512.Idx → EReal) (B S T : S1x512.Idx → EReal)
    (r : Fin 2048) (p : Fin 512) :
    layer2At H W B S T r p
      = Ideal.tanh (((∑ g : Fin 4000, H (ix2 r g) * W (ix2 g p)) + B (ix2 (0 : Fin 1) p)) * S (ix2 (0 : Fin 1) p)
          + T (ix2 (0 : Fin 1) p)) := rfl

variable (V : (c : Dev nD) → (b : Ref sig .tc) → Buf (Elt Ideal) ((c : Thread nD τ).loc b))

/-! ## The index maps over the two points -/

/-- The first input's block index is the point: it is fetched at both points. -/
theorem fetch1_0 (t : Fin cfg1.N) : (cfg1.win (0 : Fin 6)).fetch t = true := by
  rcases fin_N1 t with rfl | rfl <;> decide
/-- The result's block index is the point: it is written back at both points. -/
theorem flush1_5 (t : Fin cfg1.N) : (cfg1.win (5 : Fin 6)).flush t = true := by
  rcases fin_N1 t with rfl | rfl <;> decide

/-! ## What the body finds in the input buffers -/

/-- At either point the body finds in the first input's buffer the array's row block of that point. -/
theorem finds1_w0 (c : Dev nD) (t : Fin cfg1.N) (Y : Vec Ideal S1024x4000 .bf16) (h : (rdIn1 V c).Finds 0 t Y) :
    Y = (rdIn1 V c).blockOf 0 t := by
  obtain ⟨d, rfl⟩ := ((rdIn1 V c).finds_of_fetch (fetch1_0 t) Y).mp h
  rfl

/-- Row r' of the block at point t is row 1024 t + r' of the array. -/
theorem blockOf1_0_apply (c : Dev nD) (t : Fin cfg1.N) (r' : Fin 1024) (g : Fin 4000) (r : Fin 2048)
    (hr : r.val = t.val * 1024 + r'.val) :
    ((rdIn1 V c).blockOf 0 t : S1024x4000.Idx → EReal) (ix2 r' g)
      = (V c (Pipeline.arrRef spec1 (0 : Fin 6)) : S2048x4000.Idx → EReal) (ix2 r g) := by
  have hi : win1_0.index t 0 = t.val ∧ win1_0.index t 1 = 0 := by
    rcases fin_N1 t with rfl | rfl <;> decide
  unfold RDat.blockOf
  rw [View.read_apply]
  show V c (Pipeline.arrRef spec1 (0 : Fin 6)) _ = V c (Pipeline.arrRef spec1 (0 : Fin 6)) _
  congr 1
  funext a
  apply Fin.ext
  match a with
  | ⟨0, _⟩ => show win1_0.index t 0 * 1024 + 1 * r'.val = r.val; rw [hi.1, hr]; omega
  | ⟨1, _⟩ => show win1_0.index t 1 * 4000 + 1 * g.val = g.val; rw [hi.2]; omega

/-- The weights are fetched at the first point and left as found at the second: at either point the body finds the
    whole array. -/
theorem finds1_w1 (c : Dev nD) (t : Fin cfg1.N) (Y : Vec Ideal S4000x512 .bf16) (h : (rdIn1 V c).Finds 1 t Y) :
    Y = (rdIn1 V c).blockOf 1 t1_0 := by
  rcases fin_N1 t with rfl | rfl
  · obtain ⟨d, rfl⟩ := ((rdIn1 V c).finds_of_fetch (w := 1) (t := t1_0) (by decide) Y).mp h
    rfl
  · rcases ((rdIn1 V c).finds_of_pos (w := 1) (t := t1_1) (by decide) (by decide) Y).mp h with hf | ⟨Y', hY', hXY⟩
    · exact absurd hf (by decide)
    · obtain ⟨d, rfl⟩ := ((rdIn1 V c).finds_of_fetch (w := 1) (t := t1_0) (by decide) Y').mp hY'
      exact hXY

/-- The one block of the weights is the whole array. -/
theorem blockOf1_1_apply (c : Dev nD) (g : Fin 4000) (p : Fin 512) :
    ((rdIn1 V c).blockOf 1 t1_0 : S4000x512.Idx → EReal) (ix2 g p)
      = (V c (Pipeline.arrRef spec1 (1 : Fin 6)) : S4000x512.Idx → EReal) (ix2 g p) := by
  have hi : win1_1.index t1_0 0 = 0 ∧ win1_1.index t1_0 1 = 0 := by decide
  unfold RDat.blockOf
  rw [View.read_apply]
  show V c (Pipeline.arrRef spec1 (1 : Fin 6)) _ = V c (Pipeline.arrRef spec1 (1 : Fin 6)) _
  congr 1
  funext a
  apply Fin.ext
  match a with
  | ⟨0, _⟩ => show win1_1.index t1_0 0 * 4000 + 1 * g.val = g.val; rw [hi.1]; omega
  | ⟨1, _⟩ => show win1_1.index t1_0 1 * 512 + 1 * p.val = p.val; rw [hi.2]; omega

/-- Window 2 (a row vector) is fetched at the first point and left as found at the second: at either point the body
    finds the whole array. -/
theorem finds1_w2 (c : Dev nD) (t : Fin cfg1.N) (Y : Vec Ideal S1x512 .f32) (h : (rdIn1 V c).Finds 2 t Y) :
    Y = (rdIn1 V c).blockOf 2 t1_0 := by
  rcases fin_N1 t with rfl | rfl
  · obtain ⟨d, rfl⟩ := ((rdIn1 V c).finds_of_fetch (w := 2) (t := t1_0) (by decide) Y).mp h
    rfl
  · rcases ((rdIn1 V c).finds_of_pos (w := 2) (t := t1_1) (by decide) (by decide) Y).mp h with hf | ⟨Y', hY', hXY⟩
    · exact absurd hf (by decide)
    · obtain ⟨d, rfl⟩ := ((rdIn1 V c).finds_of_fetch (w := 2) (t := t1_0) (by decide) Y').mp hY'
      exact hXY

/-- The one block of window 2 is the whole row vector. -/
theorem blockOf1_2_apply (c : Dev nD) (p : Fin 512) :
    ((rdIn1 V c).blockOf 2 t1_0 : S1x512.Idx → EReal) (ix2 (0 : Fin 1) p)
      = (V c (Pipeline.arrRef spec1 (2 : Fin 6)) : S1x512.Idx → EReal) (ix2 (0 : Fin 1) p) := by
  have hi : win1_2.index t1_0 0 = 0 ∧ win1_2.index t1_0 1 = 0 := by decide
  unfold RDat.blockOf
  rw [View.read_apply]
  show V c (Pipeline.arrRef spec1 (2 : Fin 6)) _ = V c (Pipeline.arrRef spec1 (2 : Fin 6)) _
  congr 1
  funext a
  apply Fin.ext
  match a with
  | ⟨0, _⟩ => show win1_2.index t1_0 0 * 1 + 1 * 0 = 0; rw [hi.1]
  | ⟨1, _⟩ => show win1_2.index t1_0 1 * 512 + 1 * p.val = p.val; rw [hi.2]; omega

/-- Window 3 (a row vector) is fetched at the first point and left as found at the second: at either point the body
    finds the whole array. -/
theorem finds1_w3 (c : Dev nD) (t : Fin cfg1.N) (Y : Vec Ideal S1x512 .f32) (h : (rdIn1 V c).Finds 3 t Y) :
    Y = (rdIn1 V c).blockOf 3 t1_0 := by
  rcases fin_N1 t with rfl | rfl
  · obtain ⟨d, rfl⟩ := ((rdIn1 V c).finds_of_fetch (w := 3) (t := t1_0) (by decide) Y).mp h
    rfl
  · rcases ((rdIn1 V c).finds_of_pos (w := 3) (t := t1_1) (by decide) (by decide) Y).mp h with hf | ⟨Y', hY', hXY⟩
    · exact absurd hf (by decide)
    · obtain ⟨d, rfl⟩ := ((rdIn1 V c).finds_of_fetch (w := 3) (t := t1_0) (by decide) Y').mp hY'
      exact hXY

/-- The one block of window 3 is the whole row vector. -/
theorem blockOf1_3_apply (c : Dev nD) (p : Fin 512) :
    ((rdIn1 V c).blockOf 3 t1_0 : S1x512.Idx → EReal) (ix2 (0 : Fin 1) p)
      = (V c (Pipeline.arrRef spec1 (3 : Fin 6)) : S1x512.Idx → EReal) (ix2 (0 : Fin 1) p) := by
  have hi : win1_3.index t1_0 0 = 0 ∧ win1_3.index t1_0 1 = 0 := by decide
  unfold RDat.blockOf
  rw [View.read_apply]
  show V c (Pipeline.arrRef spec1 (3 : Fin 6)) _ = V c (Pipeline.arrRef spec1 (3 : Fin 6)) _
  congr 1
  funext a
  apply Fin.ext
  match a with
  | ⟨0, _⟩ => show win1_3.index t1_0 0 * 1 + 1 * 0 = 0; rw [hi.1]
  | ⟨1, _⟩ => show win1_3.index t1_0 1 * 512 + 1 * p.val = p.val; rw [hi.2]; omega

/-- Window 4 (a row vector) is fetched at the first point and left as found at the second: at either point the body
    finds the whole array. -/
theorem finds1_w4 (c : Dev nD) (t : Fin cfg1.N) (Y : Vec Ideal S1x512 .f32) (h : (rdIn1 V c).Finds 4 t Y) :
    Y = (rdIn1 V c).blockOf 4 t1_0 := by
  rcases fin_N1 t with rfl | rfl
  · obtain ⟨d, rfl⟩ := ((rdIn1 V c).finds_of_fetch (w := 4) (t := t1_0) (by decide) Y).mp h
    rfl
  · rcases ((rdIn1 V c).finds_of_pos (w := 4) (t := t1_1) (by decide) (by decide) Y).mp h with hf | ⟨Y', hY', hXY⟩
    · exact absurd hf (by decide)
    · obtain ⟨d, rfl⟩ := ((rdIn1 V c).finds_of_fetch (w := 4) (t := t1_0) (by decide) Y').mp hY'
      exact hXY

/-- The one block of window 4 is the whole row vector. -/
theorem blockOf1_4_apply (c : Dev nD) (p : Fin 512) :
    ((rdIn1 V c).blockOf 4 t1_0 : S1x512.Idx → EReal) (ix2 (0 : Fin 1) p)
      = (V c (Pipeline.arrRef spec1 (4 : Fin 6)) : S1x512.Idx → EReal) (ix2 (0 : Fin 1) p) := by
  have hi : win1_4.index t1_0 0 = 0 ∧ win1_4.index t1_0 1 = 0 := by decide
  unfold RDat.blockOf
  rw [View.read_apply]
  show V c (Pipeline.arrRef spec1 (4 : Fin 6)) _ = V c (Pipeline.arrRef spec1 (4 : Fin 6)) _
  congr 1
  funext a
  apply Fin.ext
  match a with
  | ⟨0, _⟩ => show win1_4.index t1_0 0 * 1 + 1 * 0 = 0; rw [hi.1]
  | ⟨1, _⟩ => show win1_4.index t1_0 1 * 512 + 1 * p.val = p.val; rw [hi.2]; omega

/-! ## What the body leaves in the result's buffer, at an index -/

/-- Contents the body may leave in the result's buffer at point t, read at the in-block row r' of the array's row
    r = 1024 t + r': the layer's formula over the entry contents of the five inputs. -/
theorem outRel1_apply (c : Dev nD) (t : Fin cfg1.N) (X : Vec Ideal S1024x512 .f32) (h : OutRel1 V c t X)
    (r' : Fin 1024) (p : Fin 512) (r : Fin 2048) (hr : r.val = t.val * 1024 + r'.val) :
    X (ix2 r' p)
      = layer2At (V c (Pipeline.arrRef spec1 (0 : Fin 6))) (V c (Pipeline.arrRef spec1 (1 : Fin 6)))
          (V c (Pipeline.arrRef spec1 (2 : Fin 6))) (V c (Pipeline.arrRef spec1 (3 : Fin 6)))
          (V c (Pipeline.arrRef spec1 (4 : Fin 6))) r p := by
  obtain ⟨Y0, Y1, Y2, Y3, Y4, h0, h1, h2, h3, h4, rfl⟩ := h
  obtain rfl := finds1_w0 V c t Y0 h0
  obtain rfl := finds1_w1 V c t Y1 h1
  obtain rfl := finds1_w2 V c t Y2 h2
  obtain rfl := finds1_w3 V c t Y3 h3
  obtain rfl := finds1_w4 V c t Y4 h4
  rw [out1_apply, layer2At_apply]
  have e0 : ∀ g : Fin 4000, (rdIn1 V c).blockOf 0 t (ix2 r' g)
      = (V c (Pipeline.arrRef spec1 (0 : Fin 6)) : S2048x4000.Idx → EReal) (ix2 r g) :=
    fun g => blockOf1_0_apply V c t r' g r hr
  have e1 : ∀ g : Fin 4000, (rdIn1 V c).blockOf 1 t1_0 (ix2 g p)
      = (V c (Pipeline.arrRef spec1 (1 : Fin 6)) : S4000x512.Idx → EReal) (ix2 g p) :=
    fun g => blockOf1_1_apply V c g p
  rw [blockOf1_2_apply V c p, blockOf1_3_apply V c p, blockOf1_4_apply V c p]
  simp only [e0, e1]

/-! ## The result array after the two write-backs -/

/-- A block write at point t, read at a row of that block: the written contents at the in-block row. -/
theorem write_blk5_in (c : Dev nD) (t : Fin cfg1.N) (G₀ : Buf (Elt Ideal) ((cfg1.win (5 : Fin 6)).arr.view.loc (c.tc : Thread nD τ)))
    (X : Vec Ideal S1024x512 .f32) (r' : Fin 1024) (p : Fin 512) (r : Fin 2048) (hr : r.val = t.val * 1024 + r'.val) :
    ((((cfg1.win (5 : Fin 6)).blk t).view.write (Elt Ideal) G₀ ((cfg1.win (5 : Fin 6)).cut (grid1.coords t) X) Finset.univ
        : Buf (Elt Ideal) ((cfg1.win (5 : Fin 6)).arr.view.loc (c.tc : Thread nD τ))) : S2048x512.Idx → EReal) (ix2 r p)
      = X (ix2 r' p) := by
  have hi : win1_5.index t 0 = t.val ∧ win1_5.index t 1 = 0 := by
    rcases fin_N1 t with rfl | rfl <;> decide
  have e : (ix2 r p : S2048x512.Idx) = ((cfg1.win (5 : Fin 6)).blk t).view.emb (ix2 r' p) := by
    funext a
    apply Fin.ext
    match a with
    | ⟨0, _⟩ => show r.val = win1_5.index t 0 * 1024 + 1 * r'.val; rw [hi.1, hr]; omega
    | ⟨1, _⟩ => show p.val = win1_5.index t 1 * 512 + 1 * p.val; rw [hi.2]; omega
  rw [e, View.write_emb_of_mem _ _ (Finset.mem_univ _)]
  rfl

/-- A block write at point t, read at a row outside that block: what was there before. -/
theorem write_blk5_out (c : Dev nD) (t : Fin cfg1.N) (G₀ : Buf (Elt Ideal) ((cfg1.win (5 : Fin 6)).arr.view.loc (c.tc : Thread nD τ)))
    (X : Vec Ideal S1024x512 .f32) (p : Fin 512) (r : Fin 2048) (hr : r.val < t.val * 1024 ∨ t.val * 1024 + 1024 ≤ r.val) :
    ((((cfg1.win (5 : Fin 6)).blk t).view.write (Elt Ideal) G₀ ((cfg1.win (5 : Fin 6)).cut (grid1.coords t) X) Finset.univ
        : Buf (Elt Ideal) ((cfg1.win (5 : Fin 6)).arr.view.loc (c.tc : Thread nD τ))) : S2048x512.Idx → EReal) (ix2 r p)
      = (G₀ : S2048x512.Idx → EReal) (ix2 r p) := by
  have hi : win1_5.index t 0 = t.val := by
    rcases fin_N1 t with rfl | rfl <;> decide
  apply View.write_of_not_mem
  rw [View.setOn_univ]
  show (ix2 r p : S2048x512.Idx) ∉ ((View.whole main_v30).slice (win1_5.rect t)).set
  rw [View.set_slice_whole, Rect.mem_set_unit]
  intro h
  have h0 := h 0
  change win1_5.index t 0 * 1024 ≤ r.val ∧ r.val < win1_5.index t 0 * 1024 + 1024 at h0
  rw [hi] at h0
  omega

/-- What the result array may hold after both write-backs: its entry contents with block 0 and then block 1
    overwritten by contents the body may have left at those points. -/
theorem arrAt1_5 (c : Dev nD) (G : Buf (Elt Ideal) ((cfg1.win (5 : Fin 6)).arr.view.loc (c.tc : Thread nD τ)))
    (h : (rd1 V c).ArrAt 5 cfg1.N G) :
    ∃ X0 X1 : Vec Ideal S1024x512 .f32, OutRel1 V c t1_0 X0 ∧ OutRel1 V c t1_1 X1 ∧
      G = ((cfg1.win (5 : Fin 6)).blk t1_1).view.write (Elt Ideal)
            (((cfg1.win (5 : Fin 6)).blk t1_0).view.write (Elt Ideal) ((rd1 V c).A 5) ((cfg1.win (5 : Fin 6)).cut (grid1.coords t1_0) X0) Finset.univ)
            ((cfg1.win (5 : Fin 6)).cut (grid1.coords t1_1) X1) Finset.univ := by
  have h2 : (rd1 V c).ArrAt 5 (t1_1.val + 1) G := h
  rw [(rd1 V c).ArrAt_succ 5 t1_1, if_pos (flush1_5 t1_1)] at h2
  obtain ⟨G₁, X1, hG₁, ⟨Y1, -, hX1⟩, rfl⟩ := h2
  have h1 : (rd1 V c).ArrAt 5 (t1_0.val + 1) G₁ := hG₁
  rw [(rd1 V c).ArrAt_succ 5 t1_0, if_pos (flush1_5 t1_0)] at h1
  obtain ⟨G₀, X0, hG₀, ⟨Y0, -, hX0⟩, rfl⟩ := h1
  have hA : G₀ = (rd1 V c).A 5 := hG₀
  subst hA
  exact ⟨X0, X1, hX0, hX1, rfl⟩

/-- The second layer's result array after the region, at any index: the hyperbolic tangent of the scaled and
    shifted product plus bias, over the contents the region was entered with. -/
theorem region1_value (c : Dev nD) (G : Buf (Elt Ideal) ((cfg1.win (5 : Fin 6)).arr.view.loc (c.tc : Thread nD τ)))
    (h : (rd1 (F := Ideal) V c).ArrAt 5 cfg1.N G) (r : Fin 2048) (p : Fin 512) :
    (G : S2048x512.Idx → EReal) (ix2 r p)
      = layer2At (V c (Pipeline.arrRef spec1 (0 : Fin 6))) (V c (Pipeline.arrRef spec1 (1 : Fin 6)))
          (V c (Pipeline.arrRef spec1 (2 : Fin 6))) (V c (Pipeline.arrRef spec1 (3 : Fin 6)))
          (V c (Pipeline.arrRef spec1 (4 : Fin 6))) r p := by
  obtain ⟨X0, X1, hX0, hX1, rfl⟩ := arrAt1_5 V c G h
  have hlt : r.val < 2048 := r.isLt
  by_cases hr : r.val < 1024
  · refine (write_blk5_out c t1_1 _ X1 p r (Or.inl (show r.val < 1 * 1024 by omega))).trans ?_
    refine (write_blk5_in c t1_0 _ X0 ⟨r.val, hr⟩ p r (show r.val = 0 * 1024 + r.val by omega)).trans ?_
    exact outRel1_apply V c t1_0 X0 hX0 ⟨r.val, hr⟩ p r (show r.val = 0 * 1024 + r.val by omega)
  · refine (write_blk5_in c t1_1 _ X1 ⟨r.val - 1024, by omega⟩ p r (show r.val = 1 * 1024 + (r.val - 1024) by omega)).trans ?_
    exact outRel1_apply V c t1_1 X1 hX1 ⟨r.val - 1024, by omega⟩ p r (show r.val = 1 * 1024 + (r.val - 1024) by omega)

/-- The same, over five functions into the extended reals that are the entry contents of the five inputs. -/
theorem region1_value_of (c : Dev nD) (G : Buf (Elt Ideal) ((cfg1.win (5 : Fin 6)).arr.view.loc (c.tc : Thread nD τ)))
    (h : (rd1 (F := Ideal) V c).ArrAt 5 cfg1.N G)
    (H : S2048x4000.Idx → EReal) (W : S4000x512.Idx → EReal) (B S T : S1x512.Idx → EReal)
    (hH : H = V c (Pipeline.arrRef spec1 (0 : Fin 6))) (hW : W = V c (Pipeline.arrRef spec1 (1 : Fin 6)))
    (hB : B = V c (Pipeline.arrRef spec1 (2 : Fin 6))) (hS : S = V c (Pipeline.arrRef spec1 (3 : Fin 6)))
    (hT : T = V c (Pipeline.arrRef spec1 (4 : Fin 6))) (r : Fin 2048) (p : Fin 512) :
    (G : S2048x512.Idx → EReal) (ix2 r p)
      = Ideal.tanh (((∑ g : Fin 4000, H (ix2 r g) * W (ix2 g p)) + B (ix2 (0 : Fin 1) p)) * S (ix2 (0 : Fin 1) p)
          + T (ix2 (0 : Fin 1) p)) := by
  subst hH hW hB hS hT
  exact region1_value V c G h r p

end Cert.KernelIdeal.Hand

end
-- ==== Proof.IdealHostGlue.lean ====
/-
  What the host prepares around the two kernels, read at an index, at the ideal instance.

  Before the first kernel the host multiplies the first layer's weights by their mask and appends 480 zero rows
  (20000 to 20480), appends 480 zero columns to the input, and forms the first layer's normalisation rows
  inv = gamma * rsqrt (var + eps) and shift = beta - mean * inv, each laid out as one row of 4000 entries beside the
  bias row. Before the second kernel it multiplies the second layer's weights by their mask and appends 12 zero
  columns (500 to 512), and pads the second layer's bias, inv and shift with 12 zeros before laying each out as one
  row of 512 entries. At the end it keeps the first 500 of the 512 result columns. A change of format is the identity
  on the extended reals, and the padding value, the integer zero converted, is the extended real zero.

  The last theorem is the closing algebra: given the two kernels' outputs in closed form over the arrays they are
  entered with, the program's result is the specification of the fifteen arguments. A sum over a zero-padded
  contraction axis is the sum over the true extent, since a product with a zero factor is zero.
-/
import proofs.«171824_j50646254354906_2_alg».proof.Proof.Gen.KernelIdeal.Regions
import proofs.«171824_j50646254354906_2_alg».proof.Proof.Spec
import Idealize.ShloMosaic.Lib.StableHlo.Run
import Idealize.ShloMosaic.Lib.ValueIdx
import Idealize.ShloMosaic.Lib.ValueLayout
import Idealize.ShloMosaic.Lib.Pipeline.Value
import Idealize.ShloMosaic.Lib.KernelVsHost
import Idealize.ShloMosaic.Lib.IdealHost
import Mathlib.Algebra.BigOperators.Fin

noncomputable section

namespace Cert.KernelIdeal.HostGlue

open Cert.KernelIdeal Cert.KernelIdeal.Gen Idealize.ShloMosaic Idealize.ShloMosaic.TcCoe Idealize.ShloMosaic.ValueIdx
open Idealize.SL.Sem Idealize.ShloMosaic.StableHlo
open scoped BigOperators

/-- The contents of a buffer of extended reals, as a function of the index. -/
abbrev rd (S : Shape) (f : S.Idx → EReal) : S.Idx → EReal := f

/-- An index below 500 as an index below 512. -/
abbrev up (p : Fin 500) : Fin 512 := ⟨p.val, Nat.lt_of_lt_of_le p.isLt (by decide)⟩

/-! ## A zero-padded array read at an index -/

section Pads
variable {α : Type}

/-- Columns appended on the right of a matrix: inside the old columns the old entry, beyond them the padding value. -/
theorem pad_cols_apply {a b b' p : ℕ} (x : (⟨2, ![a, b]⟩ : Shape).Idx → α) {u : Shape} (v : u.Idx → α)
    (h : (⟨2, ![a, b]⟩ : Shape).Pads ![0, 0] ![0, p] ![0, 0] ⟨2, ![a, b']⟩) (hu : 0 < u.numel) (r : Fin a) (k : Fin b') :
    pad ⟨2, ![a, b']⟩ ![0, 0] ![0, p] ![0, 0] x v h hu (ix2 r k)
      = if hk : k.val < b then x (ix2 r ⟨k.val, hk⟩) else v (Shape.Idx.first hu) := by
  by_cases hk : k.val < b
  · rw [dif_pos hk]
    refine pad_apply_of_inside _ _ _ x v h hu (ix2 r k) (ix2 r ⟨k.val, hk⟩) fun ax => ?_
    match ax with
    | ⟨0, _⟩ => show r.val = 0 + r.val * (0 + 1); omega
    | ⟨1, _⟩ => show k.val = 0 + k.val * (0 + 1); omega
  · rw [dif_neg hk]
    refine pad_apply_of_not_inside _ _ _ x v h hu (ix2 r k) (⟨1, by decide⟩ : Fin 2) fun hin => hk ?_
    have h3 : (k.val - 0) / (0 + 1) < b := hin.2.2
    simpa using h3

/-- Rows appended below a matrix: inside the old rows the old entry, beyond them the padding value. -/
theorem pad_rows_apply {a a' b p : ℕ} (x : (⟨2, ![a, b]⟩ : Shape).Idx → α) {u : Shape} (v : u.Idx → α)
    (h : (⟨2, ![a, b]⟩ : Shape).Pads ![0, 0] ![p, 0] ![0, 0] ⟨2, ![a', b]⟩) (hu : 0 < u.numel) (k : Fin a') (g : Fin b) :
    pad ⟨2, ![a', b]⟩ ![0, 0] ![p, 0] ![0, 0] x v h hu (ix2 k g)
      = if hk : k.val < a then x (ix2 ⟨k.val, hk⟩ g) else v (Shape.Idx.first hu) := by
  by_cases hk : k.val < a
  · rw [dif_pos hk]
    refine pad_apply_of_inside _ _ _ x v h hu (ix2 k g) (ix2 ⟨k.val, hk⟩ g) fun ax => ?_
    match ax with
    | ⟨0, _⟩ => show k.val = 0 + k.val * (0 + 1); omega
    | ⟨1, _⟩ => show g.val = 0 + g.val * (0 + 1); omega
  · rw [dif_neg hk]
    refine pad_apply_of_not_inside _ _ _ x v h hu (ix2 k g) (⟨0, by decide⟩ : Fin 2) fun hin => hk ?_
    have h3 : (k.val - 0) / (0 + 1) < a := hin.2.2
    simpa using h3

/-- Entries appended at the end of a vector: inside the old entries the old entry, beyond them the padding value. -/
theorem pad_vec_apply {a a' p : ℕ} (x : (⟨1, ![a]⟩ : Shape).Idx → α) {u : Shape} (v : u.Idx → α)
    (h : (⟨1, ![a]⟩ : Shape).Pads ![0] ![p] ![0] ⟨1, ![a']⟩) (hu : 0 < u.numel) (k : Fin a') :
    pad ⟨1, ![a']⟩ ![0] ![p] ![0] x v h hu (ix1 k)
      = if hk : k.val < a then x (ix1 ⟨k.val, hk⟩) else v (Shape.Idx.first hu) := by
  by_cases hk : k.val < a
  · rw [dif_pos hk]
    refine pad_apply_of_inside _ _ _ x v h hu (ix1 k) (ix1 ⟨k.val, hk⟩) fun ax => ?_
    match ax with
    | ⟨0, _⟩ => show k.val = 0 + k.val * (0 + 1); omega
  · rw [dif_neg hk]
    refine pad_apply_of_not_inside _ _ _ x v h hu (ix1 k) (⟨0, by decide⟩ : Fin 1) fun hin => hk ?_
    have h3 : (k.val - 0) / (0 + 1) < a := hin.2.2
    simpa using h3

end Pads

/-- The padding value of every pad here: the integer zero, converted, is the extended real zero. -/
theorem padValue_eq (φ : FTy) (hu : 0 < S_.numel) :
    (sitofp φ (constantI S_ 32 0#32) : FVec Ideal S_ φ) (Shape.Idx.first hu) = 0 :=
  sitofp_zero

/-! ## A sum over a zero-padded axis -/

/-- A sum whose terms from `n` on are zero is the sum of its first `n` terms. -/
theorem sum_fin_pad {N : ℕ} (n : ℕ) (hn : n ≤ N) (f : Fin N → EReal) (hf : ∀ k : Fin N, n ≤ k.val → f k = 0) :
    ∑ k, f k = ∑ j : Fin n, f (Fin.castLE hn j) := by
  obtain ⟨e, rfl⟩ := Nat.exists_eq_add_of_le hn
  rw [Fin.sum_univ_add, Finset.sum_eq_zero (fun j _ => hf (Fin.natAdd n j) (Nat.le_add_right n j.val)), add_zero]
  rfl

/-! ## Each host stretch read at an index, over any contents before it -/

section Stretches
variable (W : Valuation τ sig (Elt Ideal))

/-- The masked first-layer weights: the product, entry by entry (the change of format is the identity). -/
theorem after0_v1_apply (i : S20000x4000.Idx) :
    (StableHlo.after (hostOps0 (F := Ideal)) W main_v1 : S20000x4000.Idx → EReal) i
      = rd S20000x4000 (W main_arg3) i * rd S20000x4000 (W main_arg1) i := by
  after_results
  rfl

theorem after0_c : (StableHlo.after (hostOps0 (F := Ideal)) W main_c : S_.Idx → BitVec 32) = constantI S_ 32 0#32 := by
  after_results

/-- The weights with rows appended. -/
theorem after0_1_v2 :
    (StableHlo.after (hostOps0_1 (F := Ideal)) W main_v2 : S20480x4000.Idx → EReal)
      = pad S20480x4000 ![0, 0] ![480, 0] ![0, 0] (W main_v1 : S20000x4000.Idx → EReal)
          (sitofp .bf16 (show IVec S_ 32 from W main_c) : FVec Ideal S_ .bf16)
          pads_S20000x4000_S20480x4000_04800_000 h_S_ := by
  after_results
  rfl

/-- The input in the kernel's format: the same extended reals. -/
theorem after0_2_v3_apply (i : S2048x20000.Idx) :
    (StableHlo.after (hostOps0_2 (F := Ideal)) W main_v3 : S2048x20000.Idx → EReal) i
      = (W main_arg0 : S2048x20000.Idx → EReal) i := by
  after_results
  rfl

theorem after0_2_c0 : (StableHlo.after (hostOps0_2 (F := Ideal)) W main_c_0 : S_.Idx → BitVec 32) = constantI S_ 32 0#32 := by
  after_results

/-- The input with columns appended. -/
theorem after0_3_v4 :
    (StableHlo.after (hostOps0_3 (F := Ideal)) W main_v4 : S2048x20480.Idx → EReal)
      = pad S2048x20480 ![0, 0] ![0, 480] ![0, 0] (W main_v3 : S2048x20000.Idx → EReal)
          (sitofp .bf16 (show IVec S_ 32 from W main_c_0) : FVec Ideal S_ .bf16)
          pads_S2048x20000_S2048x20480_000_04800 h_S_ := by
  after_results
  rfl

/-- The first layer's bias as one row. -/
theorem after0_4_v13_apply (g : Fin 4000) :
    (StableHlo.after (hostOps0_4 (F := Ideal)) W main_v13 : S1x4000.Idx → EReal) (ix2 (0 : Fin 1) g)
      = (W main_arg4 : S4000.Idx → EReal) (ix1 g) := by
  after_results
  exact shapeCast_a_1a_apply (W main_arg4 : S4000.Idx → EReal) shapeCasts_S4000_S1x4000 0 g

/-- The first layer's scale gamma * rsqrt (var + eps) as one row. -/
theorem after0_4_v11_apply (g : Fin 4000) :
    (StableHlo.after (hostOps0_4 (F := Ideal)) W main_v11 : S1x4000.Idx → EReal) (ix2 (0 : Fin 1) g)
      = Cert.Spec.inv (S := S4000) (W main_arg7) (W main_arg10) (ix1 g) := by
  after_results
  refine (shapeCast_a_1a_apply _ shapeCasts_S4000_S1x4000 0 g).trans ?_
  rfl

/-- The first layer's offset beta - mean * scale as one row. -/
theorem after0_4_v12_apply (g : Fin 4000) :
    (StableHlo.after (hostOps0_4 (F := Ideal)) W main_v12 : S1x4000.Idx → EReal) (ix2 (0 : Fin 1) g)
      = Cert.Spec.shift (S := S4000) (W main_arg7) (W main_arg8) (W main_arg9) (W main_arg10) (ix1 g) := by
  after_results
  refine (shapeCast_a_1a_apply _ shapeCasts_S4000_S1x4000 0 g).trans ?_
  rfl

/-- The masked second-layer weights: the product, entry by entry. -/
theorem after1_v16_apply (i : S4000x500.Idx) :
    (StableHlo.after (hostOps1 (F := Ideal)) W main_v16 : S4000x500.Idx → EReal) i
      = rd S4000x500 (W main_arg5) i * rd S4000x500 (W main_arg2) i := by
  after_results
  rfl

theorem after1_c1 : (StableHlo.after (hostOps1 (F := Ideal)) W main_c_1 : S_.Idx → BitVec 32) = constantI S_ 32 0#32 := by
  after_results

/-- The second-layer weights with columns appended. -/
theorem after1_1_v17 :
    (StableHlo.after (hostOps1_1 (F := Ideal)) W main_v17 : S4000x512.Idx → EReal)
      = pad S4000x512 ![0, 0] ![0, 12] ![0, 0] (W main_v16 : S4000x500.Idx → EReal)
          (sitofp .bf16 (show IVec S_ 32 from W main_c_1) : FVec Ideal S_ .bf16)
          pads_S4000x500_S4000x512_000_0120 h_S_ := by
  after_results
  rfl

/-- The second layer's scale gamma * rsqrt (var + eps). -/
theorem after1_2_v21_apply (p : Fin 500) :
    (StableHlo.after (hostOps1_2 (F := Ideal)) W main_v21 : S500.Idx → EReal) (ix1 p)
      = Cert.Spec.inv (S := S500) (W main_arg11) (W main_arg14) (ix1 p) := by
  after_results
  rfl

/-- The second layer's offset beta - mean * scale. -/
theorem after1_2_v23_apply (p : Fin 500) :
    (StableHlo.after (hostOps1_2 (F := Ideal)) W main_v23 : S500.Idx → EReal) (ix1 p)
      = Cert.Spec.shift (S := S500) (W main_arg11) (W main_arg12) (W main_arg13) (W main_arg14) (ix1 p) := by
  after_results
  rfl

theorem after1_2_c3 : (StableHlo.after (hostOps1_2 (F := Ideal)) W main_c_3 : S_.Idx → BitVec 32) = constantI S_ 32 0#32 := by
  after_results

/-- The second layer's scale with entries appended. -/
theorem after1_3_v24 :
    (StableHlo.after (hostOps1_3 (F := Ideal)) W main_v24 : S512.Idx → EReal)
      = pad S512 ![0] ![12] ![0] (W main_v21 : S500.Idx → EReal)
          (sitofp .f32 (show IVec S_ 32 from W main_c_3) : FVec Ideal S_ .f32) pads_S500_S512_0120 h_S_ := by
  after_results
  rfl

theorem after1_4_c4 : (StableHlo.after (hostOps1_4 (F := Ideal)) W main_c_4 : S_.Idx → BitVec 32) = constantI S_ 32 0#32 := by
  after_results

/-- The second layer's offset with entries appended. -/
theorem after1_5_v25 :
    (StableHlo.after (hostOps1_5 (F := Ideal)) W main_v25 : S512.Idx → EReal)
      = pad S512 ![0] ![12] ![0] (W main_v23 : S500.Idx → EReal)
          (sitofp .f32 (show IVec S_ 32 from W main_c_4) : FVec Ideal S_ .f32) pads_S500_S512_0120 h_S_ := by
  after_results
  rfl

theorem after1_6_c5 : (StableHlo.after (hostOps1_6 (F := Ideal)) W main_c_5 : S_.Idx → BitVec 32) = constantI S_ 32 0#32 := by
  after_results

/-- The second layer's bias with entries appended. -/
theorem after1_7_v26 :
    (StableHlo.after (hostOps1_7 (F := Ideal)) W main_v26 : S512.Idx → EReal)
      = pad S512 ![0] ![12] ![0] (W main_arg6 : S500.Idx → EReal)
          (sitofp .f32 (show IVec S_ 32 from W main_c_5) : FVec Ideal S_ .f32) pads_S500_S512_0120 h_S_ := by
  after_results
  rfl

/-- The second layer's padded scale as one row. -/
theorem after1_8_v27_apply (p : Fin 512) :
    (StableHlo.after (hostOps1_8 (F := Ideal)) W main_v27 : S1x512.Idx → EReal) (ix2 (0 : Fin 1) p)
      = (W main_v24 : S512.Idx → EReal) (ix1 p) := by
  after_results
  exact shapeCast_a_1a_apply (W main_v24 : S512.Idx → EReal) shapeCasts_S512_S1x512 0 p

/-- The second layer's padded offset as one row. -/
theorem after1_8_v28_apply (p : Fin 512) :
    (StableHlo.after (hostOps1_8 (F := Ideal)) W main_v28 : S1x512.Idx → EReal) (ix2 (0 : Fin 1) p)
      = (W main_v25 : S512.Idx → EReal) (ix1 p) := by
  after_results
  exact shapeCast_a_1a_apply (W main_v25 : S512.Idx → EReal) shapeCasts_S512_S1x512 0 p

/-- The second layer's padded bias as one row. -/
theorem after1_8_v29_apply (p : Fin 512) :
    (StableHlo.after (hostOps1_8 (F := Ideal)) W main_v29 : S1x512.Idx → EReal) (ix2 (0 : Fin 1) p)
      = (W main_v26 : S512.Idx → EReal) (ix1 p) := by
  after_results
  exact shapeCast_a_1a_apply (W main_v26 : S512.Idx → EReal) shapeCasts_S512_S1x512 0 p

/-- The result: the first 500 columns of the second kernel's output. -/
theorem after2_v31_apply (r : Fin 2048) (p : Fin 500) :
    (StableHlo.after (hostOps2 (F := Ideal)) W main_v31 : S2048x500.Idx → EReal) (ix2 r p)
      = (W main_v30 : S2048x512.Idx → EReal) (ix2 r (up p)) := by
  after_results
  refine extractStridedSlice_apply _ _ slices_S2048x512_S2048x500_0_0 (ix2 r p) (ix2 r (up p)) fun a => ?_
  match a with
  | ⟨0, _⟩ => show r.val = 0 + r.val; omega
  | ⟨1, _⟩ => show p.val = 0 + p.val; omega

end Stretches

/-! ## What no item has written is as launched -/

section Facts
variable (m : (ℓ : Loc nD τ sig) → Buf (Elt Ideal) ℓ) (outs : Outs (F := Ideal)) (c : Dev nD)

theorem V2_arg0 : V2 m c main_arg0 = m ((c : Thread nD τ).loc main_arg0) :=
  ((V2_of m c main_arg0 (by decide)).trans <| (V1_of m c main_arg0 (by decide))).trans rfl
theorem V4_arg4 : V4 m c main_arg4 = m ((c : Thread nD τ).loc main_arg4) :=
  ((V4_of m c main_arg4 (by decide)).trans <| (V3_of m c main_arg4 (by decide)).trans <| (V2_of m c main_arg4 (by decide)).trans <| (V1_of m c main_arg4 (by decide))).trans rfl
theorem V4_arg7 : V4 m c main_arg7 = m ((c : Thread nD τ).loc main_arg7) :=
  ((V4_of m c main_arg7 (by decide)).trans <| (V3_of m c main_arg7 (by decide)).trans <| (V2_of m c main_arg7 (by decide)).trans <| (V1_of m c main_arg7 (by decide))).trans rfl
theorem V4_arg8 : V4 m c main_arg8 = m ((c : Thread nD τ).loc main_arg8) :=
  ((V4_of m c main_arg8 (by decide)).trans <| (V3_of m c main_arg8 (by decide)).trans <| (V2_of m c main_arg8 (by decide)).trans <| (V1_of m c main_arg8 (by decide))).trans rfl
theorem V4_arg9 : V4 m c main_arg9 = m ((c : Thread nD τ).loc main_arg9) :=
  ((V4_of m c main_arg9 (by decide)).trans <| (V3_of m c main_arg9 (by decide)).trans <| (V2_of m c main_arg9 (by decide)).trans <| (V1_of m c main_arg9 (by decide))).trans rfl
theorem V4_arg10 : V4 m c main_arg10 = m ((c : Thread nD τ).loc main_arg10) :=
  ((V4_of m c main_arg10 (by decide)).trans <| (V3_of m c main_arg10 (by decide)).trans <| (V2_of m c main_arg10 (by decide)).trans <| (V1_of m c main_arg10 (by decide))).trans rfl
theorem V6_arg5 : V6 m outs c main_arg5 = m ((c : Thread nD τ).loc main_arg5) :=
  ((V6_of m outs c main_arg5 (by decide)).trans <| (V5_of m c main_arg5 (by decide)).trans <| (V4_of m c main_arg5 (by decide)).trans <| (V3_of m c main_arg5 (by decide)).trans <| (V2_of m c main_arg5 (by decide)).trans <| (V1_of m c main_arg5 (by decide))).trans rfl
theorem V6_arg2 : V6 m outs c main_arg2 = m ((c : Thread nD τ).loc main_arg2) :=
  ((V6_of m outs c main_arg2 (by decide)).trans <| (V5_of m c main_arg2 (by decide)).trans <| (V4_of m c main_arg2 (by decide)).trans <| (V3_of m c main_arg2 (by decide)).trans <| (V2_of m c main_arg2 (by decide)).trans <| (V1_of m c main_arg2 (by decide))).trans rfl
theorem V8_arg11 : V8 m outs c main_arg11 = m ((c : Thread nD τ).loc main_arg11) :=
  ((V8_of m outs c main_arg11 (by decide)).trans <| (V7_of m outs c main_arg11 (by decide)).trans <| (V6_of m outs c main_arg11 (by decide)).trans <| (V5_of m c main_arg11 (by decide)).trans <| (V4_of m c main_arg11 (by decide)).trans <| (V3_of m c main_arg11 (by decide)).trans <| (V2_of m c main_arg11 (by decide)).trans <| (V1_of m c main_arg11 (by decide))).trans rfl
theorem V8_arg12 : V8 m outs c main_arg12 = m ((c : Thread nD τ).loc main_arg12) :=
  ((V8_of m outs c main_arg12 (by decide)).trans <| (V7_of m outs c main_arg12 (by decide)).trans <| (V6_of m outs c main_arg12 (by decide)).trans <| (V5_of m c main_arg12 (by decide)).trans <| (V4_of m c main_arg12 (by decide)).trans <| (V3_of m c main_arg12 (by decide)).trans <| (V2_of m c main_arg12 (by decide)).trans <| (V1_of m c main_arg12 (by decide))).trans rfl
theorem V8_arg13 : V8 m outs c main_arg13 = m ((c : Thread nD τ).loc main_arg13) :=
  ((V8_of m outs c main_arg13 (by decide)).trans <| (V7_of m outs c main_arg13 (by decide)).trans <| (V6_of m outs c main_arg13 (by decide)).trans <| (V5_of m c main_arg13 (by decide)).trans <| (V4_of m c main_arg13 (by decide)).trans <| (V3_of m c main_arg13 (by decide)).trans <| (V2_of m c main_arg13 (by decide)).trans <| (V1_of m c main_arg13 (by decide))).trans rfl
theorem V8_arg14 : V8 m outs c main_arg14 = m ((c : Thread nD τ).loc main_arg14) :=
  ((V8_of m outs c main_arg14 (by decide)).trans <| (V7_of m outs c main_arg14 (by decide)).trans <| (V6_of m outs c main_arg14 (by decide)).trans <| (V5_of m c main_arg14 (by decide)).trans <| (V4_of m c main_arg14 (by decide)).trans <| (V3_of m c main_arg14 (by decide)).trans <| (V2_of m c main_arg14 (by decide)).trans <| (V1_of m c main_arg14 (by decide))).trans rfl
theorem V13_arg6 : V13 m outs c main_arg6 = m ((c : Thread nD τ).loc main_arg6) :=
  ((V13_of m outs c main_arg6 (by decide)).trans <| (V12_of m outs c main_arg6 (by decide)).trans <| (V11_of m outs c main_arg6 (by decide)).trans <| (V10_of m outs c main_arg6 (by decide)).trans <| (V9_of m outs c main_arg6 (by decide)).trans <| (V8_of m outs c main_arg6 (by decide)).trans <| (V7_of m outs c main_arg6 (by decide)).trans <| (V6_of m outs c main_arg6 (by decide)).trans <| (V5_of m c main_arg6 (by decide)).trans <| (V4_of m c main_arg6 (by decide)).trans <| (V3_of m c main_arg6 (by decide)).trans <| (V2_of m c main_arg6 (by decide)).trans <| (V1_of m c main_arg6 (by decide))).trans rfl

/-! ## The first kernel's arrays on entry -/

/-- The first kernel's input operand on entry. -/
abbrev X0 : S2048x20480.Idx → EReal := V5 m c (Pipeline.arrRef spec0 0)
/-- The first kernel's weight operand on entry. -/
abbrev W0 : S20480x4000.Idx → EReal := V5 m c (Pipeline.arrRef spec0 1)
/-- The first kernel's bias row on entry. -/
abbrev B0 : S1x4000.Idx → EReal := V5 m c (Pipeline.arrRef spec0 2)
/-- The first kernel's scale row on entry. -/
abbrev I0 : S1x4000.Idx → EReal := V5 m c (Pipeline.arrRef spec0 3)
/-- The first kernel's offset row on entry. -/
abbrev T0 : S1x4000.Idx → EReal := V5 m c (Pipeline.arrRef spec0 4)
/-- What the first kernel leaves in its output array. -/
abbrev O0 : S2048x4000.Idx → EReal := outs 6 main_v14 c

/-- The first kernel's input operand: the input, with zero columns from 20000 on. -/
theorem X0_apply (r : Fin 2048) (k : Fin 20480) :
    X0 m c (ix2 r k)
      = if h : k.val < 20000 then rd S2048x20000 (m ((c : Thread nD τ).loc main_arg0)) (ix2 r ⟨k.val, h⟩) else 0 := by
  show (V5 m c main_v4 : S2048x20480.Idx → EReal) (ix2 r k) = _
  rw [V5_of m c main_v4 (by decide)]
  show (StableHlo.after hostOps0_3 (V3 m c) main_v4 : S2048x20480.Idx → EReal) (ix2 r k) = _
  rw [after0_3_v4, pad_cols_apply]
  by_cases hk : k.val < 20000
  · rw [dif_pos hk, dif_pos hk]
    show (StableHlo.after hostOps0_2 (V2 m c) main_v3 : S2048x20000.Idx → EReal) (ix2 r ⟨k.val, hk⟩) = _
    rw [after0_2_v3_apply, V2_arg0]
  · rw [dif_neg hk, dif_neg hk]
    show (sitofp .bf16 (show IVec S_ 32 from StableHlo.after hostOps0_2 (V2 m c) main_c_0) : FVec Ideal S_ .bf16) _ = 0
    rw [after0_2_c0]
    exact padValue_eq .bf16 h_S_

/-- The first kernel's weight operand: the masked weights, with zero rows from 20000 on. -/
theorem W0_apply (k : Fin 20480) (g : Fin 4000) :
    W0 m c (ix2 k g)
      = if h : k.val < 20000 then rd S20000x4000 (m ((c : Thread nD τ).loc main_arg3)) (ix2 ⟨k.val, h⟩ g)
          * rd S20000x4000 (m ((c : Thread nD τ).loc main_arg1)) (ix2 ⟨k.val, h⟩ g) else 0 := by
  show (V5 m c main_v2 : S20480x4000.Idx → EReal) (ix2 k g) = _
  rw [V5_of m c main_v2 (by decide), V4_of m c main_v2 (by decide), V3_of m c main_v2 (by decide)]
  show (StableHlo.after hostOps0_1 (V1 m c) main_v2 : S20480x4000.Idx → EReal) (ix2 k g) = _
  rw [after0_1_v2, pad_rows_apply]
  by_cases hk : k.val < 20000
  · rw [dif_pos hk, dif_pos hk]
    show (StableHlo.after hostOps0 (V0 m c) main_v1 : S20000x4000.Idx → EReal) (ix2 ⟨k.val, hk⟩ g) = _
    rw [after0_v1_apply]
  · rw [dif_neg hk, dif_neg hk]
    show (sitofp .bf16 (show IVec S_ 32 from StableHlo.after hostOps0 (V0 m c) main_c) : FVec Ideal S_ .bf16) _ = 0
    rw [after0_c]
    exact padValue_eq .bf16 h_S_

/-- The first kernel's bias row. -/
theorem B0_apply (g : Fin 4000) :
    B0 m c (ix2 (0 : Fin 1) g) = rd S4000 (m ((c : Thread nD τ).loc main_arg4)) (ix1 g) := by
  show (StableHlo.after hostOps0_4 (V4 m c) main_v13 : S1x4000.Idx → EReal) (ix2 (0 : Fin 1) g) = _
  rw [after0_4_v13_apply, V4_arg4]

/-- The first kernel's scale row. -/
theorem I0_apply (g : Fin 4000) :
    I0 m c (ix2 (0 : Fin 1) g)
      = Cert.Spec.inv (S := S4000) (m ((c : Thread nD τ).loc main_arg7)) (m ((c : Thread nD τ).loc main_arg10)) (ix1 g) := by
  show (StableHlo.after hostOps0_4 (V4 m c) main_v11 : S1x4000.Idx → EReal) (ix2 (0 : Fin 1) g) = _
  rw [after0_4_v11_apply, V4_arg7, V4_arg10]

/-- The first kernel's offset row. -/
theorem T0_apply (g : Fin 4000) :
    T0 m c (ix2 (0 : Fin 1) g)
      = Cert.Spec.shift (S := S4000) (m ((c : Thread nD τ).loc main_arg7)) (m ((c : Thread nD τ).loc main_arg8)) (m ((c : Thread nD τ).loc main_arg9)) (m ((c : Thread nD τ).loc main_arg10)) (ix1 g) := by
  show (StableHlo.after hostOps0_4 (V4 m c) main_v12 : S1x4000.Idx → EReal) (ix2 (0 : Fin 1) g) = _
  rw [after0_4_v12_apply, V4_arg7, V4_arg8, V4_arg9, V4_arg10]

/-! ## The second kernel's arrays on entry -/

/-- The second kernel's input operand on entry. -/
abbrev X1 : S2048x4000.Idx → EReal := V15 m outs c (Pipeline.arrRef spec1 0)
/-- The second kernel's weight operand on entry. -/
abbrev W1 : S4000x512.Idx → EReal := V15 m outs c (Pipeline.arrRef spec1 1)
/-- The second kernel's bias row on entry. -/
abbrev B1 : S1x512.Idx → EReal := V15 m outs c (Pipeline.arrRef spec1 2)
/-- The second kernel's scale row on entry. -/
abbrev I1 : S1x512.Idx → EReal := V15 m outs c (Pipeline.arrRef spec1 3)
/-- The second kernel's offset row on entry. -/
abbrev T1 : S1x512.Idx → EReal := V15 m outs c (Pipeline.arrRef spec1 4)
/-- What the second kernel leaves in its output array. -/
abbrev O1 : S2048x512.Idx → EReal := outs 16 main_v30 c

/-- The second kernel's input operand is what the first kernel left: no host stretch between them writes it. -/
theorem X1_eq : X1 m outs c = O0 outs c := by
  show V15 m outs c main_v14 = outs 6 main_v14 c
  refine ((V15_of m outs c main_v14 (by decide)).trans <| (V14_of m outs c main_v14 (by decide)).trans <| (V13_of m outs c main_v14 (by decide)).trans <| (V12_of m outs c main_v14 (by decide)).trans <| (V11_of m outs c main_v14 (by decide)).trans <| (V10_of m outs c main_v14 (by decide)).trans <| (V9_of m outs c main_v14 (by decide)).trans <| (V8_of m outs c main_v14 (by decide)).trans <| (V7_of m outs c main_v14 (by decide))).trans ?_
  exact Function.update_self ..

/-- The second kernel's weight operand: the masked weights, with zero columns from 500 on. -/
theorem W1_apply (g : Fin 4000) (p : Fin 512) :
    W1 m outs c (ix2 g p)
      = if h : p.val < 500 then rd S4000x500 (m ((c : Thread nD τ).loc main_arg5)) (ix2 g ⟨p.val, h⟩)
          * rd S4000x500 (m ((c : Thread nD τ).loc main_arg2)) (ix2 g ⟨p.val, h⟩) else 0 := by
  show (V15 m outs c main_v17 : S4000x512.Idx → EReal) (ix2 g p) = _
  have e : V15 m outs c main_v17 = V8 m outs c main_v17 :=
    (V15_of m outs c main_v17 (by decide)).trans <| (V14_of m outs c main_v17 (by decide)).trans <| (V13_of m outs c main_v17 (by decide)).trans <| (V12_of m outs c main_v17 (by decide)).trans <| (V11_of m outs c main_v17 (by decide)).trans <| (V10_of m outs c main_v17 (by decide)).trans <| (V9_of m outs c main_v17 (by decide))
  rw [e]
  show (StableHlo.after hostOps1_1 (V7 m outs c) main_v17 : S4000x512.Idx → EReal) (ix2 g p) = _
  rw [after1_1_v17, pad_cols_apply]
  by_cases hp : p.val < 500
  · rw [dif_pos hp, dif_pos hp]
    show (StableHlo.after hostOps1 (V6 m outs c) main_v16 : S4000x500.Idx → EReal) (ix2 g ⟨p.val, hp⟩) = _
    rw [after1_v16_apply, V6_arg5, V6_arg2]
  · rw [dif_neg hp, dif_neg hp]
    show (sitofp .bf16 (show IVec S_ 32 from StableHlo.after hostOps1 (V6 m outs c) main_c_1) : FVec Ideal S_ .bf16) _ = 0
    rw [after1_c1]
    exact padValue_eq .bf16 h_S_

/-- The second kernel's bias row: the bias, with zeros from 500 on. -/
theorem B1_apply (p : Fin 512) :
    B1 m outs c (ix2 (0 : Fin 1) p)
      = if h : p.val < 500 then rd S500 (m ((c : Thread nD τ).loc main_arg6)) (ix1 ⟨p.val, h⟩) else 0 := by
  show (StableHlo.after hostOps1_8 (V14 m outs c) main_v29 : S1x512.Idx → EReal) (ix2 (0 : Fin 1) p) = _
  rw [after1_8_v29_apply]
  show (StableHlo.after hostOps1_7 (V13 m outs c) main_v26 : S512.Idx → EReal) (ix1 p) = _
  rw [after1_7_v26, pad_vec_apply]
  by_cases hp : p.val < 500
  · rw [dif_pos hp, dif_pos hp, V13_arg6]
  · rw [dif_neg hp, dif_neg hp]
    show (sitofp .f32 (show IVec S_ 32 from StableHlo.after hostOps1_6 (V12 m outs c) main_c_5) : FVec Ideal S_ .f32) _ = 0
    rw [after1_6_c5]
    exact padValue_eq .f32 h_S_

/-- The second kernel's scale row: gamma * rsqrt (var + eps), with zeros from 500 on. -/
theorem I1_apply (p : Fin 512) :
    I1 m outs c (ix2 (0 : Fin 1) p)
      = if h : p.val < 500 then Cert.Spec.inv (S := S500) (m ((c : Thread nD τ).loc main_arg11)) (m ((c : Thread nD τ).loc main_arg14)) (ix1 ⟨p.val, h⟩) else 0 := by
  show (StableHlo.after hostOps1_8 (V14 m outs c) main_v27 : S1x512.Idx → EReal) (ix2 (0 : Fin 1) p) = _
  rw [after1_8_v27_apply]
  have e : V14 m outs c main_v24 = V10 m outs c main_v24 :=
    (V14_of m outs c main_v24 (by decide)).trans <| (V13_of m outs c main_v24 (by decide)).trans <| (V12_of m outs c main_v24 (by decide)).trans <| (V11_of m outs c main_v24 (by decide))
  rw [e]
  show (StableHlo.after hostOps1_3 (V9 m outs c) main_v24 : S512.Idx → EReal) (ix1 p) = _
  rw [after1_3_v24, pad_vec_apply]
  by_cases hp : p.val < 500
  · rw [dif_pos hp, dif_pos hp]
    show (StableHlo.after hostOps1_2 (V8 m outs c) main_v21 : S500.Idx → EReal) (ix1 ⟨p.val, hp⟩) = _
    rw [after1_2_v21_apply, V8_arg11, V8_arg14]
  · rw [dif_neg hp, dif_neg hp]
    show (sitofp .f32 (show IVec S_ 32 from StableHlo.after hostOps1_2 (V8 m outs c) main_c_3) : FVec Ideal S_ .f32) _ = 0
    rw [after1_2_c3]
    exact padValue_eq .f32 h_S_

/-- The second kernel's offset row: beta - mean * scale, with zeros from 500 on. -/
theorem T1_apply (p : Fin 512) :
    T1 m outs c (ix2 (0 : Fin 1) p)
      = if h : p.val < 500 then Cert.Spec.shift (S := S500) (m ((c : Thread nD τ).loc main_arg11)) (m ((c : Thread nD τ).loc main_arg12)) (m ((c : Thread nD τ).loc main_arg13)) (m ((c : Thread nD τ).loc main_arg14)) (ix1 ⟨p.val, h⟩) else 0 := by
  show (StableHlo.after hostOps1_8 (V14 m outs c) main_v28 : S1x512.Idx → EReal) (ix2 (0 : Fin 1) p) = _
  rw [after1_8_v28_apply]
  have e : V14 m outs c main_v25 = V12 m outs c main_v25 :=
    (V14_of m outs c main_v25 (by decide)).trans <| (V13_of m outs c main_v25 (by decide))
  rw [e]
  show (StableHlo.after hostOps1_5 (V11 m outs c) main_v25 : S512.Idx → EReal) (ix1 p) = _
  rw [after1_5_v25, pad_vec_apply]
  by_cases hp : p.val < 500
  · rw [dif_pos hp, dif_pos hp]
    have e2 : V11 m outs c main_v23 = V9 m outs c main_v23 :=
      (V11_of m outs c main_v23 (by decide)).trans <| (V10_of m outs c main_v23 (by decide))
    rw [e2]
    show (StableHlo.after hostOps1_2 (V8 m outs c) main_v23 : S500.Idx → EReal) (ix1 ⟨p.val, hp⟩) = _
    rw [after1_2_v23_apply, V8_arg11, V8_arg12, V8_arg13, V8_arg14]
  · rw [dif_neg hp, dif_neg hp]
    show (sitofp .f32 (show IVec S_ 32 from StableHlo.after hostOps1_4 (V10 m outs c) main_c_4) : FVec Ideal S_ .f32) _ = 0
    rw [after1_4_c4]
    exact padValue_eq .f32 h_S_

/-! ## The result -/

/-- The program's result at a column below 500 is what the second kernel left there. -/
theorem result_apply (r : Fin 2048) (p : Fin 500) :
    rd S2048x500 (V17 m outs c main_v31) (ix2 r p) = O1 outs c (ix2 r (up p)) := by
  show (StableHlo.after hostOps2 (V16 m outs c) main_v31 : S2048x500.Idx → EReal) (ix2 r p) = _
  rw [after2_v31_apply]
  have e : V16 m outs c main_v30 = outs 16 main_v30 c := Function.update_self ..
  rw [e]

/-! ## The closing algebra -/

/-- The first kernel's output, in closed form over its arrays on entry, is the specification's hidden activations:
    the 480 padded terms of the contraction are products with a zero factor. -/
theorem hidden_of
    (h0 : ∀ (r : Fin 2048) (g : Fin 4000), O0 outs c (ix2 r g)
        = max ((∑ k : Fin 20480, X0 m c (ix2 r k) * W0 m c (ix2 k g)) + B0 m c (ix2 (0 : Fin 1) g)) 0
            * I0 m c (ix2 (0 : Fin 1) g) + T0 m c (ix2 (0 : Fin 1) g))
    (r : Fin 2048) (g : Fin 4000) :
    O0 outs c (ix2 r g) = Cert.Spec.hidden (m ((c : Thread nD τ).loc main_arg0)) (m ((c : Thread nD τ).loc main_arg1)) (m ((c : Thread nD τ).loc main_arg3)) (m ((c : Thread nD τ).loc main_arg4)) (m ((c : Thread nD τ).loc main_arg7)) (m ((c : Thread nD τ).loc main_arg8)) (m ((c : Thread nD τ).loc main_arg9)) (m ((c : Thread nD τ).loc main_arg10)) (ix2 r g) := by
  rw [h0, Cert.Spec.hidden_apply, B0_apply, I0_apply, T0_apply]
  have hs : (∑ k : Fin 20480, X0 m c (ix2 r k) * W0 m c (ix2 k g))
      = ∑ j : Fin 20000, rd S2048x20000 (m ((c : Thread nD τ).loc main_arg0)) (ix2 r j)
          * (rd S20000x4000 (m ((c : Thread nD τ).loc main_arg3)) (ix2 j g) * rd S20000x4000 (m ((c : Thread nD τ).loc main_arg1)) (ix2 j g)) := by
    rw [sum_fin_pad 20000 (by decide) (fun k : Fin 20480 => X0 m c (ix2 r k) * W0 m c (ix2 k g))
      (fun k hk => by
        show X0 m c (ix2 r k) * W0 m c (ix2 k g) = 0
        rw [X0_apply, dif_neg (Nat.not_lt.2 hk), zero_mul])]
    refine Finset.sum_congr rfl fun j _ => ?_
    have hj : (Fin.castLE (n := 20000) (m := 20480) (by decide) j).val < 20000 := j.isLt
    show X0 m c (ix2 r (Fin.castLE (by decide) j)) * W0 m c (ix2 (Fin.castLE (by decide) j) g) = _
    rw [X0_apply, W0_apply, dif_pos hj, dif_pos hj]
    rfl
  rw [hs]

/-- The program's result, given the two kernels' outputs in closed form over the arrays they are entered with, is the
    specification of the fifteen arguments. -/
theorem result_value_rd
    (h0 : ∀ (r : Fin 2048) (g : Fin 4000), O0 outs c (ix2 r g)
        = max ((∑ k : Fin 20480, X0 m c (ix2 r k) * W0 m c (ix2 k g)) + B0 m c (ix2 (0 : Fin 1) g)) 0
            * I0 m c (ix2 (0 : Fin 1) g) + T0 m c (ix2 (0 : Fin 1) g))
    (h1 : ∀ (r : Fin 2048) (p : Fin 512), O1 outs c (ix2 r p)
        = Ideal.tanh (((∑ g : Fin 4000, X1 m outs c (ix2 r g) * W1 m outs c (ix2 g p)) + B1 m outs c (ix2 (0 : Fin 1) p))
            * I1 m outs c (ix2 (0 : Fin 1) p) + T1 m outs c (ix2 (0 : Fin 1) p))) :
    rd S2048x500 (V17 m outs c main_v31)
      = Cert.Spec.out (m ((c : Thread nD τ).loc main_arg0))
        (m ((c : Thread nD τ).loc main_arg1))
        (m ((c : Thread nD τ).loc main_arg2))
        (m ((c : Thread nD τ).loc main_arg3))
        (m ((c : Thread nD τ).loc main_arg4))
        (m ((c : Thread nD τ).loc main_arg5))
        (m ((c : Thread nD τ).loc main_arg6))
        (m ((c : Thread nD τ).loc main_arg7))
        (m ((c : Thread nD τ).loc main_arg8))
        (m ((c : Thread nD τ).loc main_arg9))
        (m ((c : Thread nD τ).loc main_arg10))
        (m ((c : Thread nD τ).loc main_arg11))
        (m ((c : Thread nD τ).loc main_arg12))
        (m ((c : Thread nD τ).loc main_arg13))
        (m ((c : Thread nD τ).loc main_arg14)) := by
  funext i
  obtain ⟨r, p, rfl⟩ : ∃ (r : Fin 2048) (p : Fin 500), i = ix2 r p := ⟨i 0, i 1, eq_ix2 i⟩
  refine (result_apply m outs c r p).trans ?_
  have hp : (up p).val < 500 := p.isLt
  rw [h1, Cert.Spec.out_apply, B1_apply, I1_apply, T1_apply, dif_pos hp, dif_pos hp, dif_pos hp]
  have hs : (∑ g : Fin 4000, X1 m outs c (ix2 r g) * W1 m outs c (ix2 g (up p)))
      = ∑ g : Fin 4000, Cert.Spec.hidden (m ((c : Thread nD τ).loc main_arg0)) (m ((c : Thread nD τ).loc main_arg1)) (m ((c : Thread nD τ).loc main_arg3)) (m ((c : Thread nD τ).loc main_arg4)) (m ((c : Thread nD τ).loc main_arg7)) (m ((c : Thread nD τ).loc main_arg8)) (m ((c : Thread nD τ).loc main_arg9)) (m ((c : Thread nD τ).loc main_arg10)) (ix2 r g)
          * (rd S4000x500 (m ((c : Thread nD τ).loc main_arg5)) (ix2 g p) * rd S4000x500 (m ((c : Thread nD τ).loc main_arg2)) (ix2 g p)) := by
    refine Finset.sum_congr rfl fun g _ => ?_
    rw [X1_eq, hidden_of m outs c h0, W1_apply, dif_pos hp]
  rw [hs]

/-- The same, with the result buffer as the valuation gives it. -/
theorem result_value_of
    (h0 : ∀ (r : Fin 2048) (g : Fin 4000), O0 outs c (ix2 r g)
        = max ((∑ k : Fin 20480, X0 m c (ix2 r k) * W0 m c (ix2 k g)) + B0 m c (ix2 (0 : Fin 1) g)) 0
            * I0 m c (ix2 (0 : Fin 1) g) + T0 m c (ix2 (0 : Fin 1) g))
    (h1 : ∀ (r : Fin 2048) (p : Fin 512), O1 outs c (ix2 r p)
        = Ideal.tanh (((∑ g : Fin 4000, X1 m outs c (ix2 r g) * W1 m outs c (ix2 g p)) + B1 m outs c (ix2 (0 : Fin 1) p))
            * I1 m outs c (ix2 (0 : Fin 1) p) + T1 m outs c (ix2 (0 : Fin 1) p))) :
    V17 m outs c main_v31
      = Cert.Spec.out (m ((c : Thread nD τ).loc main_arg0))
        (m ((c : Thread nD τ).loc main_arg1))
        (m ((c : Thread nD τ).loc main_arg2))
        (m ((c : Thread nD τ).loc main_arg3))
        (m ((c : Thread nD τ).loc main_arg4))
        (m ((c : Thread nD τ).loc main_arg5))
        (m ((c : Thread nD τ).loc main_arg6))
        (m ((c : Thread nD τ).loc main_arg7))
        (m ((c : Thread nD τ).loc main_arg8))
        (m ((c : Thread nD τ).loc main_arg9))
        (m ((c : Thread nD τ).loc main_arg10))
        (m ((c : Thread nD τ).loc main_arg11))
        (m ((c : Thread nD τ).loc main_arg12))
        (m ((c : Thread nD τ).loc main_arg13))
        (m ((c : Thread nD τ).loc main_arg14)) :=
  result_value_rd m outs c h0 h1

end Facts

end Cert.KernelIdeal.HostGlue

end
-- ==== Proof.ResultValue.lean ====
/-
  The result of the idealized kernel as a function of the arguments: whatever contents the two regions may have
  left in the hidden activations' array and in the padded result's array, the closing slice reads the specification's
  output off them — the first region's write-backs hold, inside the array, the first layer of the specification over
  the zero-padded operands; the second region's hold the second layer over those; zero padding adds nothing to
  either sum, and the slice drops the padded columns.
-/
import proofs.«171824_j50646254354906_2_alg».proof.Proof.IdealRegion0
import proofs.«171824_j50646254354906_2_alg».proof.Proof.IdealValue0
import proofs.«171824_j50646254354906_2_alg».proof.Proof.IdealValue1
import proofs.«171824_j50646254354906_2_alg».proof.Proof.IdealHostGlue

noncomputable section

namespace Cert.KernelIdeal.Hand

open Cert.KernelIdeal Cert.KernelIdeal.Gen Cert.KernelIdeal.HostGlue
open Idealize.ShloMosaic Idealize.ShloMosaic.TcCoe Idealize.ShloMosaic.ValueIdx

theorem result_value (m : (ℓ : Loc nD τ sig) → Buf (Elt Ideal) ℓ) (c : Dev nD) (o : Outs (F := Ideal))
    (h0 : P0 m o c) (h1 : P1 m o c) :
    V17 m o c main_v31 = Cert.Spec.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) :=
  result_value_of m o c
    (fun r g => region0_value_of (W5 m) c (o 6 main_v14 c) h0 (X0 m c) (W0 m c) (B0 m c) (I0 m c) (T0 m c) rfl rfl rfl rfl rfl r g)
    (fun r p => region1_value_of (W15 m o) c (o 16 main_v30 c) h1 (X1 m o c) (W1 m o c) (B1 m o c) (I1 m o c) (T1 m o c) rfl rfl rfl rfl rfl r p)

end Cert.KernelIdeal.Hand

end
-- ==== Proof.lean ====
/-
  The certificate of a two-layer masked perceptron with evaluation-mode batch normalisation, computed by two
  tiled kernel regions between host stretches, against its plain array-language reference.

  Both programs, read over the extended reals, compute the specification `Cert.Spec.out`: the hidden activations
  max (x · (W1 ∘ mask1) + b1) 0 · inv1 + shift1 and the result tanh ((hidden · (W2 ∘ mask2) + b2) · inv2 + shift2).
  The kernel pads the first contraction's axis with zeros and sums it in sixteen blocks, pads the result's columns
  with zeros and slices them off; addition on the extended reals is commutative and associative and the padded terms
  are zero, so nothing changes. The run of the kernel program is proved once for any float instance: every weakly
  fair execution terminates without a fault with the arguments as at launch (the three frames; the word-level
  program and its idealization share that proof), and at the extended reals the result's buffer is the specification's
  output, which the reference's run also ends with. The idealization rewrote no operation, so nothing is owed for it.
-/
import proofs.«171824_j50646254354906_2_alg».proof.Defs
import proofs.«171824_j50646254354906_2_alg».proof.Proof.Gen.Kernel
import proofs.«171824_j50646254354906_2_alg».proof.Proof.Gen.KernelIdeal
import proofs.«171824_j50646254354906_2_alg».proof.Proof.Gen.ReferenceIdeal
import proofs.«171824_j50646254354906_2_alg».proof.Proof.Gen.Pre_finite_inputs
import proofs.«171824_j50646254354906_2_alg».proof.Proof.RefValue
import proofs.«171824_j50646254354906_2_alg».proof.Proof.IdealRun
import proofs.«171824_j50646254354906_2_alg».proof.Proof.WordRun
import proofs.«171824_j50646254354906_2_alg».proof.Proof.ResultValue
import Idealize.ShloMosaic.Adequacy
import Idealize.ShloMosaic.Init

noncomputable section

namespace Cert.Proof

open Idealize.ShloMosaic Idealize.ShloMosaic.TcCoe Idealize.SL.Sem

/-- The word-level program runs and keeps its arguments. -/
theorem frame_p : Cert.frame_Kernel := fun m ρ _ =>
  (θ_run Cert.Kernel.defs _ _).mono (fun r h c => by obtain ⟨_, _, _, _, hk⟩ := h c; exact hk)
    (Cert.Kernel.Hand.run_main (F := Bits) m ρ)

/-- So does its idealization. -/
theorem frame_pi : Cert.frame_KernelIdeal := fun m ρ _ =>
  (θ_run Cert.KernelIdeal.defs _ _).mono (fun r h c => by obtain ⟨_, _, _, _, hk⟩ := h c; exact hk)
    (Cert.KernelIdeal.Hand.run_main (F := Ideal) m ρ)

/-- The reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Over the extended reals both programs end with the specification's output of the arguments. -/
theorem algebraic : Cert.algebraic_KernelIdeal_ReferenceIdeal := by
  intro m ρ m' ρ' _ hagree
  refine ⟨fun c => Cert.Spec.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)), ?_, ?_⟩
  · refine (θ_run Cert.KernelIdeal.defs _ _).mono (fun r h c => ?_) (Cert.KernelIdeal.Hand.run_main (F := Ideal) m ρ)
    obtain ⟨o, h0, h1, hv, hk⟩ := h c
    exact ⟨hv.trans (Cert.KernelIdeal.Hand.result_value m c o h0 h1), hk⟩
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9, e10, e11, e12, e13, e14⟩ := hagree c
    rw [e0, e1, e2, e3, e4, e5, e6, e7, e8, e9, e10, e11, e12, e13, e14]
    exact Cert.ReferenceIdeal.RefValue.result_eq _ _ _ _ _ _ _ _ _ _ _ _ _ _ _

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
